-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S14x128x128 : Shape := ⟨3, ![14, 128, 128]⟩
abbrev S14x128 : Shape := ⟨2, ![14, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S14x128x128 : S_.BroadcastsInDim S14x128x128 (![] : Fin 0 → Fin S14x128x128.rank)
  reducesTo_S14x128x128_S_d0_1_2 : S14x128x128.ReducesTo [0, 1, 2] S_
  bcast_S_S14x128 : S_.BroadcastsInDim S14x128 (![] : Fin 0 → Fin S14x128.rank)
  reducesTo_S14x128_S_d0_1 : S14x128.ReducesTo [0, 1] S_

variable [Facts]

def fn_part1 {F : FTy → Type} [FloatOps F] (main_v13 : IVec S_ 1) (main_v16 : IVec S14x128 1) : IVec S_ 1 :=
  let main_c_5 : IVec S_ 1 := constantI S_ 1 1#1
  let main_v17 : IVec S_ 1 := (fun x v => Host.reduce IntOp.andi x v reducesTo_S14x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S14x128x128 .f32) (main_arg3 : FVec F S14x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S14x128x128 .f32 := Host.absf main_arg2
  let main_cst_2 : FVec F S_ .f32 := constant S_ .f32 0x7F800000#32
  let main_v10 : FVec F S14x128x128 .f32 := broadcastInDim S14x128x128 ![] bcast_S_S14x128x128 main_cst_2
  let main_v11 : IVec S14x128x128 1 := cmpf .olt main_v9 main_v10
  let main_c_3 : IVec S_ 1 := constantI S_ 1 1#1
  let main_v12 : IVec S_ 1 := (fun x v => Host.reduce IntOp.andi x v reducesTo_S14x128x128_S_d0_1_2 h_S_) main_v11 main_c_3
  let main_v13 : IVec S_ 1 := andi main_v8 main_v12
  let main_v14 : FVec F S14x128 .f32 := Host.absf main_arg3
  let main_cst_4 : FVec F S_ .f32 := constant S_ .f32 0x7F800000#32
  let main_v15 : FVec F S14x128 .f32 := broadcastInDim S14x128 ![] bcast_S_S14x128 main_cst_4
  let main_v16 : IVec S14x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S14x128x128 : Shape := ⟨3, ![14, 128, 128]⟩
abbrev S14x128 : Shape := ⟨2, ![14, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10000x768 : Shape := ⟨2, ![10000, 768]⟩
abbrev S10000x9232 : Shape := ⟨2, ![10000, 9232]⟩
abbrev S13x128x128 : Shape := ⟨3, ![13, 128, 128]⟩
abbrev S13x128 : Shape := ⟨2, ![13, 128]⟩
abbrev S400x10000 : Shape := ⟨2, ![400, 10000]⟩
abbrev S400x768 : Shape := ⟨2, ![400, 768]⟩
abbrev S400x9232 : Shape := ⟨2, ![400, 9232]⟩
abbrev S400x128 : Shape := ⟨2, ![400, 128]⟩
abbrev S1000x9232 : Shape := ⟨2, ![1000, 9232]⟩
abbrev S1000x128 : Shape := ⟨2, ![1000, 128]⟩
abbrev S2x10000x128 : Shape := ⟨3, ![2, 10000, 128]⟩
abbrev S1x10000x128 : Shape := ⟨3, ![1, 10000, 128]⟩
abbrev S1000x768 : Shape := ⟨2, ![1000, 768]⟩
abbrev S768x128 : Shape := ⟨2, ![768, 128]⟩
abbrev S9232x128 : Shape := ⟨2, ![9232, 128]⟩
abbrev S1x1000x128 : Shape := ⟨3, ![1, 1000, 128]⟩

abbrev nBuf : Space → Nat
  | .hbm => 16
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S14x128x128, .f32⟩
  | .hbm, ⟨3, _⟩ => ⟨S14x128, .f32⟩
  | .hbm, ⟨4, _⟩ => ⟨S10000x128, .bf16⟩
  | .hbm, ⟨5, _⟩ => ⟨S1x128x128, .f32⟩
  | .hbm, ⟨6, _⟩ => ⟨S128x128, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S10000x768, .bf16⟩
  | .hbm, ⟨11, _⟩ => ⟨S10000x9232, .bf16⟩
  | .hbm, ⟨12, _⟩ => ⟨S10000x128, .bf16⟩
  | .hbm, ⟨13, _⟩ => ⟨S13x128x128, .f32⟩
  | .hbm, ⟨14, _⟩ => ⟨S13x128, .f32⟩
  | .hbm, ⟨15, _⟩ => ⟨S10000x128, .f32⟩
  | .local _ .vmem, ⟨0, _⟩ => ⟨S10000x128, .bf16⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S400x768, .bf16⟩
  | .local _ .vmem, ⟨6, _⟩ => ⟨S400x768, .bf16⟩
  | .local _ .vmem, ⟨7, _⟩ => ⟨S400x9232, .bf16⟩
  | .local _ .vmem, ⟨8, _⟩ => ⟨S400x9232, .bf16⟩
  | .local _ .vmem, ⟨9, _⟩ => ⟨S400x128, .bf16⟩
  | .local _ .vmem, ⟨10, _⟩ => ⟨S400x128, .bf16⟩
  | .local _ .vmem, ⟨11, _⟩ => ⟨S10000x768, .bf16⟩
  | .local _ .vmem, ⟨12, _⟩ => ⟨S1000x9232, .bf16⟩
  | .local _ .vmem, ⟨13, _⟩ => ⟨S1000x9232, .bf16⟩
  | .local _ .vmem, ⟨14, _⟩ => ⟨S10000x128, .bf16⟩
  | .local _ .vmem, ⟨15, _⟩ => ⟨S13x128x128, .f32⟩
  | .local _ .vmem, ⟨16, _⟩ => ⟨S13x128, .f32⟩
  | .local _ .vmem, ⟨17, _⟩ => ⟨S1000x128, .f32⟩
  | .local _ .vmem, ⟨18, _⟩ => ⟨S1000x128, .f32⟩
  | .local _ .vmem, ⟨19, _⟩ => ⟨S2x10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6_0 : Ref sig .tc := ⟨.hbm, 10, rfl⟩
abbrev main_call0_v6_1 : Ref sig .tc := ⟨.hbm, 11, rfl⟩
abbrev main_call0_v6_2 : Ref sig .tc := ⟨.hbm, 12, rfl⟩
abbrev main_call0_v7 : Ref sig .tc := ⟨.hbm, 13, rfl⟩
abbrev main_call0_v8 : Ref sig .tc := ⟨.hbm, 14, rfl⟩
abbrev main_v0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x9232 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![13, 10], ![false, false]⟩

def k1_off1 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v15 : Index := Scalar.indexCast v9
  let c0 : Index := 0#32
  let c0_6 : Index := 0#32
  ![v15.toNat, 0, 0]
def k1_off2 (i : grid1.Coords) : Fin 2 → Nat :=
  let arg1 : BitVec 32 := BitVec.ofNat 32 (i 1).val
  let c1000_i32 : BitVec 32 := 1000#32
  let v18 : BitVec 32 := Scalar.muli arg1 c1000_i32
  let v19 : Index := Scalar.indexCast v18
  let c0_7 : Index := 0#32
  ![v19.toNat, 0]
def k1_off3 (i : grid1.Coords) : Fin 3 → Nat :=
  let arg0 : BitVec 32 := BitVec.ofNat 32 (i 0).val
  let v29 : Index := Scalar.indexCast arg0
  let c0_11 : Index := 0#32
  let c0_12 : Index := 0#32
  ![v29.toNat, 0, 0]
def k1_off4 (i : grid1.Coords) : Fin 2 → Nat :=
  let arg0 : BitVec 32 := BitVec.ofNat 32 (i 0).val
  let v33 : Index := Scalar.indexCast arg0
  let c0_14 : Index := 0#32
  ![v33.toNat, 0]
def k1_off5 (i : grid1.Coords) : Fin 3 → Nat :=
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 32 := Scalar.subi c1_i32_15 v9
  let v42 : Index := Scalar.indexCast v40
  let arg1 : BitVec 32 := BitVec.ofNat 32 (i 1).val
  let c1000_i32_16 : BitVec 32 := 1000#32
  let v41 : BitVec 32 := Scalar.muli arg1 c1000_i32_16
  let v43 : Index := Scalar.indexCast v41
  let c0_17 : Index := 0#32
  ![v42.toNat, v43.toNat, 0]
def k1_cond2 (i : grid1.Coords) : BitVec 1 :=
  let arg0 : BitVec 32 := BitVec.ofNat 32 (i 0).val
  let c12_i32 : BitVec 32 := 12#32
  let v47 : BitVec 1 := Scalar.cmpi .eq arg0 c12_i32
  let v48 : BitVec 32 := Scalar.extui v47
  let c0_i32_18 : BitVec 32 := 0#32
  let v49 : BitVec 1 := Scalar.cmpi .ne v48 c0_i32_18
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .eq arg0 c12_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 1 → Memref sig .tc .vmem S10000x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1000x9232 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S13x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S13x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  slices_S14x128x128_S1x128x128_0_0_0 : S14x128x128.Slices ![0, 0, 0] S1x128x128
  shapeCasts_S1x128x128_S128x128 : S1x128x128.ShapeCasts S128x128
  slices_S14x128_S1x128_0_0 : S14x128.Slices ![0, 0] S1x128
  shapeCasts_S1x128_S128 : S1x128.ShapeCasts S128
  shapeCasts_S128_S1x128 : S128.ShapeCasts S1x128
  slices_S14x128x128_S13x128x128_1_0_0 : S14x128x128.Slices ![1, 0, 0] S13x128x128
  slices_S14x128_S13x128_1_0 : S14x128.Slices ![1, 0] S13x128
  inb_S400x10000_S400x10000_0_0 : ∀ a, (![0, 0] : Fin 2 → Nat) a + S400x10000.size a ≤ S400x10000.size a
  h_S400x10000 : 0 < S400x10000.numel
  slices_S400x10000_o0_0_S400x768 : S400x10000.Slices ![0, 0] S400x768
  inb_S400x768_S400x768_0_0 : ∀ a, (![0, 0] : Fin 2 → Nat) a + S400x768.size a ≤ S400x768.size a
  h_S400x768 : 0 < S400x768.numel
  packedbf16_S400x768_S400x768_0_0 : (Rect.unit (s := S400x768) ![0, 0] S400x768.size inb_S400x768_S400x768_0_0).PackedRows (EltTy.packing .bf16)
  slices_S400x10000_o0_768_S400x9232 : S400x10000.Slices ![0, 768] S400x9232
  inb_S400x9232_S400x9232_0_0 : ∀ a, (![0, 0] : Fin 2 → Nat) a + S400x9232.size a ≤ S400x9232.size a
  h_S400x9232 : 0 < S400x9232.numel
  packedbf16_S400x9232_S400x9232_0_0 : (Rect.unit (s := S400x9232) ![0, 0] S400x9232.size inb_S400x9232_S400x9232_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S2x10000x128_S1x10000x128_0_0_0 : ∀ a, (![0, 0, 0] : Fin 3 → Nat) a + S1x10000x128.size a ≤ S2x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  packedbf16_S2x10000x128_S1x10000x128_0_0_0 : (Rect.unit (s := S2x10000x128) ![0, 0, 0] S1x10000x128.size inb_S2x10000x128_S1x10000x128_0_0_0).PackedRows (EltTy.packing .bf16)
  h_S1000x768 : 0 < S1000x768.numel
  shapeCasts_S1000x768_S1000x768 : S1000x768.ShapeCasts S1000x768
  slices_S10000x128_o0_0_S768x128 : S10000x128.Slices ![0, 0] S768x128
  inb_S1000x9232_S1000x9232_0_0 : ∀ a, (![0, 0] : Fin 2 → Nat) a + S1000x9232.size a ≤ S1000x9232.size a
  h_S1000x9232 : 0 < S1000x9232.numel
  shapeCasts_S1000x9232_S1000x9232 : S1000x9232.ShapeCasts S1000x9232
  slices_S10000x128_o768_0_S9232x128 : S10000x128.Slices ![768, 0] S9232x128
  h_S1x128x128 : 0 < S1x128x128.numel
  broadcasts_S1x128_S1000x128 : S1x128.Broadcasts S1000x128
  h_S1x1000x128 : 0 < S1x1000x128.numel
  shapeCasts_S1x1000x128_S1000x128 : S1x1000x128.ShapeCasts S1000x128
  shapeCasts_S1000x128_S1x1000x128 : S1000x128.ShapeCasts S1x1000x128
  inb_S1000x128_S1000x128_0_0 : ∀ a, (![0, 0] : Fin 2 → Nat) a + S1000x128.size a ≤ S1000x128.size a
  h_S1000x128 : 0 < S1000x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S1000x768_S768x128_S1000x128_1_0_0_1_n_n_wf : DotDims.WF S1000x768 S768x128 S1000x128 [1] [0] [0] [1] [] []
  dot_S1000x9232_S9232x128_S1000x128_1_0_0_1_n_n_wf : DotDims.WF S1000x9232 S9232x128 S1000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .bf16 = 32 ∨ (Rect.block (s := S10000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x768.size a ≤ S10000x768.size a
  hwx0_4 : ∀ i : grid0.Coords, EltTy.bits .bf16 = 32 ∨ (Rect.block (s := S10000x768) S400x768.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x9232.size a ≤ S10000x9232.size a
  hwx0_5 : ∀ i : grid0.Coords, EltTy.bits .bf16 = 32 ∨ (Rect.block (s := S10000x9232) S400x9232.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hrank1 : 0 < grid1.rank
  k1_off1_inb : ∀ i : grid1.Coords, ∀ a, (k1_off1 i) a + S1x10000x128.size a ≤ S2x10000x128.size a
  k1_off2_inb : ∀ i : grid1.Coords, ∀ a, (k1_off2 i) a + S1000x768.size a ≤ S10000x768.size a
  k1_off3_inb : ∀ i : grid1.Coords, ∀ a, (k1_off3 i) a + S1x128x128.size a ≤ S13x128x128.size a
  k1_off4_inb : ∀ i : grid1.Coords, ∀ a, (k1_off4 i) a + S1x128.size a ≤ S13x128.size a
  k1_off5_inb : ∀ i : grid1.Coords, ∀ a, (k1_off5 i) a + S1x1000x128.size a ≤ S2x10000x128.size a
  k1_off5_packedbf16 : ∀ i : grid1.Coords, (Rect.unit (s := S2x10000x128) (k1_off5 i) S1x1000x128.size (k1_off5_inb i)).PackedRows (EltTy.packing .bf16)
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x768.size a ≤ S10000x768.size a
  hwx1_0 : ∀ i : grid1.Coords, EltTy.bits .bf16 = 32 ∨ (Rect.block (s := S10000x768) S10000x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x9232.size a ≤ S10000x9232.size a
  hwx1_1 : ∀ i : grid1.Coords, EltTy.bits .bf16 = 32 ∨ (Rect.block (s := S10000x9232) S1000x9232.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S13x128x128.size a ≤ S13x128x128.size a
  hwx1_3 : ∀ i : grid1.Coords, EltTy.bits .f32 = 32 ∨ (Rect.block (s := S13x128x128) S13x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S13x128.size a ≤ S13x128.size a
  hwx1_4 : ∀ i : grid1.Coords, EltTy.bits .f32 = 32 ∨ (Rect.block (s := S13x128) S13x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S10000x128.size a
  hwx1_5 : ∀ i : grid1.Coords, EltTy.bits .f32 = 32 ∨ (Rect.block (s := S10000x128) S1000x128.size (cc1_transform_5 i) (hinb1_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S1000x768_S768x128_S1000x128_1_0_0_1_n_n : DotDims S1000x768 S768x128 S1000x128 where
  lhsContracting := [1]
  rhsContracting := [0]
  lhsNonContracting := [0]
  rhsNonContracting := [1]
  lhsBatch := []
  rhsBatch := []
  wf := dot_S1000x768_S768x128_S1000x128_1_0_0_1_n_n_wf
def dot_S1000x9232_S9232x128_S1000x128_1_0_0_1_n_n : DotDims S1000x9232 S9232x128 S1000x128 where
  lhsContracting := [1]
  rhsContracting := [0]
  lhsNonContracting := [0]
  rhsNonContracting := [1]
  lhsBatch := []
  rhsBatch := []
  wf := dot_S1000x9232_S9232x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_call0_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6_0) S400x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6_1) S400x9232.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6_2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v6_0) S10000x768.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v6_1) S1000x9232.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v6_2) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v7) S13x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v8) S13x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S14x128x128 : Shape := ⟨3, ![14, 128, 128]⟩
abbrev S14x128 : Shape := ⟨2, ![14, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 130
  | .vmem => 0
  | .smem => 0
  | _ => 0

abbrev hbmTy0_0 (i : Nat) : BufTy := match i % 128 with
  | 0 => ⟨S10000x128, .f32⟩
  | 1 => ⟨S10000x10000, .f32⟩
  | 2 => ⟨S14x128x128, .f32⟩
  | 3 => ⟨S14x128, .f32⟩
  | 4 => ⟨S1x128x128, .f32⟩
  | 5 => ⟨S128x128, .f32⟩
  | 6 => ⟨S10000x128, .f32⟩
  | 7 => ⟨S10000x128, .f32⟩
  | 8 => ⟨S1x128, .f32⟩
  | 9 => ⟨S128, .f32⟩
  | 10 => ⟨S1x128, .f32⟩
  | 11 => ⟨S10000x128, .f32⟩
  | 12 => ⟨S10000x128, .f32⟩
  | 13 => ⟨S1x128x128, .f32⟩
  | 14 => ⟨S128x128, .f32⟩
  | 15 => ⟨S10000x128, .f32⟩
  | 16 => ⟨S10000x128, .f32⟩
  | 17 => ⟨S1x128, .f32⟩
  | 18 => ⟨S128, .f32⟩
  | 19 => ⟨S1x128, .f32⟩
  | 20 => ⟨S10000x128, .f32⟩
  | 21 => ⟨S10000x128, .f32⟩
  | 22 => ⟨S1x128x128, .f32⟩
  | 23 => ⟨S128x128, .f32⟩
  | 24 => ⟨S10000x128, .f32⟩
  | 25 => ⟨S10000x128, .f32⟩
  | 26 => ⟨S1x128, .f32⟩
  | 27 => ⟨S128, .f32⟩
  | 28 => ⟨S1x128, .f32⟩
  | 29 => ⟨S10000x128, .f32⟩
  | 30 => ⟨S10000x128, .f32⟩
  | 31 => ⟨S1x128x128, .f32⟩
  | 32 => ⟨S128x128, .f32⟩
  | 33 => ⟨S10000x128, .f32⟩
  | 34 => ⟨S10000x128, .f32⟩
  | 35 => ⟨S1x128, .f32⟩
  | 36 => ⟨S128, .f32⟩
  | 37 => ⟨S1x128, .f32⟩
  | 38 => ⟨S10000x128, .f32⟩
  | 39 => ⟨S10000x128, .f32⟩
  | 40 => ⟨S1x128x128, .f32⟩
  | 41 => ⟨S128x128, .f32⟩
  | 42 => ⟨S10000x128, .f32⟩
  | 43 => ⟨S10000x128, .f32⟩
  | 44 => ⟨S1x128, .f32⟩
  | 45 => ⟨S128, .f32⟩
  | 46 => ⟨S1x128, .f32⟩
  | 47 => ⟨S10000x128, .f32⟩
  | 48 => ⟨S10000x128, .f32⟩
  | 49 => ⟨S1x128x128, .f32⟩
  | 50 => ⟨S128x128, .f32⟩
  | 51 => ⟨S10000x128, .f32⟩
  | 52 => ⟨S10000x128, .f32⟩
  | 53 => ⟨S1x128, .f32⟩
  | 54 => ⟨S128, .f32⟩
  | 55 => ⟨S1x128, .f32⟩
  | 56 => ⟨S10000x128, .f32⟩
  | 57 => ⟨S10000x128, .f32⟩
  | 58 => ⟨S1x128x128, .f32⟩
  | 59 => ⟨S128x128, .f32⟩
  | 60 => ⟨S10000x128, .f32⟩
  | 61 => ⟨S10000x128, .f32⟩
  | 62 => ⟨S1x128, .f32⟩
  | 63 => ⟨S128, .f32⟩
  | 64 => ⟨S1x128, .f32⟩
  | 65 => ⟨S10000x128, .f32⟩
  | 66 => ⟨S10000x128, .f32⟩
  | 67 => ⟨S1x128x128, .f32⟩
  | 68 => ⟨S128x128, .f32⟩
  | 69 => ⟨S10000x128, .f32⟩
  | 70 => ⟨S10000x128, .f32⟩
  | 71 => ⟨S1x128, .f32⟩
  | 72 => ⟨S128, .f32⟩
  | 73 => ⟨S1x128, .f32⟩
  | 74 => ⟨S10000x128, .f32⟩
  | 75 => ⟨S10000x128, .f32⟩
  | 76 => ⟨S1x128x128, .f32⟩
  | 77 => ⟨S128x128, .f32⟩
  | 78 => ⟨S10000x128, .f32⟩
  | 79 => ⟨S10000x128, .f32⟩
  | 80 => ⟨S1x128, .f32⟩
  | 81 => ⟨S128, .f32⟩
  | 82 => ⟨S1x128, .f32⟩
  | 83 => ⟨S10000x128, .f32⟩
  | 84 => ⟨S10000x128, .f32⟩
  | 85 => ⟨S1x128x128, .f32⟩
  | 86 => ⟨S128x128, .f32⟩
  | 87 => ⟨S10000x128, .f32⟩
  | 88 => ⟨S10000x128, .f32⟩
  | 89 => ⟨S1x128, .f32⟩
  | 90 => ⟨S128, .f32⟩
  | 91 => ⟨S1x128, .f32⟩
  | 92 => ⟨S10000x128, .f32⟩
  | 93 => ⟨S10000x128, .f32⟩
  | 94 => ⟨S1x128x128, .f32⟩
  | 95 => ⟨S128x128, .f32⟩
  | 96 => ⟨S10000x128, .f32⟩
  | 97 => ⟨S10000x128, .f32⟩
  | 98 => ⟨S1x128, .f32⟩
  | 99 => ⟨S128, .f32⟩
  | 100 => ⟨S1x128, .f32⟩
  | 101 => ⟨S10000x128, .f32⟩
  | 102 => ⟨S10000x128, .f32⟩
  | 103 => ⟨S1x128x128, .f32⟩
  | 104 => ⟨S128x128, .f32⟩
  | 105 => ⟨S10000x128, .f32⟩
  | 106 => ⟨S10000x128, .f32⟩
  | 107 => ⟨S1x128, .f32⟩
  | 108 => ⟨S128, .f32⟩
  | 109 => ⟨S1x128, .f32⟩
  | 110 => ⟨S10000x128, .f32⟩
  | 111 => ⟨S10000x128, .f32⟩
  | 112 => ⟨S1x128x128, .f32⟩
  | 113 => ⟨S128x128, .f32⟩
  | 114 => ⟨S10000x128, .f32⟩
  | 115 => ⟨S10000x128, .f32⟩
  | 116 => ⟨S1x128, .f32⟩
  | 117 => ⟨S128, .f32⟩
  | 118 => ⟨S1x128, .f32⟩
  | 119 => ⟨S10000x128, .f32⟩
  | 120 => ⟨S10000x128, .f32⟩
  | 121 => ⟨S1x128x128, .f32⟩
  | 122 => ⟨S128x128, .f32⟩
  | 123 => ⟨S10000x128, .f32⟩
  | 124 => ⟨S10000x128, .f32⟩
  | 125 => ⟨S1x128, .f32⟩
  | 126 => ⟨S128, .f32⟩
  | 127 => ⟨S1x128, .f32⟩
  | _ => ⟨S10000x128, .f32⟩

abbrev hbmTy0_1 (i : Nat) : BufTy := match i % 128 with
  | 0 => ⟨S10000x128, .f32⟩
  | 1 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩

abbrev nD : Nat := 1
abbrev τ : Topo := Topo.v7x

variable {F : FTy → Type} [FloatOps F]

class Facts₀ : Prop where
  slices_S14x128x128_S1x128x128_0_0_0 : S14x128x128.Slices ![0, 0, 0] S1x128x128
  shapeCasts_S1x128x128_S128x128 : S1x128x128.ShapeCasts S128x128
  slices_S14x128_S1x128_0_0 : S14x128.Slices ![0, 0] S1x128
  shapeCasts_S1x128_S128 : S1x128.ShapeCasts S128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S14x128x128_S1x128x128_1_0_0 : S14x128x128.Slices ![1, 0, 0] S1x128x128
  slices_S14x128_S1x128_1_0 : S14x128.Slices ![1, 0] S1x128
  slices_S14x128x128_S1x128x128_2_0_0 : S14x128x128.Slices ![2, 0, 0] S1x128x128
  slices_S14x128_S1x128_2_0 : S14x128.Slices ![2, 0] S1x128
  slices_S14x128x128_S1x128x128_3_0_0 : S14x128x128.Slices ![3, 0, 0] S1x128x128
  slices_S14x128_S1x128_3_0 : S14x128.Slices ![3, 0] S1x128
  slices_S14x128x128_S1x128x128_4_0_0 : S14x128x128.Slices ![4, 0, 0] S1x128x128
  slices_S14x128_S1x128_4_0 : S14x128.Slices ![4, 0] S1x128
  slices_S14x128x128_S1x128x128_5_0_0 : S14x128x128.Slices ![5, 0, 0] S1x128x128
  slices_S14x128_S1x128_5_0 : S14x128.Slices ![5, 0] S1x128
  slices_S14x128x128_S1x128x128_6_0_0 : S14x128x128.Slices ![6, 0, 0] S1x128x128
  slices_S14x128_S1x128_6_0 : S14x128.Slices ![6, 0] S1x128
  slices_S14x128x128_S1x128x128_7_0_0 : S14x128x128.Slices ![7, 0, 0] S1x128x128
  slices_S14x128_S1x128_7_0 : S14x128.Slices ![7, 0] S1x128
  slices_S14x128x128_S1x128x128_8_0_0 : S14x128x128.Slices ![8, 0, 0] S1x128x128
  slices_S14x128_S1x128_8_0 : S14x128.Slices ![8, 0] S1x128
  slices_S14x128x128_S1x128x128_9_0_0 : S14x128x128.Slices ![9, 0, 0] S1x128x128
  slices_S14x128_S1x128_9_0 : S14x128.Slices ![9, 0] S1x128
  slices_S14x128x128_S1x128x128_10_0_0 : S14x128x128.Slices ![10, 0, 0] S1x128x128
  slices_S14x128_S1x128_10_0 : S14x128.Slices ![10, 0] S1x128
  slices_S14x128x128_S1x128x128_11_0_0 : S14x128x128.Slices ![11, 0, 0] S1x128x128
  slices_S14x128_S1x128_11_0 : S14x128.Slices ![11, 0] S1x128
  slices_S14x128x128_S1x128x128_12_0_0 : S14x128x128.Slices ![12, 0, 0] S1x128x128
  slices_S14x128_S1x128_12_0 : S14x128.Slices ![12, 0] S1x128
  slices_S14x128x128_S1x128x128_13_0_0 : S14x128x128.Slices ![13, 0, 0] S1x128x128
  slices_S14x128_S1x128_13_0 : S14x128.Slices ![13, 0] S1x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.R0Body.lean ====
import proofs.«118626_g5102421148071_cont_8to1_c_1098_12_alg».proof.Proof.Gen.KernelIdeal.Launch
import proofs.«118626_g5102421148071_cont_8to1_c_1098_12_alg».proof.Proof.Gen.KernelIdeal.Skeleton
import proofs.«118626_g5102421148071_cont_8to1_c_1098_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first kernel region: what its body leaves in the output staging buffers, and the body's triple

The body loads its four input blocks whole, stores the first 768 and the last 9232 columns of the
adjacency strip unchanged, and stores `(strip · x) · W + b` as the third output. Each output buffer
after the body is the canonical contents of its single whole-buffer store. -/

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

abbrev rX : Rect S10000x128 := Rect.unit (s := S10000x128) ![0, 0] S10000x128.size inb_S10000x128_S10000x128_0_0
abbrev rA : Rect S400x10000 := Rect.unit (s := S400x10000) ![0, 0] S400x10000.size inb_S400x10000_S400x10000_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rLo : Rect S400x768 := Rect.unit (s := S400x768) ![0, 0] S400x768.size inb_S400x768_S400x768_0_0
abbrev rHi : Rect S400x9232 := Rect.unit (s := S400x9232) ![0, 0] S400x9232.size inb_S400x9232_S400x9232_0_0
abbrev rO : Rect S400x128 := Rect.unit (s := S400x128) ![0, 0] S400x128.size inb_S400x128_S400x128_0_0

/-! ## What the body leaves in each output window's buffer -/

/-- The low-column output's buffer after the body: its one store, of the strip's columns `[0, 768)`. -/
def out0_4 (x0 : Vec F S10000x128 .bf16) (x1 : Vec F S400x10000 .f32) (x2 : Vec F S128x128 .f32) (x3 : Vec F S1x128 .f32) : Vec F S400x768 .bf16 :=
  View.canon [⟨rLo, k0_pay2 (View.ld x1 rA)⟩]

/-- The one store is of the whole buffer, so it covers it. -/
theorem cover0_4 (p0 : Vec F S400x768 .bf16) (y : S400x768.Idx) :
    ∃ pc ∈ ([⟨rLo, p0⟩] : List (View.Piece (Elt F) S400x768 .bf16)), y ∈ pc.1.set :=
  View.cover_of_tiled [⟨rLo, p0⟩] S400x768.size (by rfl) y

/-- The high-column output's buffer after the body: its one store, of the strip's columns `[768, 10000)`. -/
def out0_5 (x0 : Vec F S10000x128 .bf16) (x1 : Vec F S400x10000 .f32) (x2 : Vec F S128x128 .f32) (x3 : Vec F S1x128 .f32) : Vec F S400x9232 .bf16 :=
  View.canon [⟨rHi, k0_pay3 (View.ld x1 rA)⟩]

theorem cover0_5 (p0 : Vec F S400x9232 .bf16) (y : S400x9232.Idx) :
    ∃ pc ∈ ([⟨rHi, p0⟩] : List (View.Piece (Elt F) S400x9232 .bf16)), y ∈ pc.1.set :=
  View.cover_of_tiled [⟨rHi, p0⟩] S400x9232.size (by rfl) y

/-- The layer output's buffer after the body: its one store, of `(strip · x) · W + b`. -/
def out0_6 (x0 : Vec F S10000x128 .bf16) (x1 : Vec F S400x10000 .f32) (x2 : Vec F S128x128 .f32) (x3 : Vec F S1x128 .f32) : Vec F S400x128 .bf16 :=
  View.canon [⟨rO, k0_pay4 (View.ld x1 rA) (View.ld x0 rX) (View.ld x2 rW) (View.ld x3 rB)⟩]

theorem cover0_6 (p0 : Vec F S400x128 .bf16) (y : S400x128.Idx) :
    ∃ pc ∈ ([⟨rO, p0⟩] : List (View.Piece (Elt F) S400x128 .bf16)), y ∈ pc.1.set :=
  View.cover_of_tiled [⟨rO, p0⟩] S400x128.size (by rfl) y

/-! ## The body's triple -/

set_option maxHeartbeats 4000000 in
/-- The kernel body on whole staging memrefs, the inputs' at read contents and the outputs' at anything, runs to
    the continuation holding the inputs' as they were and each output's at `out0_W` of the inputs'. -/
theorem sound_kernel0 (c : Dev nD) (E : Set ℕ) (i : grid0.Coords)
    (arg0 : Memref sig .tc .vmem S10000x128 .bf16) (harg0 : arg0.IsWhole) (arg1 : Memref sig .tc .vmem S400x10000 .f32) (harg1 : arg1.IsWhole)
    (arg2 : Memref sig .tc .vmem S128x128 .f32) (harg2 : arg2.IsWhole) (arg3 : Memref sig .tc .vmem S1x128 .f32) (harg3 : arg3.IsWhole)
    (arg4 : Memref sig .tc .vmem S400x768 .bf16) (harg4 : arg4.IsWhole) (arg5 : Memref sig .tc .vmem S400x9232 .bf16) (harg5 : arg5.IsWhole)
    (arg6 : Memref sig .tc .vmem S400x128 .bf16) (harg6 : arg6.IsWhole)
    (x0 : Vec F S10000x128 .bf16) (x1 : Vec F S400x10000 .f32) (x2 : Vec F S128x128 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out0_4 x0 x1 x2 x3) ∗ owns (c : Thread nD τ) arg5 fullShare (out0_5 x0 x1 x2 x3) ∗ owns (c : Thread nD τ) arg6 fullShare (out0_6 x0 x1 x2 x3)) -∗ K ⟨⟩))
      ⊢ wp frame (wpE (defs₀ (F := F)) Variants.none c none) E (cc0__layer0_body i arg0 harg0 arg1 harg1 arg2 harg2 arg3 harg3 arg4 harg4 arg5 harg5 arg6 harg6) K := by
  simp only [cc0__layer0_body_eq_skeleton]; unfold cc0__layer0_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

end Cert.KernelIdeal.R0

end
-- ==== Proof.R0Dat.lean ====
import proofs.«118626_g5102421148071_cont_8to1_c_1098_12_alg».proof.Proof.R0Body

/-! # The first kernel region: the pipeline's proof data and its body obligation

At a parameter valuation `V` (the buffer contents when the region is entered): every input window's
staging buffer holds its block of `V`'s array at every grid point, and after the body each output
window's staging buffer holds `out0_W` of the four input blocks. -/

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the first pipeline on core `c`: the arrays as the region finds them (`V`); after the body at
    point `t` each input's buffer at its block and each output's at `out0_W` of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's owed counters pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.R1Run.lean ====
/-
  The second kernel's body at one grid point (l, r), l the layer and r the strip of 1000 rows.

  The body keeps a scratch of two slabs [2, 10000, 128]. It reads the whole slab l mod 2 (the layer's input h), the
  strip's rows of the left 768 columns of the adjacency and its block of the remaining 9232 columns, the layer's
  weight matrix and bias row; it forms (A_left · h[:768] + A_right · h[768:]) · W + b for the strip and stores it,
  rounded to the scratch's format, into rows [1000 r, 1000 r + 1000) of the OTHER slab. Two things happen at some
  points only: at the very first point the body first copies the staged first-layer result into slab 0; in the
  last layer it also stores the unrounded strip into the output block. Each of the three resulting control paths
  is run once here, for any point at which its two conditions hold, and what the scratch (and the output block)
  holds afterwards is stated as the old contents with one rectangle overwritten.
-/
import proofs.«118626_g5102421148071_cont_8to1_c_1098_12_alg».proof.Proof.Gen.KernelIdeal.Launch
import proofs.«118626_g5102421148071_cont_8to1_c_1098_12_alg».proof.Proof.Gen.KernelIdeal.Skeleton
import proofs.«118626_g5102421148071_cont_8to1_c_1098_12_alg».proof.Proof.Gen.KernelIdeal.Points
import Idealize.ShloMosaic.Lib.Pipeline.RegionsLoop
import Idealize.ShloMosaic.Lib.Tactic

noncomputable section

namespace Cert.KernelIdeal.R1

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's buffer on core `c`, and the memref held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The first branch's condition: the point is the grid's first. -/
def cond1 (i : grid1.Coords) : BitVec 1 :=
  Scalar.cmpi .ne (Scalar.extui (Scalar.andi (Scalar.cmpi .eq (BitVec.ofNat 32 (i 0).val) 0#32) (Scalar.cmpi .eq (BitVec.ofNat 32 (i 1).val) 0#32))) 0#32

/-- A window's staging memref held on its elements at raw contents `f`. -/
abbrev win (c : Dev nD) {sp : Space} {S : Shape} {e : EltTy} (M : Memref sig .tc sp S e) (f : Bf (F := F) c M) : sProp 𝕄 :=
  M.view.loc (c : Thread nD τ) ↦[M.view.set]{fullShare} f

section Point

variable (c : Dev nD) (i : grid1.Coords)
  (M2 : Memref sig .tc .vmem S10000x768 .bf16) (M3 : Memref sig .tc .vmem S1000x9232 .bf16)
  (M4 : Memref sig .tc .vmem S10000x128 .bf16) (M5 : Memref sig .tc .vmem S13x128x128 .f32)
  (M6 : Memref sig .tc .vmem S13x128 .f32) (M7 : Memref sig .tc .vmem S1000x128 .f32)
  (M8 : Memref sig .tc .vmem S2x10000x128 .bf16)
  (f2 : Bf (F := F) c M2) (f3 : Bf (F := F) c M3) (f4 : Bf (F := F) c M4) (f5 : Bf (F := F) c M5)
  (f6 : Bf (F := F) c M6) (f8 : Bf (F := F) c M8)

/-- The layer's input slab as the body reads it off scratch contents `g`. -/
def slabOf (g : Bf (F := F) c M8) : Vec F S1x10000x128 .bf16 :=
  View.readAt (Elt F) M8.view (Rect.unit (s := S2x10000x128) (k1_off1 i) S1x10000x128.size (k1_off1_inb i)).toLoadRect g

/-- The strip's result before the bias: the payload of the reads, the input slab given. -/
def strip (slab : Vec F S1x10000x128 .bf16) : FVec F S1000x128 .f32 :=
  k1_pay4 slab
    (View.readAt (Elt F) M2.view (Rect.unit (s := S10000x768) (k1_off2 i) S1000x768.size (k1_off2_inb i)).toLoadRect f2)
    (View.readAt (Elt F) M3.view (Rect.unit (s := S1000x9232) ![0, 0] S1000x9232.size inb_S1000x9232_S1000x9232_0_0).toLoadRect f3)
    (View.readAt (Elt F) M5.view (Rect.unit (s := S13x128x128) (k1_off3 i) S1x128x128.size (k1_off3_inb i)).toLoadRect f5)

/-- The layer's bias row as the body reads it. -/
def biasRow : FVec F S128 .f32 :=
  k1_pay5 (View.readAt (Elt F) M6.view (Rect.unit (s := S13x128) (k1_off4 i) S1x128.size (k1_off4_inb i)).toLoadRect f6)

/-- The strip's store: rows [1000 r, 1000 r + 1000) of the slab the layer writes, at the strip's rounded result. -/
def stripPiece (slab : Vec F S1x10000x128 .bf16) : View.Piece (Elt F) S2x10000x128 .bf16 :=
  ⟨Rect.unit (s := S2x10000x128) (k1_off5 i) S1x1000x128.size (k1_off5_inb i),
    k1_pay2 (strip c i M2 M3 M5 f2 f3 f5 slab) (biasRow c i M6 f6)⟩

/-- The first point's copy of the staged first-layer result into slab 0. -/
def seedPiece : View.Piece (Elt F) S2x10000x128 .bf16 :=
  ⟨Rect.unit (s := S2x10000x128) ![0, 0, 0] S1x10000x128.size inb_S2x10000x128_S1x10000x128_0_0_0,
    k1_pay3 (View.readAt (Elt F) M4.view (Rect.unit (s := S10000x128) ![0, 0] S10000x128.size inb_S10000x128_S10000x128_0_0).toLoadRect f4)⟩

/-- The slab the first point reads: slab 0 just seeded, whatever the scratch held. -/
def seededSlab : Vec F S1x10000x128 .bf16 :=
  M8.view.readCov [seedPiece c M4 f4] (Rect.unit (s := S2x10000x128) (k1_off1 i) S1x10000x128.size (k1_off1_inb i)).toLoadRect

/-- The output block after the last layer's store. -/
def emitted (f7 : Bf (F := F) c M7) (slab : Vec F S1x10000x128 .bf16) : Bf (F := F) c M7 :=
  M7.view.writes (Elt F) f7
    [⟨Rect.unit (s := S1000x128) ![0, 0] S1000x128.size inb_S1000x128_S1000x128_0_0,
      k1_pay1 (strip c i M2 M3 M5 f2 f3 f5 slab) (biasRow c i M6 f6)⟩]

variable (h2 : M2.IsWhole) (h3 : M3.IsWhole) (h4 : M4.IsWhole) (h5 : M5.IsWhole) (h6 : M6.IsWhole) (h7 : M7.IsWhole) (h8 : M8.IsWhole)

set_option maxHeartbeats 2000000 in
/-- A point that is neither the first nor in the last layer: only the scratch changes. -/
theorem run_mid (hc1 : ¬ cond1 i = 1#1) (hc2 : ¬ k1_cond2 i = 1#1) (f7 : Bf (F := F) c M7) (E : Set ℕ) (Q : PUnit → sProp 𝕄) :
    iprop(win c M2 f2 ∗ win c M3 f3 ∗ win c M4 f4 ∗ win c M5 f5 ∗ win c M6 f6 ∗ win c M7 f7 ∗ pt c M8 f8
        ∗ (iprop(win c M2 f2 ∗ win c M3 f3 ∗ win c M4 f4 ∗ win c M5 f5 ∗ win c M6 f6 ∗ win c M7 f7
            ∗ pt c M8 (M8.view.writes (Elt F) f8 [stripPiece c i M2 M3 M5 M6 f2 f3 f5 f6 (slabOf c i M8 f8)])) -∗ Q ⟨⟩))
      ⊢ wp frame (wpE (defs₀ (F := F)) Variants.none c none) E (cc1__rest_body i M2 h2 M3 h3 M4 h4 M5 h5 M6 h6 M7 h7 M8 h8) Q := by
  simp only [cc1__rest_body_eq_skeleton]; unfold cc1__rest_body_skel
  simp only [k1_part1_eq_skeleton]; unfold k1_part1_skel
  iintro ⟨H2, H3, H4, H5, H6, H7, H8, Hk⟩
  sl_exec (disch := first | exact hc1 | exact hc2)
  sl_step
  iapply Hk
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- A point of the last layer: the scratch changes as everywhere, and the output block takes the unrounded strip. -/
theorem run_last (hc1 : ¬ cond1 i = 1#1) (hc2 : k1_cond2 i = 1#1) (f7 : Bf (F := F) c M7) (E : Set ℕ) (Q : PUnit → sProp 𝕄) :
    iprop(win c M2 f2 ∗ win c M3 f3 ∗ win c M4 f4 ∗ win c M5 f5 ∗ win c M6 f6 ∗ win c M7 f7 ∗ pt c M8 f8
        ∗ (iprop(win c M2 f2 ∗ win c M3 f3 ∗ win c M4 f4 ∗ win c M5 f5 ∗ win c M6 f6
            ∗ win c M7 (emitted c i M2 M3 M5 M6 M7 f2 f3 f5 f6 f7 (slabOf c i M8 f8))
            ∗ pt c M8 (M8.view.writes (Elt F) f8 [stripPiece c i M2 M3 M5 M6 f2 f3 f5 f6 (slabOf c i M8 f8)])) -∗ Q ⟨⟩))
      ⊢ wp frame (wpE (defs₀ (F := F)) Variants.none c none) E (cc1__rest_body i M2 h2 M3 h3 M4 h4 M5 h5 M6 h6 M7 h7 M8 h8) Q := by
  simp only [cc1__rest_body_eq_skeleton]; unfold cc1__rest_body_skel
  simp only [k1_part1_eq_skeleton]; unfold k1_part1_skel
  iintro ⟨H2, H3, H4, H5, H6, H7, H8, Hk⟩
  sl_exec (disch := first | exact hc1 | exact hc2)
  sl_step
  iapply Hk
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The first point (where the slab read is slab 0 and the slab written starts at slab 1's first row): slab 0 is
    seeded from the staged first-layer result, then the strip is computed from it and stored. -/
theorem run_first (hc1 : cond1 i = 1#1) (hc2 : ¬ k1_cond2 i = 1#1) (ho1 : k1_off1 i = ![0, 0, 0]) (ho5 : k1_off5 i = ![1, 0, 0])
    (f7 : Bf (F := F) c M7) (E : Set ℕ) (Q : PUnit → sProp 𝕄) :
    iprop(win c M2 f2 ∗ win c M3 f3 ∗ win c M4 f4 ∗ win c M5 f5 ∗ win c M6 f6 ∗ win c M7 f7 ∗ pt c M8 f8
        ∗ (iprop(win c M2 f2 ∗ win c M3 f3 ∗ win c M4 f4 ∗ win c M5 f5 ∗ win c M6 f6 ∗ win c M7 f7
            ∗ pt c M8 (M8.view.writes (Elt F) f8
                (stripPiece c i M2 M3 M5 M6 f2 f3 f5 f6 (seededSlab c i M4 M8 f4) :: [seedPiece c M4 f4]))) -∗ Q ⟨⟩))
      ⊢ wp frame (wpE (defs₀ (F := F)) Variants.none c none) E (cc1__rest_body i M2 h2 M3 h3 M4 h4 M5 h5 M6 h6 M7 h7 M8 h8) Q := by
  simp only [cc1__rest_body_eq_skeleton]; unfold cc1__rest_body_skel
  simp only [k1_part1_eq_skeleton]; unfold k1_part1_skel
  iintro ⟨H2, H3, H4, H5, H6, H7, H8, Hk⟩
  letI : ClosedOff (k1_off1 i) := ⟨![0, 0, 0], ho1⟩
  letI : ClosedOff (k1_off5 i) := ⟨![1, 0, 0], ho5⟩
  sl_exec (disch := first | exact hc1 | exact hc2)
  sl_step
  iapply Hk
  isplitl [H2]; · iexact H2
  isplitl [H3]; · iexact H3
  isplitl [H4]; · iexact H4
  isplitl [H5]; · iexact H5
  isplitl [H6]; · iexact H6
  isplitl [H7]; · iexact H7
  iexact H8

end Point

end Cert.KernelIdeal.R1
end
-- ==== Proof.R1Scratch.lean ====
/-
  What the second kernel's scratch holds, layer by layer.

  The scratch is two slabs of [10000, 128]. During layer l the body reads slab l mod 2 whole and fills the other
  slab strip by strip, 1000 rows per grid point; the next layer swaps the two. So at the point (l, r), before the
  body runs, slab l mod 2 holds the input of layer l — the first-layer result for l = 0, else what layer l − 1 stored
  — and rows [0, 1000 r) of the other slab already hold layer l's output. Here: the closed forms of the body's offsets
  and conditions over the 13 × 10 points; the contents a slab has at each layer as a function of the arrays the
  region finds (`Slab`), by recursion on the layer through the body's own payload; and the invariant above.
-/
import proofs.«118626_g5102421148071_cont_8to1_c_1098_12_alg».proof.Proof.R1Run
import Idealize.ShloMosaic.Lib.WritesUnit
import Idealize.ShloMosaic.Lib.WholeRead
import Idealize.ShloMosaic.Lib.ValueIdx
import Idealize.ShloMosaic.Lib.Pipeline.FrameBody

noncomputable section

namespace Cert.KernelIdeal.R1

open Cert.KernelIdeal Cert.KernelIdeal.Gen
open Idealize.ShloMosaic Idealize.ShloMosaic.ValueIdx
open Idealize.ShloMosaic.TcCoe
open Idealize.SL.Sem

variable {F : FTy → Type} [FloatOps F]

/-! ## The offsets and conditions at each point -/

/-- The first branch is taken at the first point only. -/
theorem cond1_iff : ∀ t : Fin cfg1.N, cond1 (grid1.coords t) = 1#1 ↔ t.val = 0 :=
  (by decide +kernel : ∀ t : Fin grid1.N, cond1 (grid1.coords t) = 1#1 ↔ t.val = 0)
/-- The second branch is taken in the last layer only. -/
theorem cond2_iff : ∀ t : Fin cfg1.N, k1_cond2 (grid1.coords t) = 1#1 ↔ 120 ≤ t.val :=
  (by decide +kernel : ∀ t : Fin grid1.N, k1_cond2 (grid1.coords t) = 1#1 ↔ 120 ≤ t.val)
/-- The slab read is slab l mod 2, whole. -/
theorem off1_eq : ∀ t : Fin cfg1.N, k1_off1 (grid1.coords t) = ![(t.val / 10) % 2, 0, 0] :=
  (by decide +kernel : ∀ t : Fin grid1.N, k1_off1 (grid1.coords t) = ![(t.val / 10) % 2, 0, 0])
/-- The strip is stored at rows [1000 r, 1000 r + 1000) of the other slab. -/
theorem off5_eq : ∀ t : Fin cfg1.N, k1_off5 (grid1.coords t) = ![1 - (t.val / 10) % 2, 1000 * (t.val % 10), 0] :=
  (by decide +kernel : ∀ t : Fin grid1.N, k1_off5 (grid1.coords t) = ![1 - (t.val / 10) % 2, 1000 * (t.val % 10), 0])
/-- The output block is written back in the last layer only, -/
theorem flush5_iff : ∀ t : Fin cfg1.N, (cfg1.win 5).flush t = true ↔ 120 ≤ t.val :=
  (by decide +kernel : ∀ t : Fin grid1.N, win1_5.flush t = true ↔ 120 ≤ t.val)
/-- and the body stores into it there only. -/
theorem idle5_iff : ∀ t : Fin cfg1.N, cfg1.idle 5 (cfg1.grid.coords t) = true ↔ t.val < 120 :=
  (by decide +kernel : ∀ t : Fin grid1.N, idle1 5 (grid1.coords t) = true ↔ t.val < 120)

/-! ## The blocks at a point, and the body's payload over them -/

variable (V : (c : Dev nD) → (b : Ref sig .tc) → Buf (Elt F) ((c : Thread nD τ).loc b)) (c : Dev nD)

/-- Window `w`'s block at point `t`, read off its array as the region finds it. -/
def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point of layer `l` and strip `r`. -/
def tOf (l r : ℕ) : Fin cfg1.N := ⟨(10 * l + r) % 130, by rw [show cfg1.N = 130 from N_1]; exact Nat.mod_lt _ (by norm_num)⟩

/-- The strip's result before the bias at point `t`, from the blocks there and the layer's input slab. -/
def stripAt (t : Fin cfg1.N) (slab : Vec F S1x10000x128 .bf16) : FVec F S1000x128 .f32 :=
  k1_pay4 slab
    (fun x => (iblk1 V c 0 t : Vec F S10000x768 .bf16)
      ((Rect.unit (s := S10000x768) (k1_off2 (grid1.coords t)) S1000x768.size (k1_off2_inb (grid1.coords t))).toLoadRect.idx x))
    (fun x => (iblk1 V c 1 t : Vec F S1000x9232 .bf16)
      ((Rect.unit (s := S1000x9232) ![0, 0] S1000x9232.size inb_S1000x9232_S1000x9232_0_0).toLoadRect.idx x))
    (fun x => (iblk1 V c 3 t : Vec F S13x128x128 .f32)
      ((Rect.unit (s := S13x128x128) (k1_off3 (grid1.coords t)) S1x128x128.size (k1_off3_inb (grid1.coords t))).toLoadRect.idx x))

/-- The layer's bias row at point `t`. -/
def biasAt (t : Fin cfg1.N) : FVec F S128 .f32 :=
  k1_pay5 (fun x => (iblk1 V c 4 t : Vec F S13x128 .f32)
    ((Rect.unit (s := S13x128) (k1_off4 (grid1.coords t)) S1x128.size (k1_off4_inb (grid1.coords t))).toLoadRect.idx x))

/-- What the first point copies into slab 0: the staged first-layer result. -/
def seedSlab : Vec F S1x10000x128 .bf16 :=
  k1_pay3 (fun x => (iblk1 V c 2 (tOf 0 0) : Vec F S10000x128 .bf16)
    ((Rect.unit (s := S10000x128) ![0, 0] S10000x128.size inb_S10000x128_S10000x128_0_0).toLoadRect.idx x))

/-- The input slab of layer `l`: the seed for `l = 0`; else row `j` holds what the point of layer `l − 1` and strip
    `j / 1000` stored at its local row `j mod 1000`. -/
def Slab : ℕ → Vec F S1x10000x128 .bf16
  | 0 => seedSlab V c
  | l + 1 => fun x =>
      k1_pay2 (stripAt V c (tOf l ((x 1).val / 1000)) (Slab l)) (biasAt V c (tOf l ((x 1).val / 1000)))
        (ix3 (0 : Fin 1) (⟨(x 1).val % 1000, Nat.mod_lt _ (by norm_num)⟩ : Fin 1000) (x 2 : Fin 128))

/-- The invariant before point `t` (as a number, `t = 10 l + r`), on what the scratch reads: after the first
    point slab `l mod 2` is layer `l`'s input, and rows below `1000 r` of the other slab are layer `l + 1`'s. -/
def Inv (t : ℕ) (R : S2x10000x128.Idx → Elt F .bf16) : Prop :=
  ∀ (j : Fin 10000) (q : Fin 128),
    (t ≠ 0 → R (ix3 (⟨(t / 10) % 2, Nat.mod_lt _ (by norm_num)⟩ : Fin 2) j q) = Slab V c (t / 10) (ix3 (0 : Fin 1) j q))
    ∧ (j.val < 1000 * (t % 10) →
        R (ix3 (⟨1 - (t / 10) % 2, by omega⟩ : Fin 2) j q) = Slab V c (t / 10 + 1) (ix3 (0 : Fin 1) j q))

end Cert.KernelIdeal.R1
end
-- ==== Proof.R1Inv.lean ====
/-
  The scratch invariant is kept by every point.

  Before point t = 10 l + r the scratch reads: slab l mod 2 is layer l's input, rows below 1000 r of the other slab are
  layer l + 1's input. The body reads the first, and overwrites rows [1000 r, 1000 r + 1000) of the second with the
  strip it computes from it. An index of the scratch is then in the written rectangle exactly when its slab is the
  other one and its row lies in that range; there it reads the strip's payload, which is by definition the next
  layer's input at that row; elsewhere it reads what it read before. When r = 9 the layer ends and the roles swap.
-/
import proofs.«118626_g5102421148071_cont_8to1_c_1098_12_alg».proof.Proof.R1Scratch

noncomputable section

namespace Cert.KernelIdeal.R1

open Cert.KernelIdeal Cert.KernelIdeal.Gen
open Idealize.ShloMosaic Idealize.ShloMosaic.ValueIdx
open Idealize.ShloMosaic.TcCoe
open Idealize.SL.Sem

variable {F : FTy → Type} [FloatOps F]
variable (V : (c : Dev nD) → (b : Ref sig .tc) → Buf (Elt F) ((c : Thread nD τ).loc b)) (c : Dev nD)

/-- The invariant's content with nothing exempted: what holds before every point but the first, and of the
    contents the first point's seeding leaves. -/
def Inv' (t : ℕ) (R : S2x10000x128.Idx → Elt F .bf16) : Prop :=
  ∀ (j : Fin 10000) (q : Fin 128),
    R (ix3 (⟨(t / 10) % 2, Nat.mod_lt _ (by norm_num)⟩ : Fin 2) j q) = Slab V c (t / 10) (ix3 (0 : Fin 1) j q)
    ∧ (j.val < 1000 * (t % 10) →
        R (ix3 (⟨1 - (t / 10) % 2, by omega⟩ : Fin 2) j q) = Slab V c (t / 10 + 1) (ix3 (0 : Fin 1) j q))

theorem Inv.of_inv' {t : ℕ} {R : S2x10000x128.Idx → Elt F .bf16} (h : Inv' V c t R) : Inv V c t R :=
  fun j q => ⟨fun _ => (h j q).1, (h j q).2⟩

theorem Inv.inv' {t : ℕ} {R : S2x10000x128.Idx → Elt F .bf16} (h : Inv V c t R) (ht : t ≠ 0) : Inv' V c t R :=
  fun j q => ⟨(h j q).1 ht, (h j q).2⟩

theorem Inv.zero (R : S2x10000x128.Idx → Elt F .bf16) : Inv V c 0 R :=
  fun j q => ⟨fun h => absurd rfl h, fun h => absurd h (by omega)⟩

variable (M8 : Memref sig .tc .vmem S2x10000x128 .bf16)

/-- The layer's input slab as the body reads it, under the invariant: layer `l`'s input. -/
theorem slabOf_eq (t : Fin cfg1.N) (g : Bf (F := F) c M8) (hI : Inv' V c t.val (M8.view.read (Elt F) g)) :
    slabOf c (grid1.coords t) M8 g = Slab V c (t.val / 10) := by
  funext x
  obtain ⟨a, j, q, rfl⟩ : ∃ (a : Fin 1) (j : Fin 10000) (q : Fin 128), x = ix3 a j q := ⟨x 0, x 1, x 2, eq_ix3 x⟩
  obtain rfl : a = 0 := Subsingleton.elim _ _
  unfold slabOf
  rw [View.readAt_unit_congr_cast M8.view (off1_eq t), View.readAt_apply]
  refine Eq.trans (congrArg (M8.view.read (Elt F) g) ?_) (hI j q).1
  funext d
  apply Fin.ext
  match d with
  | ⟨0, _⟩ => show (t.val / 10) % 2 + 1 * 0 = (t.val / 10) % 2; omega
  | ⟨1, _⟩ => show 0 + 1 * j.val = j.val; omega
  | ⟨2, _⟩ => show 0 + 1 * q.val = q.val; omega

/-! ## The body's reads, the staging memrefs holding the blocks -/

section Unread

variable (M2 : Memref sig .tc .vmem S10000x768 .bf16) (M3 : Memref sig .tc .vmem S1000x9232 .bf16)
  (M4 : Memref sig .tc .vmem S10000x128 .bf16) (M5 : Memref sig .tc .vmem S13x128x128 .f32)
  (M6 : Memref sig .tc .vmem S13x128 .f32)
  (h2 : M2.IsWhole) (h3 : M3.IsWhole) (h4 : M4.IsWhole) (h5 : M5.IsWhole) (h6 : M6.IsWhole)

/-- The strip, the three staging memrefs holding their windows' blocks at the point. -/
theorem strip_unread (t : Fin cfg1.N) (slab : Vec F S1x10000x128 .bf16) :
    strip c (grid1.coords t) M2 M3 M5 (h2.unread (iblk1 V c 0 t)) (h3.unread (iblk1 V c 1 t)) (h5.unread (iblk1 V c 3 t)) slab
      = stripAt V c t slab := by
  unfold strip stripAt
  congr 1
  · funext x; exact h2.readAt_unread (iblk1 V c 0 t) _ x
  · funext x; exact h3.readAt_unread (iblk1 V c 1 t) _ x
  · funext x; exact h5.readAt_unread (iblk1 V c 3 t) _ x

/-- The bias row likewise. -/
theorem biasRow_unread (t : Fin cfg1.N) :
    biasRow c (grid1.coords t) M6 (h6.unread (iblk1 V c 4 t)) = biasAt V c t := by
  unfold biasRow biasAt
  congr 1
  funext x; exact h6.readAt_unread (iblk1 V c 4 t) _ x

/-- The slab the first point reads is the seed: the staged first-layer result, whatever the scratch held. -/
theorem seededSlab_eq (t : Fin cfg1.N) (ht : t.val = 0) :
    seededSlab c (grid1.coords t) M4 M8 (h4.unread (iblk1 V c 2 t)) = seedSlab V c := by
  obtain rfl : t = tOf 0 0 := Fin.ext (by rw [ht]; rfl)
  unfold seededSlab
  rw [View.readCov_eq_canon']
  funext x
  have hx : (Rect.unit (s := S2x10000x128) (k1_off1 (grid1.coords (tOf 0 0))) S1x10000x128.size (k1_off1_inb (grid1.coords (tOf 0 0)))).toLoadRect.idx x
      = (Rect.unit (s := S2x10000x128) ![0, 0, 0] S1x10000x128.size inb_S2x10000x128_S1x10000x128_0_0_0).emb x := by
    funext d
    apply Fin.ext
    show k1_off1 (grid1.coords (tOf 0 0)) d + 1 * (x d).val = (![0, 0, 0] : Fin 3 → ℕ) d + 1 * (x d).val
    rw [congrFun (off1_eq (tOf 0 0)) d, ht]
  rw [hx]
  unfold seedPiece
  rw [View.canon_cons_emb]
  unfold seedSlab
  exact congrArg (fun v => k1_pay3 v x) (funext fun y => h4.readAt_unread (iblk1 V c 2 (tOf 0 0)) _ y)

end Unread

/-! ## Reading the scratch after the strip's store -/

section Step

variable (t : Fin cfg1.N) (b : Bf (F := F) c M8)
  (w : (Rect.unit (s := S2x10000x128) (k1_off5 (grid1.coords t)) S1x1000x128.size (k1_off5_inb (grid1.coords t))).shape.Idx → Elt F .bf16)
  (L : List (View.Piece (Elt F) S2x10000x128 .bf16))

/-- In the written rows of the written slab: the strip's payload at the local row. -/
theorem read_hit (s : Fin 2) (hs : s.val = 1 - (t.val / 10) % 2) (j : Fin 10000) (q : Fin 128)
    (hj : 1000 * (t.val % 10) ≤ j.val) (hj' : j.val < 1000 * (t.val % 10) + 1000) :
    M8.view.read (Elt F) (M8.view.writes (Elt F) b
      (⟨Rect.unit (s := S2x10000x128) (k1_off5 (grid1.coords t)) S1x1000x128.size (k1_off5_inb (grid1.coords t)), w⟩ :: L)) (ix3 s j q)
      = w (ix3 (0 : Fin 1) (⟨j.val - 1000 * (t.val % 10), by omega⟩ : Fin 1000) q) :=
  View.read_writes_cons_unit_of_mem M8.view b (k1_off5_inb (grid1.coords t)) w L (ix3 s j q)
    (ix3 (0 : Fin 1) (⟨j.val - 1000 * (t.val % 10), by omega⟩ : Fin 1000) q) (off5_eq t) (fun a => by
      match a with
      | ⟨0, _⟩ => show s.val = (1 - (t.val / 10) % 2) + 0; omega
      | ⟨1, _⟩ => show j.val = 1000 * (t.val % 10) + (j.val - 1000 * (t.val % 10)); omega
      | ⟨2, _⟩ => show q.val = 0 + q.val; omega)

/-- In the slab the layer reads: unchanged. -/
theorem read_miss_slab (s : Fin 2) (hs : s.val = (t.val / 10) % 2) (j : Fin 10000) (q : Fin 128) :
    M8.view.read (Elt F) (M8.view.writes (Elt F) b
      (⟨Rect.unit (s := S2x10000x128) (k1_off5 (grid1.coords t)) S1x1000x128.size (k1_off5_inb (grid1.coords t)), w⟩ :: L)) (ix3 s j q)
      = M8.view.read (Elt F) (M8.view.writes (Elt F) b L) (ix3 s j q) :=
  View.read_writes_cons_unit_of_not_mem M8.view b (k1_off5_inb (grid1.coords t)) w L (ix3 s j q) (off5_eq t) (⟨0, by decide⟩ : Fin 3)
    (by show s.val < 1 - (t.val / 10) % 2 ∨ (1 - (t.val / 10) % 2) + 1 ≤ s.val; omega)

/-- In rows outside the strip's: unchanged. -/
theorem read_miss_row (s : Fin 2) (j : Fin 10000) (q : Fin 128)
    (hj : j.val < 1000 * (t.val % 10) ∨ 1000 * (t.val % 10) + 1000 ≤ j.val) :
    M8.view.read (Elt F) (M8.view.writes (Elt F) b
      (⟨Rect.unit (s := S2x10000x128) (k1_off5 (grid1.coords t)) S1x1000x128.size (k1_off5_inb (grid1.coords t)), w⟩ :: L)) (ix3 s j q)
      = M8.view.read (Elt F) (M8.view.writes (Elt F) b L) (ix3 s j q) :=
  View.read_writes_cons_unit_of_not_mem M8.view b (k1_off5_inb (grid1.coords t)) w L (ix3 s j q) (off5_eq t) (⟨1, by decide⟩ : Fin 3)
    (by show j.val < 1000 * (t.val % 10) ∨ 1000 * (t.val % 10) + 1000 ≤ j.val; exact hj)

end Step

/-- The next layer's input at a row of the strip of point `t` is that strip's rounded result at the local row. -/
theorem slab_succ (t : Fin cfg1.N) (j : Fin 10000) (q : Fin 128)
    (hj : 1000 * (t.val % 10) ≤ j.val) (hj' : j.val < 1000 * (t.val % 10) + 1000) :
    Slab V c (t.val / 10 + 1) (ix3 (0 : Fin 1) j q)
      = k1_pay2 (stripAt V c t (Slab V c (t.val / 10))) (biasAt V c t)
          (ix3 (0 : Fin 1) (⟨j.val - 1000 * (t.val % 10), by omega⟩ : Fin 1000) q) := by
  have hN : t.val < 130 := lt_of_lt_of_eq t.isLt N_1
  have hq : j.val / 1000 = t.val % 10 := by omega
  have ht : tOf (t.val / 10) (j.val / 1000) = t :=
    Fin.ext (by show (10 * (t.val / 10) + j.val / 1000) % 130 = t.val; rw [hq]; omega)
  show k1_pay2 (stripAt V c (tOf (t.val / 10) (j.val / 1000)) (Slab V c (t.val / 10))) (biasAt V c (tOf (t.val / 10) (j.val / 1000)))
      (ix3 (0 : Fin 1) (⟨j.val % 1000, Nat.mod_lt _ (by norm_num)⟩ : Fin 1000) q) = _
  rw [ht]
  exact congrArg (fun z : Fin 1000 => k1_pay2 (stripAt V c t (Slab V c (t.val / 10))) (biasAt V c t) (ix3 (0 : Fin 1) z q))
    (Fin.ext (by show j.val % 1000 = j.val - 1000 * (t.val % 10); omega))

/-- THE STEP: from contents with slab `l mod 2` at layer `l`'s input and the other slab's rows below `1000 r` at
    layer `l + 1`'s, the strip's store of its rounded result leaves the invariant of the next point. -/
theorem inv_step (t : Fin cfg1.N) (b : Bf (F := F) c M8) (hb : Inv' V c t.val (M8.view.read (Elt F) b)) :
    Inv' V c (t.val + 1) (M8.view.read (Elt F) (M8.view.writes (Elt F) b
      [⟨Rect.unit (s := S2x10000x128) (k1_off5 (grid1.coords t)) S1x1000x128.size (k1_off5_inb (grid1.coords t)),
        k1_pay2 (stripAt V c t (Slab V c (t.val / 10))) (biasAt V c t)⟩])) := by
  have hN : t.val < 130 := lt_of_lt_of_eq t.isLt N_1
  intro j q
  by_cases hr : t.val % 10 < 9
  · have e1 : (t.val + 1) / 10 = t.val / 10 := by omega
    have e2 : (t.val + 1) % 10 = t.val % 10 + 1 := by omega
    have hsR : (⟨((t.val + 1) / 10) % 2, Nat.mod_lt _ (by norm_num)⟩ : Fin 2) = ⟨(t.val / 10) % 2, Nat.mod_lt _ (by norm_num)⟩ :=
      Fin.ext (by show ((t.val + 1) / 10) % 2 = (t.val / 10) % 2; rw [e1])
    have hsW : (⟨1 - ((t.val + 1) / 10) % 2, by omega⟩ : Fin 2) = ⟨1 - (t.val / 10) % 2, by omega⟩ :=
      Fin.ext (by show 1 - ((t.val + 1) / 10) % 2 = 1 - (t.val / 10) % 2; rw [e1])
    refine ⟨?_, fun hj => ?_⟩
    · rw [hsR, e1]
      exact (read_miss_slab c M8 t b _ [] _ rfl j q).trans (hb j q).1
    · rw [hsW, e1]
      rw [e2] at hj
      by_cases hlo : j.val < 1000 * (t.val % 10)
      · exact (read_miss_row c M8 t b _ [] _ j q (Or.inl hlo)).trans ((hb j q).2 hlo)
      · exact (read_hit c M8 t b _ [] _ rfl j q (by omega) (by omega)).trans (slab_succ V c t j q (by omega) (by omega)).symm
  · have hr9 : t.val % 10 = 9 := by omega
    have e1 : (t.val + 1) / 10 = t.val / 10 + 1 := by omega
    have e2 : (t.val + 1) % 10 = 0 := by omega
    have hsR : (⟨((t.val + 1) / 10) % 2, Nat.mod_lt _ (by norm_num)⟩ : Fin 2) = ⟨1 - (t.val / 10) % 2, by omega⟩ :=
      Fin.ext (by show ((t.val + 1) / 10) % 2 = 1 - (t.val / 10) % 2; omega)
    refine ⟨?_, fun hj => absurd hj (by omega)⟩
    rw [hsR, e1]
    by_cases hlo : j.val < 1000 * (t.val % 10)
    · exact (read_miss_row c M8 t b _ [] _ j q (Or.inl hlo)).trans ((hb j q).2 hlo)
    · have hj9 : j.val < 10000 := j.isLt
      exact (read_hit c M8 t b _ [] _ rfl j q (by omega) (by omega)).trans (slab_succ V c t j q (by omega) (by omega)).symm

/-- After the first point's seeding, whatever the scratch held: slab 0 is layer 0's input. -/
theorem inv_seeded (M4 : Memref sig .tc .vmem S10000x128 .bf16) (h4 : M4.IsWhole) (t : Fin cfg1.N) (ht : t.val = 0)
    (f8 : Bf (F := F) c M8) :
    Inv' V c t.val (M8.view.read (Elt F) (M8.view.writes (Elt F) f8 [seedPiece c M4 (h4.unread (iblk1 V c 2 t))])) := by
  intro j q
  refine ⟨?_, fun hj => absurd hj (by omega)⟩
  have hx := seededSlab_eq V c M8 M4 h4 t ht
  obtain rfl : t = tOf 0 0 := Fin.ext (by rw [ht]; rfl)
  unfold seedPiece
  refine (View.read_writes_cons_unit_of_mem M8.view f8 inb_S2x10000x128_S1x10000x128_0_0_0 _ [] _
    (ix3 (0 : Fin 1) j q) rfl (fun a => by
      match a with
      | ⟨0, _⟩ => show (0 / 10) % 2 = 0 + 0; rfl
      | ⟨1, _⟩ => show j.val = 0 + j.val; omega
      | ⟨2, _⟩ => show q.val = 0 + q.val; omega)).trans ?_
  show _ = Slab V c 0 (ix3 (0 : Fin 1) j q)
  show _ = seedSlab V c (ix3 (0 : Fin 1) j q)
  unfold seedSlab
  exact congrArg (fun v => k1_pay3 v (ix3 (0 : Fin 1) j q)) (funext fun y => h4.readAt_unread (iblk1 V c 2 (tOf 0 0)) _ y)

end Cert.KernelIdeal.R1
end
-- ==== Proof.R1Dat.lean ====
/-
  The second kernel's proof data and its body obligation.

  The arrays are what the region finds. After the body at a point each input window's buffer still holds its block;
  the output window's buffer holds, at the points of the last layer, the strip's unrounded result (elsewhere the body
  does not touch it). Between points the kernel keeps its scratch: the invariant says it is held at contents that
  read as the scratch invariant of that point demands, beside a promise that the scratch, held at anything, gives
  back the rest the kernel was entrusted with. At each point the body's run is the control path its two conditions
  select; the scratch's new contents satisfy the next point's invariant by the step lemma.
-/
import proofs.«118626_g5102421148071_cont_8to1_c_1098_12_alg».proof.Proof.R1Inv
import Idealize.ShloMosaic.Lib.Pipeline.FrameBody
import Idealize.ShloMosaic.Lib.Pipeline.RegionsLoop
import Idealize.ShloMosaic.Lib.Tactic

set_option maxRecDepth 16384

noncomputable section

namespace Cert.KernelIdeal.R1

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scratch as a memref. -/
abbrev scr : Memref sig .tc .vmem S2x10000x128 .bf16 := Memref.whole cc1_scratch0

abbrev r7 : Rect S1000x128 := Rect.unit (s := S1000x128) ![0, 0] S1000x128.size inb_S1000x128_S1000x128_0_0

/-- The output block after the body at a point of the last layer: the strip's result with the bias, unrounded. -/
def out5 (c : Dev nD) (t : Fin cfg1.N) : Vec F S1000x128 .f32 :=
  View.canon [⟨r7, k1_pay1 (stripAt V c t (Slab V c (t.val / 10))) (biasAt V c t)⟩]

theorem cover5 (p0 : r7.shape.Idx → Elt F .f32) (y : S1000x128.Idx) :
    ∃ pc ∈ ([⟨r7, p0⟩] : List (View.Piece (Elt F) S1000x128 .f32)), y ∈ pc.1.set :=
  View.cover_of_tiled [⟨r7, p0⟩] S1000x128.size (by rfl) y

/-- The kernel's invariant before point `t`: the scratch held at contents that read as the point's scratch invariant
    demands; and the scratch, at anything, restores what the kernel holds besides the windows. -/
def Φ1 (c : Dev nD) (t : ℕ) : sProp 𝕄 :=
  iprop((∃ g : Bf (F := F) c scr, ⌜Inv V c t (scr.view.read (Elt F) g)⌝ ∗ pt c scr g)
    ∗ ((∃ g : Bf (F := F) c scr, pt c scr g) -∗ Pipeline.ΦA spec1 c))

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out5 V c t
  Φ t := Φ1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out5 V c t := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the output's buffer as found where the point is idle for it and does not write it back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (match cfg1.idle 5 (cfg1.grid.coords t) with
        | true =>
          match (cfg1.win 5).flush t with
          | false => iprop(∃ d, owns (c : Thread nD τ) (st1_5 t) fullShare ((dat1 V c).before 5 t d))
          | true => owns (c : Thread nD τ) (st1_5 t) fullShare ((dat1 V c).after 5 t)
        | false => owns (c : Thread nD τ) (st1_5 t) fullShare ((dat1 V c).after 5 t)))

end Cert.KernelIdeal.R1
end
-- ==== Proof.KChain.lean ====
/-
  The buffer contents at each boundary of the program's run: a fold from the launch memory.

  A host stretch leaves what its operations compute; a kernel region leaves its windows' arrays at what the
  pipeline's write-backs fold to and every other buffer as it found it. Read back through the fold: no segment
  writes an argument, so each ends as launched; the second region is entered with the first region's outputs as its
  pipeline left them and with the second host stretch's slices of the launched weights and biases.
-/
import proofs.«118626_g5102421148071_cont_8to1_c_1098_12_alg».proof.Proof.R0Dat
import proofs.«118626_g5102421148071_cont_8to1_c_1098_12_alg».proof.Proof.R1Dat
import proofs.«118626_g5102421148071_cont_8to1_c_1098_12_alg».proof.Proof.Gen.KernelIdeal.Launch
import proofs.«118626_g5102421148071_cont_8to1_c_1098_12_alg».proof.Proof.Gen.KernelIdeal.Regions
import Idealize.ShloMosaic.Lib.Pipeline.FrameSuffix

set_option maxRecDepth 16384

noncomputable section

namespace Cert.KernelIdeal.KRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit: its arrays at what the pipeline leaves (the inputs as entered, each output's
    write-backs folded), every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first region's exit contents). -/
abbrev V2 : (c : Dev nD) → (b : Ref sig .tc) → Buf (Elt F) ((c : Thread nD τ).loc b) := fun c b => W2 m ρ c b
/-- At the first region's exit each of its arrays holds what the pipeline leaves and every other buffer what it
    held at entry. -/
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
/-- The same read at the TensorCore's references (what the second region's proof data take). -/
abbrev V3 : (c : Dev nD) → (b : Ref sig .tc) → Buf (Elt F) ((c : Thread nD τ).loc b) := fun c b => W3 m ρ c b
/-- At the second region's exit: its arrays at what the pipeline leaves, every other buffer as entered. -/
def W4 (c : Dev nD) : Valuation τ sig (Elt F) :=
  Pipeline.withArrays spec1 c (W3 m ρ c) fun w => (R1.dat1 (V3 m ρ) c).arrAt w cfg1.N
theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the second region's exit contents). -/
abbrev V4 : (c : Dev nD) → (b : Ref sig .tc) → Buf (Elt F) ((c : Thread nD τ).loc b) := fun c b => W4 m ρ c b
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### What no segment writes: the arguments end as launched, and the second region is entered with the first
    region's outputs and the second host stretch's slices -/

/-- The first host stretch's results, by definition. -/
theorem V1_eq (c : Dev nD) (b : Ref sig .tc) : V1 m ρ c b = StableHlo.after hostOps0 (W0 m ρ c) (Proc.devRef .tc b) := rfl

/-- The first host stretch writes no buffer outside its results' list. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The second host stretch writes no buffer outside its results' list. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- The adjacency matrix is the first region's second input window: it is entered as launched. -/
theorem V1_main_arg1 (c : Dev nD) : V1 m ρ c main_arg1 = m ((c : Thread nD τ).loc main_arg1) :=
  W1_of m ρ c main_arg1 (by decide)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((R0.dat0 (V1 m ρ) c).arrAt_in 1 rfl _).trans (R0.A_eq0 (V1 m ρ) c 1))
    _ = W0 m ρ c (Proc.devRef .tc main_arg1) := W1_of m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- The result's buffer at the end: what the second pipeline's write-backs fold to. -/
theorem W4_main_v0 (c : Dev nD) : W4 m ρ c (Proc.devRef .tc main_v0) = (R1.dat1 (V3 m ρ) c).arrAt 5 cfg1.N :=
  W4_arr m ρ c 5

/-- The second region is entered with the first region's three outputs as its pipeline left them: the second host
    stretch writes none of them. -/
theorem V3_main_call0_v6_0 (c : Dev nD) : V3 m ρ c main_call0_v6_0 = (R0.dat0 (V1 m ρ) c).arrAt 4 cfg0.N :=
  (W3_of m ρ c main_call0_v6_0 (by decide)).trans (W2_arr m ρ c 4)
theorem V3_main_call0_v6_1 (c : Dev nD) : V3 m ρ c main_call0_v6_1 = (R0.dat0 (V1 m ρ) c).arrAt 5 cfg0.N :=
  (W3_of m ρ c main_call0_v6_1 (by decide)).trans (W2_arr m ρ c 5)
theorem V3_main_call0_v6_2 (c : Dev nD) : V3 m ρ c main_call0_v6_2 = (R0.dat0 (V1 m ρ) c).arrAt 6 cfg0.N :=
  (W3_of m ρ c main_call0_v6_2 (by decide)).trans (W2_arr m ρ c 6)
/-- and with the second host stretch's two slices, by definition. -/
theorem V3_main_call0_v7 (c : Dev nD) : V3 m ρ c main_call0_v7 = StableHlo.after hostOps1 (W2 m ρ c) (Proc.devRef .tc main_call0_v7) := rfl
theorem V3_main_call0_v8 (c : Dev nD) : V3 m ρ c main_call0_v8 = StableHlo.after hostOps1 (W2 m ρ c) (Proc.devRef .tc main_call0_v8) := rfl

/-- The other arguments are no result of the first host stretch either: the first region is entered with them as
    launched. -/
theorem V1_main_arg0 (c : Dev nD) : V1 m ρ c main_arg0 = m ((c : Thread nD τ).loc main_arg0) :=
  W1_of m ρ c main_arg0 (by decide)
theorem V1_main_arg2 (c : Dev nD) : V1 m ρ c main_arg2 = m ((c : Thread nD τ).loc main_arg2) :=
  W1_of m ρ c main_arg2 (by decide)
theorem V1_main_arg3 (c : Dev nD) : V1 m ρ c main_arg3 = m ((c : Thread nD τ).loc main_arg3) :=
  W1_of m ρ c main_arg3 (by decide)

/-- The weights and the biases are no window's array of the first region: it leaves them as launched, which is what
    the second host stretch slices. -/
theorem W2_main_arg2 (c : Dev nD) : W2 m ρ c (Proc.devRef .tc main_arg2) = m ((c : Thread nD τ).loc main_arg2) :=
  (W2_of_ne m ρ c main_arg2 (by decide)).trans (W1_of m ρ c main_arg2 (by decide))
theorem W2_main_arg3 (c : Dev nD) : W2 m ρ c (Proc.devRef .tc main_arg3) = m ((c : Thread nD τ).loc main_arg3) :=
  (W2_of_ne m ρ c main_arg3 (by decide)).trans (W1_of m ρ c main_arg3 (by decide))

end Run

end Cert.KernelIdeal.KRun

end
-- ==== Proof.R1Body.lean ====
/-
  The second kernel's body obligation: at every point the body, called with the windows' buffers holding their
  blocks and the scratch at contents that satisfy the point's invariant, runs to its return leaving the inputs as
  they were, the output's buffer at the strip's result in the last layer and as found elsewhere, and the scratch at
  contents that satisfy the next point's invariant.
-/
import proofs.«118626_g5102421148071_cont_8to1_c_1098_12_alg».proof.Proof.R1Dat

set_option maxRecDepth 16384

noncomputable section

namespace Cert.KernelIdeal.R1

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- Two listed writes are the newer one over the older one's result. -/
theorem writes_two {κ : Kind} {sp : Space} {s : Shape} {e : EltTy} {Val : EltTy → Type} (v : View sig κ sp s e)
    (f : v.ty.Contents Val) (p q : View.Piece Val s e) :
    v.writes Val f [p, q] = v.writes Val (v.writes Val f [q]) [p] := rfl

section Pieces

variable (M2 : Memref sig .tc .vmem S10000x768 .bf16) (M3 : Memref sig .tc .vmem S1000x9232 .bf16)
  (M5 : Memref sig .tc .vmem S13x128x128 .f32) (M6 : Memref sig .tc .vmem S13x128 .f32)
  (M7 : Memref sig .tc .vmem S1000x128 .f32)
  (h2 : M2.IsWhole) (h3 : M3.IsWhole) (h5 : M5.IsWhole) (h6 : M6.IsWhole)

/-- The strip's store, the staging memrefs holding the point's blocks and the slab read being the layer's input. -/
theorem stripPiece_eq (t : Fin cfg1.N) (slab : Vec F S1x10000x128 .bf16) (hslab : slab = Slab V c (t.val / 10)) :
    stripPiece c (grid1.coords t) M2 M3 M5 M6 (h2.unread (iblk1 V c 0 t)) (h3.unread (iblk1 V c 1 t)) (h5.unread (iblk1 V c 3 t))
        (h6.unread (iblk1 V c 4 t)) slab
      = ⟨Rect.unit (s := S2x10000x128) (k1_off5 (grid1.coords t)) S1x1000x128.size (k1_off5_inb (grid1.coords t)),
          k1_pay2 (stripAt V c t (Slab V c (t.val / 10))) (biasAt V c t)⟩ := by
  subst hslab
  unfold stripPiece
  rw [strip_unread V c M2 M3 M5 h2 h3 h5, biasRow_unread V c M6 h6]

/-- The output block after the last layer's store reads the strip's result with the bias. -/
theorem emitted_read (t : Fin cfg1.N) (f7 : Bf (F := F) c M7) (slab : Vec F S1x10000x128 .bf16) (hslab : slab = Slab V c (t.val / 10)) :
    M7.view.read (Elt F) (emitted c (grid1.coords t) M2 M3 M5 M6 M7 (h2.unread (iblk1 V c 0 t)) (h3.unread (iblk1 V c 1 t))
        (h5.unread (iblk1 V c 3 t)) (h6.unread (iblk1 V c 4 t)) f7 slab) = out5 V c t := by
  subst hslab
  unfold emitted out5
  rw [strip_unread V c M2 M3 M5 h2 h3 h5, biasRow_unread V c M6 h6]
  exact View.read_writes_eq_canon _ _ _ (cover5 _)

/-- After a point past the first: the next point's invariant. -/
theorem inv_after_mid (t : Fin cfg1.N) (g : Bf (F := F) c scr) (hI : Inv' V c t.val (scr.view.read (Elt F) g)) :
    Inv V c (t.val + 1) (scr.view.read (Elt F) (scr.view.writes (Elt F) g
      [stripPiece c (grid1.coords t) M2 M3 M5 M6 (h2.unread (iblk1 V c 0 t)) (h3.unread (iblk1 V c 1 t)) (h5.unread (iblk1 V c 3 t))
        (h6.unread (iblk1 V c 4 t)) (slabOf c (grid1.coords t) scr g)])) := by
  rw [stripPiece_eq V c M2 M3 M5 M6 h2 h3 h5 h6 t _ (slabOf_eq V c scr t g hI)]
  exact Inv.of_inv' V c (inv_step V c scr t g hI)

/-- After the first point, whatever the scratch held: the second point's invariant. -/
theorem inv_after_first (M4 : Memref sig .tc .vmem S10000x128 .bf16) (h4 : M4.IsWhole) (t : Fin cfg1.N) (h0 : t.val = 0)
    (g : Bf (F := F) c scr) :
    Inv V c (t.val + 1) (scr.view.read (Elt F) (scr.view.writes (Elt F) g
      [stripPiece c (grid1.coords t) M2 M3 M5 M6 (h2.unread (iblk1 V c 0 t)) (h3.unread (iblk1 V c 1 t)) (h5.unread (iblk1 V c 3 t))
        (h6.unread (iblk1 V c 4 t)) (seededSlab c (grid1.coords t) M4 scr (h4.unread (iblk1 V c 2 t))),
       seedPiece c M4 (h4.unread (iblk1 V c 2 t))])) := by
  rw [stripPiece_eq V c M2 M3 M5 M6 h2 h3 h5 h6 t _ ((seededSlab_eq V c scr M4 h4 t h0).trans (by rw [h0]; rfl)), writes_two]
  exact Inv.of_inv' V c (inv_step V c scr t (scr.view.writes (Elt F) g [seedPiece c M4 (h4.unread (iblk1 V c 2 t))])
    (inv_seeded V c scr M4 h4 t h0 g))

end Pieces

set_option maxHeartbeats 4000000 in
/-- The body at any point. -/
theorem sound_body1 (t : Fin cfg1.N) :
    bodyPre1 V c t ⊢ wp frame (wpE (defs₀ (F := F)) Variants.none c none) Set.univ (bodyAt1 t) (fun _ => bodyPost1 V c t) := by
  have hN : t.val < 130 := lt_of_lt_of_eq t.isLt N_1
  unfold bodyPre1 bodyPost1 bodyAt1
  simp only [before1_0, before1_1, before1_2, before1_3, before1_4]
  rewrite [after1_0, after1_1, after1_2, after1_3, after1_4,
    show (dat1 V c).Φ t.castSucc = Φ1 V c t.val from rfl, show (dat1 V c).Φ t.succ = Φ1 V c (t.val + 1) from rfl,
    show (dat1 V c).owesAt () t.succ = (dat1 V c).owesAt () t.castSucc from rfl]
  unfold Φ1
  by_cases h0 : t.val = 0
  · -- the first point
    have hc1 : cond1 (grid1.coords t) = 1#1 := (cond1_iff t).mpr h0
    have hc2 : ¬ k1_cond2 (grid1.coords t) = 1#1 := fun h => by have := (cond2_iff t).mp h; omega
    have hi : idle1 5 (grid1.coords t) = true := (idle5_iff t).mpr (by omega)
    have hf : (win1 5).flush t = false := by
      rw [← Bool.not_eq_true]; intro h; have := (flush5_iff t).mp h; omega
    have ho1 : k1_off1 (grid1.coords t) = ![0, 0, 0] := by rw [off1_eq, h0]
    have ho5 : k1_off5 (grid1.coords t) = ![1, 0, 0] := by rw [off5_eq, h0]
    rewrite [hi, hf]
    unfold owns
    iintro ⟨⟨⟨%g, %hI, Hs⟩, Hw⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
    obtain rfl := (hstage1_0 ((cfg1.slots t 0).cast nbuf1_0)).eq_unread hf0
    obtain rfl := (hstage1_1 ((cfg1.slots t 1).cast nbuf1_1)).eq_unread hf1
    obtain rfl := (hstage1_2 ((cfg1.slots t 2).cast nbuf1_2)).eq_unread hf2
    obtain rfl := (hstage1_3 ((cfg1.slots t 3).cast nbuf1_3)).eq_unread hf3
    obtain rfl := (hstage1_4 ((cfg1.slots t 4).cast nbuf1_4)).eq_unread hf4
    iapply (run_first (c := c) (i := grid1.coords t) (M8 := scr) (f8 := g) (hc1 := hc1) (hc2 := hc2) (ho1 := ho1) (ho5 := ho5) (f7 := f5) (E := Set.univ))
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hw]
    · isplitl [Hs]
      · iexists _
        isplitr
        swap; · iexact Hs
        ipureintro
        exact inv_after_first V c _ _ _ _ _ _ _ _ _ _ t h0 g
      · iexact Hw
    isplitl [Ho]; · iexact Ho
    isplitl [H0]; · iexists _; isplitr; swap; (· iexact H0); ipureintro; exact Memref.IsWhole.read_unread _ _
    isplitl [H1]; · iexists _; isplitr; swap; (· iexact H1); ipureintro; exact Memref.IsWhole.read_unread _ _
    isplitl [H2]; · iexists _; isplitr; swap; (· iexact H2); ipureintro; exact Memref.IsWhole.read_unread _ _
    isplitl [H3]; · iexists _; isplitr; swap; (· iexact H3); ipureintro; exact Memref.IsWhole.read_unread _ _
    isplitl [H4]; · iexists _; isplitr; swap; (· iexact H4); ipureintro; exact Memref.IsWhole.read_unread _ _
    iexists d5; iexists f5
    isplitr; · ipureintro; exact hf5
    iexact H5
  · by_cases hl : t.val < 120
    · -- a point past the first, before the last layer
      have hc1 : ¬ cond1 (grid1.coords t) = 1#1 := fun h => h0 ((cond1_iff t).mp h)
      have hc2 : ¬ k1_cond2 (grid1.coords t) = 1#1 := fun h => by have := (cond2_iff t).mp h; omega
      have hi : idle1 5 (grid1.coords t) = true := (idle5_iff t).mpr hl
      have hf : (win1 5).flush t = false := by
        rw [← Bool.not_eq_true]; intro h; have := (flush5_iff t).mp h; omega
      rewrite [hi, hf]
      unfold owns
      iintro ⟨⟨⟨%g, %hI, Hs⟩, Hw⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
      obtain rfl := (hstage1_0 ((cfg1.slots t 0).cast nbuf1_0)).eq_unread hf0
      obtain rfl := (hstage1_1 ((cfg1.slots t 1).cast nbuf1_1)).eq_unread hf1
      obtain rfl := (hstage1_2 ((cfg1.slots t 2).cast nbuf1_2)).eq_unread hf2
      obtain rfl := (hstage1_3 ((cfg1.slots t 3).cast nbuf1_3)).eq_unread hf3
      obtain rfl := (hstage1_4 ((cfg1.slots t 4).cast nbuf1_4)).eq_unread hf4
      iapply (run_mid (c := c) (i := grid1.coords t) (M8 := scr) (f8 := g) (hc1 := hc1) (hc2 := hc2) (f7 := f5) (E := Set.univ))
      isplitl [H0]; · iexact H0
      isplitl [H1]; · iexact H1
      isplitl [H2]; · iexact H2
      isplitl [H3]; · iexact H3
      isplitl [H4]; · iexact H4
      isplitl [H5]; · iexact H5
      isplitl [Hs]; · iexact Hs
      iintro ⟨H0, H1, H2, H3, H4, H5, Hs⟩
      isplitl [Hs Hw]
      · isplitl [Hs]
        · iexists _
          isplitr
          swap; · iexact Hs
          ipureintro
          exact inv_after_mid V c _ _ _ _ _ _ _ _ t g (hI.inv' V c h0)
        · iexact Hw
      isplitl [Ho]; · iexact Ho
      isplitl [H0]; · iexists _; isplitr; swap; (· iexact H0); ipureintro; exact Memref.IsWhole.read_unread _ _
      isplitl [H1]; · iexists _; isplitr; swap; (· iexact H1); ipureintro; exact Memref.IsWhole.read_unread _ _
      isplitl [H2]; · iexists _; isplitr; swap; (· iexact H2); ipureintro; exact Memref.IsWhole.read_unread _ _
      isplitl [H3]; · iexists _; isplitr; swap; (· iexact H3); ipureintro; exact Memref.IsWhole.read_unread _ _
      isplitl [H4]; · iexists _; isplitr; swap; (· iexact H4); ipureintro; exact Memref.IsWhole.read_unread _ _
      iexists d5; iexists f5
      isplitr; · ipureintro; exact hf5
      iexact H5
    · -- a point of the last layer
      have hc1 : ¬ cond1 (grid1.coords t) = 1#1 := fun h => h0 ((cond1_iff t).mp h)
      have hc2 : k1_cond2 (grid1.coords t) = 1#1 := (cond2_iff t).mpr (by omega)
      have hi : idle1 5 (grid1.coords t) = false := by
        rw [← Bool.not_eq_true]; intro h; have := (idle5_iff t).mp h; omega
      rewrite [hi, after1_5]
      unfold owns
      iintro ⟨⟨⟨%g, %hI, Hs⟩, Hw⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
      obtain rfl := (hstage1_0 ((cfg1.slots t 0).cast nbuf1_0)).eq_unread hf0
      obtain rfl := (hstage1_1 ((cfg1.slots t 1).cast nbuf1_1)).eq_unread hf1
      obtain rfl := (hstage1_2 ((cfg1.slots t 2).cast nbuf1_2)).eq_unread hf2
      obtain rfl := (hstage1_3 ((cfg1.slots t 3).cast nbuf1_3)).eq_unread hf3
      obtain rfl := (hstage1_4 ((cfg1.slots t 4).cast nbuf1_4)).eq_unread hf4
      iapply (run_last (c := c) (i := grid1.coords t) (M8 := scr) (f8 := g) (hc1 := hc1) (hc2 := hc2) (f7 := f5) (E := Set.univ))
      isplitl [H0]; · iexact H0
      isplitl [H1]; · iexact H1
      isplitl [H2]; · iexact H2
      isplitl [H3]; · iexact H3
      isplitl [H4]; · iexact H4
      isplitl [H5]; · iexact H5
      isplitl [Hs]; · iexact Hs
      iintro ⟨H0, H1, H2, H3, H4, H5, Hs⟩
      isplitl [Hs Hw]
      · isplitl [Hs]
        · iexists _
          isplitr
          swap; · iexact Hs
          ipureintro
          exact inv_after_mid V c _ _ _ _ _ _ _ _ t g (hI.inv' V c h0)
        · iexact Hw
      isplitl [Ho]; · iexact Ho
      isplitl [H0]; · iexists _; isplitr; swap; (· iexact H0); ipureintro; exact Memref.IsWhole.read_unread _ _
      isplitl [H1]; · iexists _; isplitr; swap; (· iexact H1); ipureintro; exact Memref.IsWhole.read_unread _ _
      isplitl [H2]; · iexists _; isplitr; swap; (· iexact H2); ipureintro; exact Memref.IsWhole.read_unread _ _
      isplitl [H3]; · iexists _; isplitr; swap; (· iexact H3); ipureintro; exact Memref.IsWhole.read_unread _ _
      isplitl [H4]; · iexists _; isplitr; swap; (· iexact H4); ipureintro; exact Memref.IsWhole.read_unread _ _
      iexists _
      isplitr
      swap; · iexact H5
      ipureintro
      exact emitted_read V c _ _ _ _ _ _ _ _ _ t f5 _ (slabOf_eq V c scr t g (hI.inv' V c h0))

/-- The library's body obligation, at every point. -/
theorem body_obligation1 : BodyObligation (dat1 (F := F) V c) (defs₀ (F := F)) Variants.none () Set.univ := fun t => by
  rw [bigSep_W1, bigSep_W1]
  exact sound_body1 V c t

end Cert.KernelIdeal.R1
end
-- ==== Proof.KRun.lean ====
/-
  The run of the whole program: two kernel regions among two stretches of host operations.

  The buffer contents at each boundary are a fold from the launch memory: a host stretch leaves what its operations
  compute, a kernel region leaves its windows' arrays at what the pipeline's write-backs fold to and every other
  buffer as it found it. Each region is entered from "every unscoped buffer at the boundary's contents, the
  generator register at some state, nothing owed" and left at the same over the next boundary's contents. The first
  region's invariant is the scoped rest beside the generator register; the second's keeps its scratch at contents
  satisfying the scratch invariant and promises the scoped rest back, so entering it takes the scratch out of the
  scoped rest and leaving it puts the scratch back.
-/
import proofs.«118626_g5102421148071_cont_8to1_c_1098_12_alg».proof.Proof.KChain
import proofs.«118626_g5102421148071_cont_8to1_c_1098_12_alg».proof.Proof.R0Dat
import proofs.«118626_g5102421148071_cont_8to1_c_1098_12_alg».proof.Proof.R1Dat
import proofs.«118626_g5102421148071_cont_8to1_c_1098_12_alg».proof.Proof.R1Inv
import proofs.«118626_g5102421148071_cont_8to1_c_1098_12_alg».proof.Proof.R1Body
import proofs.«118626_g5102421148071_cont_8to1_c_1098_12_alg».proof.Proof.Gen.KernelIdeal.Launch
import proofs.«118626_g5102421148071_cont_8to1_c_1098_12_alg».proof.Proof.Gen.KernelIdeal.Points
import proofs.«118626_g5102421148071_cont_8to1_c_1098_12_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-! ## The proof data family and the thread state -/

/-- Every pipeline's proof data, each at its region's entry contents — a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owed counters, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    with those references at what the operations compute from `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed counters: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at `W1`, left at `W2`. Its arrays
    split out of the unscoped buffers and put back at the exit contents; the generator register into the region's
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Entering the second region: the scratch comes out of the scoped rest — any contents satisfy the scratch
    invariant before the first point — and the scoped rest is promised back for the scratch at any contents. -/
theorem hin1 (V : (c : Dev nD) → (b : Ref sig .tc) → Buf (Elt F) ((c : Thread nD τ).loc b)) (c : Dev nD) :
    iprop((∃ r, prngReg c r) ∗ Pipeline.scopedRest (Ix := Unit) (Name := ℕ) (U := UR sig nD τ) (Lvl := ℕ) (Val := Elt F) spec1 c)
      ⊢ (R1.Φ1 V c 0 : sProp 𝕄) := by
  unfold R1.Φ1 Pipeline.ΦA
  rw [scopedRest1_eq]
  iintro ⟨Hp, H0, H1, H2, H3, H4, H5, H6, H7, H8, H9, H10, ⟨%g, Hs⟩⟩
  isplitl [Hs]
  · iexists g; isplitr; · ipureintro; exact R1.Inv.zero V c _
    iexact Hs
  iintro ⟨%g', Hs⟩
  isplitr [Hp]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists g'; iexact Hs
  iexact Hp

/-- Leaving it: the scratch, at whatever it holds, redeems the promise. -/
theorem hout1 (V : (c : Dev nD) → (b : Ref sig .tc) → Buf (Elt F) ((c : Thread nD τ).loc b)) (c : Dev nD) (t : ℕ) :
    (R1.Φ1 V c t : sProp 𝕄) ⊢ Pipeline.ΦA spec1 c := by
  unfold R1.Φ1
  iintro ⟨⟨%g, -, Hs⟩, Hw⟩
  iapply Hw
  iexists g; iexact Hs

set_option backward.isDefEq.respectTransparency.types false in
/-- The second region over the thread state: entered from every unscoped buffer at `W3`, left at `W4` (what the
    launch reads at the end). Its arrays split out of the unscoped buffers and put back at the exit contents; the
    generator register and the scoped rest into the region's invariant — the scratch taken out of the scoped rest —
    and out of it; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = R1.Φ1 (V3 m ρ) c 0 from rfl]
    iintro ⟨Hp, -, Hr⟩
    iapply (hin1 (V3 m ρ) c)
    isplitl [Hp]; · iexact Hp
    iexact Hr
  hout c := by
    rw [Pipeline.ownSems0_none]
    refine (show (pdats m ρ 1 c).Φ (Fin.last _) ⊢ Pipeline.ΦA spec1 c from hout1 (V3 m ρ) c _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: a host segment per stretch from its boundary's contents, a region per
    kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments: it is the chain of its items, and the segments' run is that chain. -/
theorem main_run (c : Dev nD) : main (F := F) c = Pipeline.Seg.run (segs m ρ) := (main_chain c).trans (by chain_rfl)

end Run

set_option backward.isDefEq.respectTransparency.types false in
/-- The run: from any memory with zero counters every weakly fair
    execution of the program on the TensorCores terminates, nothing faulting, and in every final state each unscoped
    buffer holds the last boundary's contents. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.KRun

end
-- ==== Proof.BR0Body.lean ====
import proofs.«118626_g5102421148071_cont_8to1_c_1098_12_alg».proof.Proof.Gen.Kernel.Launch
import proofs.«118626_g5102421148071_cont_8to1_c_1098_12_alg».proof.Proof.Gen.Kernel.Skeleton
import proofs.«118626_g5102421148071_cont_8to1_c_1098_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first kernel region: what its body leaves in the output staging buffers, and the body's triple

The body loads its four input blocks whole, stores the first 768 and the last 9232 columns of the
adjacency strip unchanged, and stores `(strip · x) · W + b` as the third output. Each output buffer
after the body is the canonical contents of its single whole-buffer store. -/

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

abbrev rX : Rect S10000x128 := Rect.unit (s := S10000x128) ![0, 0] S10000x128.size inb_S10000x128_S10000x128_0_0
abbrev rA : Rect S400x10000 := Rect.unit (s := S400x10000) ![0, 0] S400x10000.size inb_S400x10000_S400x10000_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rLo : Rect S400x768 := Rect.unit (s := S400x768) ![0, 0] S400x768.size inb_S400x768_S400x768_0_0
abbrev rHi : Rect S400x9232 := Rect.unit (s := S400x9232) ![0, 0] S400x9232.size inb_S400x9232_S400x9232_0_0
abbrev rO : Rect S400x128 := Rect.unit (s := S400x128) ![0, 0] S400x128.size inb_S400x128_S400x128_0_0

/-! ## What the body leaves in each output window's buffer -/

/-- The low-column output's buffer after the body: its one store, of the strip's columns `[0, 768)`. -/
def out0_4 (x0 : Vec F S10000x128 .bf16) (x1 : Vec F S400x10000 .f32) (x2 : Vec F S128x128 .f32) (x3 : Vec F S1x128 .f32) : Vec F S400x768 .bf16 :=
  View.canon [⟨rLo, k0_pay2 (View.ld x1 rA)⟩]

/-- The one store is of the whole buffer, so it covers it. -/
theorem cover0_4 (p0 : Vec F S400x768 .bf16) (y : S400x768.Idx) :
    ∃ pc ∈ ([⟨rLo, p0⟩] : List (View.Piece (Elt F) S400x768 .bf16)), y ∈ pc.1.set :=
  View.cover_of_tiled [⟨rLo, p0⟩] S400x768.size (by rfl) y

/-- The high-column output's buffer after the body: its one store, of the strip's columns `[768, 10000)`. -/
def out0_5 (x0 : Vec F S10000x128 .bf16) (x1 : Vec F S400x10000 .f32) (x2 : Vec F S128x128 .f32) (x3 : Vec F S1x128 .f32) : Vec F S400x9232 .bf16 :=
  View.canon [⟨rHi, k0_pay3 (View.ld x1 rA)⟩]

theorem cover0_5 (p0 : Vec F S400x9232 .bf16) (y : S400x9232.Idx) :
    ∃ pc ∈ ([⟨rHi, p0⟩] : List (View.Piece (Elt F) S400x9232 .bf16)), y ∈ pc.1.set :=
  View.cover_of_tiled [⟨rHi, p0⟩] S400x9232.size (by rfl) y

/-- The layer output's buffer after the body: its one store, of `(strip · x) · W + b`. -/
def out0_6 (x0 : Vec F S10000x128 .bf16) (x1 : Vec F S400x10000 .f32) (x2 : Vec F S128x128 .f32) (x3 : Vec F S1x128 .f32) : Vec F S400x128 .bf16 :=
  View.canon [⟨rO, k0_pay4 (View.ld x1 rA) (View.ld x0 rX) (View.ld x2 rW) (View.ld x3 rB)⟩]

theorem cover0_6 (p0 : Vec F S400x128 .bf16) (y : S400x128.Idx) :
    ∃ pc ∈ ([⟨rO, p0⟩] : List (View.Piece (Elt F) S400x128 .bf16)), y ∈ pc.1.set :=
  View.cover_of_tiled [⟨rO, p0⟩] S400x128.size (by rfl) y

/-! ## The body's triple -/

set_option maxHeartbeats 4000000 in
/-- The kernel body on whole staging memrefs, the inputs' at read contents and the outputs' at anything, runs to
    the continuation holding the inputs' as they were and each output's at `out0_W` of the inputs'. -/
theorem sound_kernel0 (c : Dev nD) (E : Set ℕ) (i : grid0.Coords)
    (arg0 : Memref sig .tc .vmem S10000x128 .bf16) (harg0 : arg0.IsWhole) (arg1 : Memref sig .tc .vmem S400x10000 .f32) (harg1 : arg1.IsWhole)
    (arg2 : Memref sig .tc .vmem S128x128 .f32) (harg2 : arg2.IsWhole) (arg3 : Memref sig .tc .vmem S1x128 .f32) (harg3 : arg3.IsWhole)
    (arg4 : Memref sig .tc .vmem S400x768 .bf16) (harg4 : arg4.IsWhole) (arg5 : Memref sig .tc .vmem S400x9232 .bf16) (harg5 : arg5.IsWhole)
    (arg6 : Memref sig .tc .vmem S400x128 .bf16) (harg6 : arg6.IsWhole)
    (x0 : Vec F S10000x128 .bf16) (x1 : Vec F S400x10000 .f32) (x2 : Vec F S128x128 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out0_4 x0 x1 x2 x3) ∗ owns (c : Thread nD τ) arg5 fullShare (out0_5 x0 x1 x2 x3) ∗ owns (c : Thread nD τ) arg6 fullShare (out0_6 x0 x1 x2 x3)) -∗ K ⟨⟩))
      ⊢ wp frame (wpE (defs₀ (F := F)) Variants.none c none) E (cc0__layer0_body i arg0 harg0 arg1 harg1 arg2 harg2 arg3 harg3 arg4 harg4 arg5 harg5 arg6 harg6) K := by
  simp only [cc0__layer0_body_eq_skeleton]; unfold cc0__layer0_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

end Cert.Kernel.R0

end
-- ==== Proof.BR0Dat.lean ====
import proofs.«118626_g5102421148071_cont_8to1_c_1098_12_alg».proof.Proof.BR0Body

/-! # The first kernel region: the pipeline's proof data and its body obligation

At a parameter valuation `V` (the buffer contents when the region is entered): every input window's
staging buffer holds its block of `V`'s array at every grid point, and after the body each output
window's staging buffer holds `out0_W` of the four input blocks. -/

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the first pipeline on core `c`: the arrays as the region finds them (`V`); after the body at
    point `t` each input's buffer at its block and each output's at `out0_W` of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's owed counters pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.BR1Run.lean ====
/-
  The second kernel's body at one grid point (l, r), l the layer and r the strip of 1000 rows.

  The body keeps a scratch of two slabs [2, 10000, 128]. It reads the whole slab l mod 2 (the layer's input h), the
  strip's rows of the left 768 columns of the adjacency and its block of the remaining 9232 columns, the layer's
  weight matrix and bias row; it forms (A_left · h[:768] + A_right · h[768:]) · W + b for the strip and stores it,
  rounded to the scratch's format, into rows [1000 r, 1000 r + 1000) of the OTHER slab. Two things happen at some
  points only: at the very first point the body first copies the staged first-layer result into slab 0; in the
  last layer it also stores the unrounded strip into the output block. Each of the three resulting control paths
  is run once here, for any point at which its two conditions hold, and what the scratch (and the output block)
  holds afterwards is stated as the old contents with one rectangle overwritten.
-/
import proofs.«118626_g5102421148071_cont_8to1_c_1098_12_alg».proof.Proof.Gen.Kernel.Launch
import proofs.«118626_g5102421148071_cont_8to1_c_1098_12_alg».proof.Proof.Gen.Kernel.Skeleton
import proofs.«118626_g5102421148071_cont_8to1_c_1098_12_alg».proof.Proof.Gen.Kernel.Points
import Idealize.ShloMosaic.Lib.Pipeline.RegionsLoop
import Idealize.ShloMosaic.Lib.Tactic

noncomputable section

namespace Cert.Kernel.R1

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's buffer on core `c`, and the memref held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The first branch's condition: the point is the grid's first. -/
def cond1 (i : grid1.Coords) : BitVec 1 :=
  Scalar.cmpi .ne (Scalar.extui (Scalar.andi (Scalar.cmpi .eq (BitVec.ofNat 32 (i 0).val) 0#32) (Scalar.cmpi .eq (BitVec.ofNat 32 (i 1).val) 0#32))) 0#32

/-- A window's staging memref held on its elements at raw contents `f`. -/
abbrev win (c : Dev nD) {sp : Space} {S : Shape} {e : EltTy} (M : Memref sig .tc sp S e) (f : Bf (F := F) c M) : sProp 𝕄 :=
  M.view.loc (c : Thread nD τ) ↦[M.view.set]{fullShare} f

section Point

variable (c : Dev nD) (i : grid1.Coords)
  (M2 : Memref sig .tc .vmem S10000x768 .bf16) (M3 : Memref sig .tc .vmem S1000x9232 .bf16)
  (M4 : Memref sig .tc .vmem S10000x128 .bf16) (M5 : Memref sig .tc .vmem S13x128x128 .f32)
  (M6 : Memref sig .tc .vmem S13x128 .f32) (M7 : Memref sig .tc .vmem S1000x128 .f32)
  (M8 : Memref sig .tc .vmem S2x10000x128 .bf16)
  (f2 : Bf (F := F) c M2) (f3 : Bf (F := F) c M3) (f4 : Bf (F := F) c M4) (f5 : Bf (F := F) c M5)
  (f6 : Bf (F := F) c M6) (f8 : Bf (F := F) c M8)

/-- The layer's input slab as the body reads it off scratch contents `g`. -/
def slabOf (g : Bf (F := F) c M8) : Vec F S1x10000x128 .bf16 :=
  View.readAt (Elt F) M8.view (Rect.unit (s := S2x10000x128) (k1_off1 i) S1x10000x128.size (k1_off1_inb i)).toLoadRect g

/-- The strip's result before the bias: the payload of the reads, the input slab given. -/
def strip (slab : Vec F S1x10000x128 .bf16) : FVec F S1000x128 .f32 :=
  k1_pay4 slab
    (View.readAt (Elt F) M2.view (Rect.unit (s := S10000x768) (k1_off2 i) S1000x768.size (k1_off2_inb i)).toLoadRect f2)
    (View.readAt (Elt F) M3.view (Rect.unit (s := S1000x9232) ![0, 0] S1000x9232.size inb_S1000x9232_S1000x9232_0_0).toLoadRect f3)
    (View.readAt (Elt F) M5.view (Rect.unit (s := S13x128x128) (k1_off3 i) S1x128x128.size (k1_off3_inb i)).toLoadRect f5)

/-- The layer's bias row as the body reads it. -/
def biasRow : FVec F S128 .f32 :=
  k1_pay5 (View.readAt (Elt F) M6.view (Rect.unit (s := S13x128) (k1_off4 i) S1x128.size (k1_off4_inb i)).toLoadRect f6)

/-- The strip's store: rows [1000 r, 1000 r + 1000) of the slab the layer writes, at the strip's rounded result. -/
def stripPiece (slab : Vec F S1x10000x128 .bf16) : View.Piece (Elt F) S2x10000x128 .bf16 :=
  ⟨Rect.unit (s := S2x10000x128) (k1_off5 i) S1x1000x128.size (k1_off5_inb i),
    k1_pay2 (strip c i M2 M3 M5 f2 f3 f5 slab) (biasRow c i M6 f6)⟩

/-- The first point's copy of the staged first-layer result into slab 0. -/
def seedPiece : View.Piece (Elt F) S2x10000x128 .bf16 :=
  ⟨Rect.unit (s := S2x10000x128) ![0, 0, 0] S1x10000x128.size inb_S2x10000x128_S1x10000x128_0_0_0,
    k1_pay3 (View.readAt (Elt F) M4.view (Rect.unit (s := S10000x128) ![0, 0] S10000x128.size inb_S10000x128_S10000x128_0_0).toLoadRect f4)⟩

/-- The slab the first point reads: slab 0 just seeded, whatever the scratch held. -/
def seededSlab : Vec F S1x10000x128 .bf16 :=
  M8.view.readCov [seedPiece c M4 f4] (Rect.unit (s := S2x10000x128) (k1_off1 i) S1x10000x128.size (k1_off1_inb i)).toLoadRect

/-- The output block after the last layer's store. -/
def emitted (f7 : Bf (F := F) c M7) (slab : Vec F S1x10000x128 .bf16) : Bf (F := F) c M7 :=
  M7.view.writes (Elt F) f7
    [⟨Rect.unit (s := S1000x128) ![0, 0] S1000x128.size inb_S1000x128_S1000x128_0_0,
      k1_pay1 (strip c i M2 M3 M5 f2 f3 f5 slab) (biasRow c i M6 f6)⟩]

variable (h2 : M2.IsWhole) (h3 : M3.IsWhole) (h4 : M4.IsWhole) (h5 : M5.IsWhole) (h6 : M6.IsWhole) (h7 : M7.IsWhole) (h8 : M8.IsWhole)

set_option maxHeartbeats 2000000 in
/-- A point that is neither the first nor in the last layer: only the scratch changes. -/
theorem run_mid (hc1 : ¬ cond1 i = 1#1) (hc2 : ¬ k1_cond2 i = 1#1) (f7 : Bf (F := F) c M7) (E : Set ℕ) (Q : PUnit → sProp 𝕄) :
    iprop(win c M2 f2 ∗ win c M3 f3 ∗ win c M4 f4 ∗ win c M5 f5 ∗ win c M6 f6 ∗ win c M7 f7 ∗ pt c M8 f8
        ∗ (iprop(win c M2 f2 ∗ win c M3 f3 ∗ win c M4 f4 ∗ win c M5 f5 ∗ win c M6 f6 ∗ win c M7 f7
            ∗ pt c M8 (M8.view.writes (Elt F) f8 [stripPiece c i M2 M3 M5 M6 f2 f3 f5 f6 (slabOf c i M8 f8)])) -∗ Q ⟨⟩))
      ⊢ wp frame (wpE (defs₀ (F := F)) Variants.none c none) E (cc1__rest_body i M2 h2 M3 h3 M4 h4 M5 h5 M6 h6 M7 h7 M8 h8) Q := by
  simp only [cc1__rest_body_eq_skeleton]; unfold cc1__rest_body_skel
  simp only [k1_part1_eq_skeleton]; unfold k1_part1_skel
  iintro ⟨H2, H3, H4, H5, H6, H7, H8, Hk⟩
  sl_exec (disch := first | exact hc1 | exact hc2)
  sl_step
  iapply Hk
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- A point of the last layer: the scratch changes as everywhere, and the output block takes the unrounded strip. -/
theorem run_last (hc1 : ¬ cond1 i = 1#1) (hc2 : k1_cond2 i = 1#1) (f7 : Bf (F := F) c M7) (E : Set ℕ) (Q : PUnit → sProp 𝕄) :
    iprop(win c M2 f2 ∗ win c M3 f3 ∗ win c M4 f4 ∗ win c M5 f5 ∗ win c M6 f6 ∗ win c M7 f7 ∗ pt c M8 f8
        ∗ (iprop(win c M2 f2 ∗ win c M3 f3 ∗ win c M4 f4 ∗ win c M5 f5 ∗ win c M6 f6
            ∗ win c M7 (emitted c i M2 M3 M5 M6 M7 f2 f3 f5 f6 f7 (slabOf c i M8 f8))
            ∗ pt c M8 (M8.view.writes (Elt F) f8 [stripPiece c i M2 M3 M5 M6 f2 f3 f5 f6 (slabOf c i M8 f8)])) -∗ Q ⟨⟩))
      ⊢ wp frame (wpE (defs₀ (F := F)) Variants.none c none) E (cc1__rest_body i M2 h2 M3 h3 M4 h4 M5 h5 M6 h6 M7 h7 M8 h8) Q := by
  simp only [cc1__rest_body_eq_skeleton]; unfold cc1__rest_body_skel
  simp only [k1_part1_eq_skeleton]; unfold k1_part1_skel
  iintro ⟨H2, H3, H4, H5, H6, H7, H8, Hk⟩
  sl_exec (disch := first | exact hc1 | exact hc2)
  sl_step
  iapply Hk
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The first point (where the slab read is slab 0 and the slab written starts at slab 1's first row): slab 0 is
    seeded from the staged first-layer result, then the strip is computed from it and stored. -/
theorem run_first (hc1 : cond1 i = 1#1) (hc2 : ¬ k1_cond2 i = 1#1) (ho1 : k1_off1 i = ![0, 0, 0]) (ho5 : k1_off5 i = ![1, 0, 0])
    (f7 : Bf (F := F) c M7) (E : Set ℕ) (Q : PUnit → sProp 𝕄) :
    iprop(win c M2 f2 ∗ win c M3 f3 ∗ win c M4 f4 ∗ win c M5 f5 ∗ win c M6 f6 ∗ win c M7 f7 ∗ pt c M8 f8
        ∗ (iprop(win c M2 f2 ∗ win c M3 f3 ∗ win c M4 f4 ∗ win c M5 f5 ∗ win c M6 f6 ∗ win c M7 f7
            ∗ pt c M8 (M8.view.writes (Elt F) f8
                (stripPiece c i M2 M3 M5 M6 f2 f3 f5 f6 (seededSlab c i M4 M8 f4) :: [seedPiece c M4 f4]))) -∗ Q ⟨⟩))
      ⊢ wp frame (wpE (defs₀ (F := F)) Variants.none c none) E (cc1__rest_body i M2 h2 M3 h3 M4 h4 M5 h5 M6 h6 M7 h7 M8 h8) Q := by
  simp only [cc1__rest_body_eq_skeleton]; unfold cc1__rest_body_skel
  simp only [k1_part1_eq_skeleton]; unfold k1_part1_skel
  iintro ⟨H2, H3, H4, H5, H6, H7, H8, Hk⟩
  letI : ClosedOff (k1_off1 i) := ⟨![0, 0, 0], ho1⟩
  letI : ClosedOff (k1_off5 i) := ⟨![1, 0, 0], ho5⟩
  sl_exec (disch := first | exact hc1 | exact hc2)
  sl_step
  iapply Hk
  isplitl [H2]; · iexact H2
  isplitl [H3]; · iexact H3
  isplitl [H4]; · iexact H4
  isplitl [H5]; · iexact H5
  isplitl [H6]; · iexact H6
  isplitl [H7]; · iexact H7
  iexact H8

end Point

end Cert.Kernel.R1
end
-- ==== Proof.BR1Scratch.lean ====
/-
  What the second kernel's scratch holds, layer by layer.

  The scratch is two slabs of [10000, 128]. During layer l the body reads slab l mod 2 whole and fills the other
  slab strip by strip, 1000 rows per grid point; the next layer swaps the two. So at the point (l, r), before the
  body runs, slab l mod 2 holds the input of layer l — the first-layer result for l = 0, else what layer l − 1 stored
  — and rows [0, 1000 r) of the other slab already hold layer l's output. Here: the closed forms of the body's offsets
  and conditions over the 13 × 10 points; the contents a slab has at each layer as a function of the arrays the
  region finds (`Slab`), by recursion on the layer through the body's own payload; and the invariant above.
-/
import proofs.«118626_g5102421148071_cont_8to1_c_1098_12_alg».proof.Proof.BR1Run
import Idealize.ShloMosaic.Lib.WritesUnit
import Idealize.ShloMosaic.Lib.WholeRead
import Idealize.ShloMosaic.Lib.ValueIdx
import Idealize.ShloMosaic.Lib.Pipeline.FrameBody

noncomputable section

namespace Cert.Kernel.R1

open Cert.Kernel Cert.Kernel.Gen
open Idealize.ShloMosaic Idealize.ShloMosaic.ValueIdx
open Idealize.ShloMosaic.TcCoe
open Idealize.SL.Sem

variable {F : FTy → Type} [FloatOps F]

/-! ## The offsets and conditions at each point -/

/-- The first branch is taken at the first point only. -/
theorem cond1_iff : ∀ t : Fin cfg1.N, cond1 (grid1.coords t) = 1#1 ↔ t.val = 0 :=
  (by decide +kernel : ∀ t : Fin grid1.N, cond1 (grid1.coords t) = 1#1 ↔ t.val = 0)
/-- The second branch is taken in the last layer only. -/
theorem cond2_iff : ∀ t : Fin cfg1.N, k1_cond2 (grid1.coords t) = 1#1 ↔ 120 ≤ t.val :=
  (by decide +kernel : ∀ t : Fin grid1.N, k1_cond2 (grid1.coords t) = 1#1 ↔ 120 ≤ t.val)
/-- The slab read is slab l mod 2, whole. -/
theorem off1_eq : ∀ t : Fin cfg1.N, k1_off1 (grid1.coords t) = ![(t.val / 10) % 2, 0, 0] :=
  (by decide +kernel : ∀ t : Fin grid1.N, k1_off1 (grid1.coords t) = ![(t.val / 10) % 2, 0, 0])
/-- The strip is stored at rows [1000 r, 1000 r + 1000) of the other slab. -/
theorem off5_eq : ∀ t : Fin cfg1.N, k1_off5 (grid1.coords t) = ![1 - (t.val / 10) % 2, 1000 * (t.val % 10), 0] :=
  (by decide +kernel : ∀ t : Fin grid1.N, k1_off5 (grid1.coords t) = ![1 - (t.val / 10) % 2, 1000 * (t.val % 10), 0])
/-- The output block is written back in the last layer only, -/
theorem flush5_iff : ∀ t : Fin cfg1.N, (cfg1.win 5).flush t = true ↔ 120 ≤ t.val :=
  (by decide +kernel : ∀ t : Fin grid1.N, win1_5.flush t = true ↔ 120 ≤ t.val)
/-- and the body stores into it there only. -/
theorem idle5_iff : ∀ t : Fin cfg1.N, cfg1.idle 5 (cfg1.grid.coords t) = true ↔ t.val < 120 :=
  (by decide +kernel : ∀ t : Fin grid1.N, idle1 5 (grid1.coords t) = true ↔ t.val < 120)

/-! ## The blocks at a point, and the body's payload over them -/

variable (V : (c : Dev nD) → (b : Ref sig .tc) → Buf (Elt F) ((c : Thread nD τ).loc b)) (c : Dev nD)

/-- Window `w`'s block at point `t`, read off its array as the region finds it. -/
def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point of layer `l` and strip `r`. -/
def tOf (l r : ℕ) : Fin cfg1.N := ⟨(10 * l + r) % 130, by rw [show cfg1.N = 130 from N_1]; exact Nat.mod_lt _ (by norm_num)⟩

/-- The strip's result before the bias at point `t`, from the blocks there and the layer's input slab. -/
def stripAt (t : Fin cfg1.N) (slab : Vec F S1x10000x128 .bf16) : FVec F S1000x128 .f32 :=
  k1_pay4 slab
    (fun x => (iblk1 V c 0 t : Vec F S10000x768 .bf16)
      ((Rect.unit (s := S10000x768) (k1_off2 (grid1.coords t)) S1000x768.size (k1_off2_inb (grid1.coords t))).toLoadRect.idx x))
    (fun x => (iblk1 V c 1 t : Vec F S1000x9232 .bf16)
      ((Rect.unit (s := S1000x9232) ![0, 0] S1000x9232.size inb_S1000x9232_S1000x9232_0_0).toLoadRect.idx x))
    (fun x => (iblk1 V c 3 t : Vec F S13x128x128 .f32)
      ((Rect.unit (s := S13x128x128) (k1_off3 (grid1.coords t)) S1x128x128.size (k1_off3_inb (grid1.coords t))).toLoadRect.idx x))

/-- The layer's bias row at point `t`. -/
def biasAt (t : Fin cfg1.N) : FVec F S128 .f32 :=
  k1_pay5 (fun x => (iblk1 V c 4 t : Vec F S13x128 .f32)
    ((Rect.unit (s := S13x128) (k1_off4 (grid1.coords t)) S1x128.size (k1_off4_inb (grid1.coords t))).toLoadRect.idx x))

/-- What the first point copies into slab 0: the staged first-layer result. -/
def seedSlab : Vec F S1x10000x128 .bf16 :=
  k1_pay3 (fun x => (iblk1 V c 2 (tOf 0 0) : Vec F S10000x128 .bf16)
    ((Rect.unit (s := S10000x128) ![0, 0] S10000x128.size inb_S10000x128_S10000x128_0_0).toLoadRect.idx x))

/-- The input slab of layer `l`: the seed for `l = 0`; else row `j` holds what the point of layer `l − 1` and strip
    `j / 1000` stored at its local row `j mod 1000`. -/
def Slab : ℕ → Vec F S1x10000x128 .bf16
  | 0 => seedSlab V c
  | l + 1 => fun x =>
      k1_pay2 (stripAt V c (tOf l ((x 1).val / 1000)) (Slab l)) (biasAt V c (tOf l ((x 1).val / 1000)))
        (ix3 (0 : Fin 1) (⟨(x 1).val % 1000, Nat.mod_lt _ (by norm_num)⟩ : Fin 1000) (x 2 : Fin 128))

/-- The invariant before point `t` (as a number, `t = 10 l + r`), on what the scratch reads: after the first
    point slab `l mod 2` is layer `l`'s input, and rows below `1000 r` of the other slab are layer `l + 1`'s. -/
def Inv (t : ℕ) (R : S2x10000x128.Idx → Elt F .bf16) : Prop :=
  ∀ (j : Fin 10000) (q : Fin 128),
    (t ≠ 0 → R (ix3 (⟨(t / 10) % 2, Nat.mod_lt _ (by norm_num)⟩ : Fin 2) j q) = Slab V c (t / 10) (ix3 (0 : Fin 1) j q))
    ∧ (j.val < 1000 * (t % 10) →
        R (ix3 (⟨1 - (t / 10) % 2, by omega⟩ : Fin 2) j q) = Slab V c (t / 10 + 1) (ix3 (0 : Fin 1) j q))

end Cert.Kernel.R1
end
-- ==== Proof.BR1Inv.lean ====
/-
  The scratch invariant is kept by every point.

  Before point t = 10 l + r the scratch reads: slab l mod 2 is layer l's input, rows below 1000 r of the other slab are
  layer l + 1's input. The body reads the first, and overwrites rows [1000 r, 1000 r + 1000) of the second with the
  strip it computes from it. An index of the scratch is then in the written rectangle exactly when its slab is the
  other one and its row lies in that range; there it reads the strip's payload, which is by definition the next
  layer's input at that row; elsewhere it reads what it read before. When r = 9 the layer ends and the roles swap.
-/
import proofs.«118626_g5102421148071_cont_8to1_c_1098_12_alg».proof.Proof.BR1Scratch

noncomputable section

namespace Cert.Kernel.R1

open Cert.Kernel Cert.Kernel.Gen
open Idealize.ShloMosaic Idealize.ShloMosaic.ValueIdx
open Idealize.ShloMosaic.TcCoe
open Idealize.SL.Sem

variable {F : FTy → Type} [FloatOps F]
variable (V : (c : Dev nD) → (b : Ref sig .tc) → Buf (Elt F) ((c : Thread nD τ).loc b)) (c : Dev nD)

/-- The invariant's content with nothing exempted: what holds before every point but the first, and of the
    contents the first point's seeding leaves. -/
def Inv' (t : ℕ) (R : S2x10000x128.Idx → Elt F .bf16) : Prop :=
  ∀ (j : Fin 10000) (q : Fin 128),
    R (ix3 (⟨(t / 10) % 2, Nat.mod_lt _ (by norm_num)⟩ : Fin 2) j q) = Slab V c (t / 10) (ix3 (0 : Fin 1) j q)
    ∧ (j.val < 1000 * (t % 10) →
        R (ix3 (⟨1 - (t / 10) % 2, by omega⟩ : Fin 2) j q) = Slab V c (t / 10 + 1) (ix3 (0 : Fin 1) j q))

theorem Inv.of_inv' {t : ℕ} {R : S2x10000x128.Idx → Elt F .bf16} (h : Inv' V c t R) : Inv V c t R :=
  fun j q => ⟨fun _ => (h j q).1, (h j q).2⟩

theorem Inv.inv' {t : ℕ} {R : S2x10000x128.Idx → Elt F .bf16} (h : Inv V c t R) (ht : t ≠ 0) : Inv' V c t R :=
  fun j q => ⟨(h j q).1 ht, (h j q).2⟩

theorem Inv.zero (R : S2x10000x128.Idx → Elt F .bf16) : Inv V c 0 R :=
  fun j q => ⟨fun h => absurd rfl h, fun h => absurd h (by omega)⟩

variable (M8 : Memref sig .tc .vmem S2x10000x128 .bf16)

/-- The layer's input slab as the body reads it, under the invariant: layer `l`'s input. -/
theorem slabOf_eq (t : Fin cfg1.N) (g : Bf (F := F) c M8) (hI : Inv' V c t.val (M8.view.read (Elt F) g)) :
    slabOf c (grid1.coords t) M8 g = Slab V c (t.val / 10) := by
  funext x
  obtain ⟨a, j, q, rfl⟩ : ∃ (a : Fin 1) (j : Fin 10000) (q : Fin 128), x = ix3 a j q := ⟨x 0, x 1, x 2, eq_ix3 x⟩
  obtain rfl : a = 0 := Subsingleton.elim _ _
  unfold slabOf
  rw [View.readAt_unit_congr_cast M8.view (off1_eq t), View.readAt_apply]
  refine Eq.trans (congrArg (M8.view.read (Elt F) g) ?_) (hI j q).1
  funext d
  apply Fin.ext
  match d with
  | ⟨0, _⟩ => show (t.val / 10) % 2 + 1 * 0 = (t.val / 10) % 2; omega
  | ⟨1, _⟩ => show 0 + 1 * j.val = j.val; omega
  | ⟨2, _⟩ => show 0 + 1 * q.val = q.val; omega

/-! ## The body's reads, the staging memrefs holding the blocks -/

section Unread

variable (M2 : Memref sig .tc .vmem S10000x768 .bf16) (M3 : Memref sig .tc .vmem S1000x9232 .bf16)
  (M4 : Memref sig .tc .vmem S10000x128 .bf16) (M5 : Memref sig .tc .vmem S13x128x128 .f32)
  (M6 : Memref sig .tc .vmem S13x128 .f32)
  (h2 : M2.IsWhole) (h3 : M3.IsWhole) (h4 : M4.IsWhole) (h5 : M5.IsWhole) (h6 : M6.IsWhole)

/-- The strip, the three staging memrefs holding their windows' blocks at the point. -/
theorem strip_unread (t : Fin cfg1.N) (slab : Vec F S1x10000x128 .bf16) :
    strip c (grid1.coords t) M2 M3 M5 (h2.unread (iblk1 V c 0 t)) (h3.unread (iblk1 V c 1 t)) (h5.unread (iblk1 V c 3 t)) slab
      = stripAt V c t slab := by
  unfold strip stripAt
  congr 1
  · funext x; exact h2.readAt_unread (iblk1 V c 0 t) _ x
  · funext x; exact h3.readAt_unread (iblk1 V c 1 t) _ x
  · funext x; exact h5.readAt_unread (iblk1 V c 3 t) _ x

/-- The bias row likewise. -/
theorem biasRow_unread (t : Fin cfg1.N) :
    biasRow c (grid1.coords t) M6 (h6.unread (iblk1 V c 4 t)) = biasAt V c t := by
  unfold biasRow biasAt
  congr 1
  funext x; exact h6.readAt_unread (iblk1 V c 4 t) _ x

/-- The slab the first point reads is the seed: the staged first-layer result, whatever the scratch held. -/
theorem seededSlab_eq (t : Fin cfg1.N) (ht : t.val = 0) :
    seededSlab c (grid1.coords t) M4 M8 (h4.unread (iblk1 V c 2 t)) = seedSlab V c := by
  obtain rfl : t = tOf 0 0 := Fin.ext (by rw [ht]; rfl)
  unfold seededSlab
  rw [View.readCov_eq_canon']
  funext x
  have hx : (Rect.unit (s := S2x10000x128) (k1_off1 (grid1.coords (tOf 0 0))) S1x10000x128.size (k1_off1_inb (grid1.coords (tOf 0 0)))).toLoadRect.idx x
      = (Rect.unit (s := S2x10000x128) ![0, 0, 0] S1x10000x128.size inb_S2x10000x128_S1x10000x128_0_0_0).emb x := by
    funext d
    apply Fin.ext
    show k1_off1 (grid1.coords (tOf 0 0)) d + 1 * (x d).val = (![0, 0, 0] : Fin 3 → ℕ) d + 1 * (x d).val
    rw [congrFun (off1_eq (tOf 0 0)) d, ht]
  rw [hx]
  unfold seedPiece
  rw [View.canon_cons_emb]
  unfold seedSlab
  exact congrArg (fun v => k1_pay3 v x) (funext fun y => h4.readAt_unread (iblk1 V c 2 (tOf 0 0)) _ y)

end Unread

/-! ## Reading the scratch after the strip's store -/

section Step

variable (t : Fin cfg1.N) (b : Bf (F := F) c M8)
  (w : (Rect.unit (s := S2x10000x128) (k1_off5 (grid1.coords t)) S1x1000x128.size (k1_off5_inb (grid1.coords t))).shape.Idx → Elt F .bf16)
  (L : List (View.Piece (Elt F) S2x10000x128 .bf16))

/-- In the written rows of the written slab: the strip's payload at the local row. -/
theorem read_hit (s : Fin 2) (hs : s.val = 1 - (t.val / 10) % 2) (j : Fin 10000) (q : Fin 128)
    (hj : 1000 * (t.val % 10) ≤ j.val) (hj' : j.val < 1000 * (t.val % 10) + 1000) :
    M8.view.read (Elt F) (M8.view.writes (Elt F) b
      (⟨Rect.unit (s := S2x10000x128) (k1_off5 (grid1.coords t)) S1x1000x128.size (k1_off5_inb (grid1.coords t)), w⟩ :: L)) (ix3 s j q)
      = w (ix3 (0 : Fin 1) (⟨j.val - 1000 * (t.val % 10), by omega⟩ : Fin 1000) q) :=
  View.read_writes_cons_unit_of_mem M8.view b (k1_off5_inb (grid1.coords t)) w L (ix3 s j q)
    (ix3 (0 : Fin 1) (⟨j.val - 1000 * (t.val % 10), by omega⟩ : Fin 1000) q) (off5_eq t) (fun a => by
      match a with
      | ⟨0, _⟩ => show s.val = (1 - (t.val / 10) % 2) + 0; omega
      | ⟨1, _⟩ => show j.val = 1000 * (t.val % 10) + (j.val - 1000 * (t.val % 10)); omega
      | ⟨2, _⟩ => show q.val = 0 + q.val; omega)

/-- In the slab the layer reads: unchanged. -/
theorem read_miss_slab (s : Fin 2) (hs : s.val = (t.val / 10) % 2) (j : Fin 10000) (q : Fin 128) :
    M8.view.read (Elt F) (M8.view.writes (Elt F) b
      (⟨Rect.unit (s := S2x10000x128) (k1_off5 (grid1.coords t)) S1x1000x128.size (k1_off5_inb (grid1.coords t)), w⟩ :: L)) (ix3 s j q)
      = M8.view.read (Elt F) (M8.view.writes (Elt F) b L) (ix3 s j q) :=
  View.read_writes_cons_unit_of_not_mem M8.view b (k1_off5_inb (grid1.coords t)) w L (ix3 s j q) (off5_eq t) (⟨0, by decide⟩ : Fin 3)
    (by show s.val < 1 - (t.val / 10) % 2 ∨ (1 - (t.val / 10) % 2) + 1 ≤ s.val; omega)

/-- In rows outside the strip's: unchanged. -/
theorem read_miss_row (s : Fin 2) (j : Fin 10000) (q : Fin 128)
    (hj : j.val < 1000 * (t.val % 10) ∨ 1000 * (t.val % 10) + 1000 ≤ j.val) :
    M8.view.read (Elt F) (M8.view.writes (Elt F) b
      (⟨Rect.unit (s := S2x10000x128) (k1_off5 (grid1.coords t)) S1x1000x128.size (k1_off5_inb (grid1.coords t)), w⟩ :: L)) (ix3 s j q)
      = M8.view.read (Elt F) (M8.view.writes (Elt F) b L) (ix3 s j q) :=
  View.read_writes_cons_unit_of_not_mem M8.view b (k1_off5_inb (grid1.coords t)) w L (ix3 s j q) (off5_eq t) (⟨1, by decide⟩ : Fin 3)
    (by show j.val < 1000 * (t.val % 10) ∨ 1000 * (t.val % 10) + 1000 ≤ j.val; exact hj)

end Step

/-- The next layer's input at a row of the strip of point `t` is that strip's rounded result at the local row. -/
theorem slab_succ (t : Fin cfg1.N) (j : Fin 10000) (q : Fin 128)
    (hj : 1000 * (t.val % 10) ≤ j.val) (hj' : j.val < 1000 * (t.val % 10) + 1000) :
    Slab V c (t.val / 10 + 1) (ix3 (0 : Fin 1) j q)
      = k1_pay2 (stripAt V c t (Slab V c (t.val / 10))) (biasAt V c t)
          (ix3 (0 : Fin 1) (⟨j.val - 1000 * (t.val % 10), by omega⟩ : Fin 1000) q) := by
  have hN : t.val < 130 := lt_of_lt_of_eq t.isLt N_1
  have hq : j.val / 1000 = t.val % 10 := by omega
  have ht : tOf (t.val / 10) (j.val / 1000) = t :=
    Fin.ext (by show (10 * (t.val / 10) + j.val / 1000) % 130 = t.val; rw [hq]; omega)
  show k1_pay2 (stripAt V c (tOf (t.val / 10) (j.val / 1000)) (Slab V c (t.val / 10))) (biasAt V c (tOf (t.val / 10) (j.val / 1000)))
      (ix3 (0 : Fin 1) (⟨j.val % 1000, Nat.mod_lt _ (by norm_num)⟩ : Fin 1000) q) = _
  rw [ht]
  exact congrArg (fun z : Fin 1000 => k1_pay2 (stripAt V c t (Slab V c (t.val / 10))) (biasAt V c t) (ix3 (0 : Fin 1) z q))
    (Fin.ext (by show j.val % 1000 = j.val - 1000 * (t.val % 10); omega))

/-- THE STEP: from contents with slab `l mod 2` at layer `l`'s input and the other slab's rows below `1000 r` at
    layer `l + 1`'s, the strip's store of its rounded result leaves the invariant of the next point. -/
theorem inv_step (t : Fin cfg1.N) (b : Bf (F := F) c M8) (hb : Inv' V c t.val (M8.view.read (Elt F) b)) :
    Inv' V c (t.val + 1) (M8.view.read (Elt F) (M8.view.writes (Elt F) b
      [⟨Rect.unit (s := S2x10000x128) (k1_off5 (grid1.coords t)) S1x1000x128.size (k1_off5_inb (grid1.coords t)),
        k1_pay2 (stripAt V c t (Slab V c (t.val / 10))) (biasAt V c t)⟩])) := by
  have hN : t.val < 130 := lt_of_lt_of_eq t.isLt N_1
  intro j q
  by_cases hr : t.val % 10 < 9
  · have e1 : (t.val + 1) / 10 = t.val / 10 := by omega
    have e2 : (t.val + 1) % 10 = t.val % 10 + 1 := by omega
    have hsR : (⟨((t.val + 1) / 10) % 2, Nat.mod_lt _ (by norm_num)⟩ : Fin 2) = ⟨(t.val / 10) % 2, Nat.mod_lt _ (by norm_num)⟩ :=
      Fin.ext (by show ((t.val + 1) / 10) % 2 = (t.val / 10) % 2; rw [e1])
    have hsW : (⟨1 - ((t.val + 1) / 10) % 2, by omega⟩ : Fin 2) = ⟨1 - (t.val / 10) % 2, by omega⟩ :=
      Fin.ext (by show 1 - ((t.val + 1) / 10) % 2 = 1 - (t.val / 10) % 2; rw [e1])
    refine ⟨?_, fun hj => ?_⟩
    · rw [hsR, e1]
      exact (read_miss_slab c M8 t b _ [] _ rfl j q).trans (hb j q).1
    · rw [hsW, e1]
      rw [e2] at hj
      by_cases hlo : j.val < 1000 * (t.val % 10)
      · exact (read_miss_row c M8 t b _ [] _ j q (Or.inl hlo)).trans ((hb j q).2 hlo)
      · exact (read_hit c M8 t b _ [] _ rfl j q (by omega) (by omega)).trans (slab_succ V c t j q (by omega) (by omega)).symm
  · have hr9 : t.val % 10 = 9 := by omega
    have e1 : (t.val + 1) / 10 = t.val / 10 + 1 := by omega
    have e2 : (t.val + 1) % 10 = 0 := by omega
    have hsR : (⟨((t.val + 1) / 10) % 2, Nat.mod_lt _ (by norm_num)⟩ : Fin 2) = ⟨1 - (t.val / 10) % 2, by omega⟩ :=
      Fin.ext (by show ((t.val + 1) / 10) % 2 = 1 - (t.val / 10) % 2; omega)
    refine ⟨?_, fun hj => absurd hj (by omega)⟩
    rw [hsR, e1]
    by_cases hlo : j.val < 1000 * (t.val % 10)
    · exact (read_miss_row c M8 t b _ [] _ j q (Or.inl hlo)).trans ((hb j q).2 hlo)
    · have hj9 : j.val < 10000 := j.isLt
      exact (read_hit c M8 t b _ [] _ rfl j q (by omega) (by omega)).trans (slab_succ V c t j q (by omega) (by omega)).symm

/-- After the first point's seeding, whatever the scratch held: slab 0 is layer 0's input. -/
theorem inv_seeded (M4 : Memref sig .tc .vmem S10000x128 .bf16) (h4 : M4.IsWhole) (t : Fin cfg1.N) (ht : t.val = 0)
    (f8 : Bf (F := F) c M8) :
    Inv' V c t.val (M8.view.read (Elt F) (M8.view.writes (Elt F) f8 [seedPiece c M4 (h4.unread (iblk1 V c 2 t))])) := by
  intro j q
  refine ⟨?_, fun hj => absurd hj (by omega)⟩
  have hx := seededSlab_eq V c M8 M4 h4 t ht
  obtain rfl : t = tOf 0 0 := Fin.ext (by rw [ht]; rfl)
  unfold seedPiece
  refine (View.read_writes_cons_unit_of_mem M8.view f8 inb_S2x10000x128_S1x10000x128_0_0_0 _ [] _
    (ix3 (0 : Fin 1) j q) rfl (fun a => by
      match a with
      | ⟨0, _⟩ => show (0 / 10) % 2 = 0 + 0; rfl
      | ⟨1, _⟩ => show j.val = 0 + j.val; omega
      | ⟨2, _⟩ => show q.val = 0 + q.val; omega)).trans ?_
  show _ = Slab V c 0 (ix3 (0 : Fin 1) j q)
  show _ = seedSlab V c (ix3 (0 : Fin 1) j q)
  unfold seedSlab
  exact congrArg (fun v => k1_pay3 v (ix3 (0 : Fin 1) j q)) (funext fun y => h4.readAt_unread (iblk1 V c 2 (tOf 0 0)) _ y)

end Cert.Kernel.R1
end
-- ==== Proof.BR1Dat.lean ====
/-
  The second kernel's proof data and its body obligation.

  The arrays are what the region finds. After the body at a point each input window's buffer still holds its block;
  the output window's buffer holds, at the points of the last layer, the strip's unrounded result (elsewhere the body
  does not touch it). Between points the kernel keeps its scratch: the invariant says it is held at contents that
  read as the scratch invariant of that point demands, beside a promise that the scratch, held at anything, gives
  back the rest the kernel was entrusted with. At each point the body's run is the control path its two conditions
  select; the scratch's new contents satisfy the next point's invariant by the step lemma.
-/
import proofs.«118626_g5102421148071_cont_8to1_c_1098_12_alg».proof.Proof.BR1Inv
import Idealize.ShloMosaic.Lib.Pipeline.FrameBody
import Idealize.ShloMosaic.Lib.Pipeline.RegionsLoop
import Idealize.ShloMosaic.Lib.Tactic

set_option maxRecDepth 16384

noncomputable section

namespace Cert.Kernel.R1

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scratch as a memref. -/
abbrev scr : Memref sig .tc .vmem S2x10000x128 .bf16 := Memref.whole cc1_scratch0

abbrev r7 : Rect S1000x128 := Rect.unit (s := S1000x128) ![0, 0] S1000x128.size inb_S1000x128_S1000x128_0_0

/-- The output block after the body at a point of the last layer: the strip's result with the bias, unrounded. -/
def out5 (c : Dev nD) (t : Fin cfg1.N) : Vec F S1000x128 .f32 :=
  View.canon [⟨r7, k1_pay1 (stripAt V c t (Slab V c (t.val / 10))) (biasAt V c t)⟩]

theorem cover5 (p0 : r7.shape.Idx → Elt F .f32) (y : S1000x128.Idx) :
    ∃ pc ∈ ([⟨r7, p0⟩] : List (View.Piece (Elt F) S1000x128 .f32)), y ∈ pc.1.set :=
  View.cover_of_tiled [⟨r7, p0⟩] S1000x128.size (by rfl) y

/-- The kernel's invariant before point `t`: the scratch held at contents that read as the point's scratch invariant
    demands; and the scratch, at anything, restores what the kernel holds besides the windows. -/
def Φ1 (c : Dev nD) (t : ℕ) : sProp 𝕄 :=
  iprop((∃ g : Bf (F := F) c scr, ⌜Inv V c t (scr.view.read (Elt F) g)⌝ ∗ pt c scr g)
    ∗ ((∃ g : Bf (F := F) c scr, pt c scr g) -∗ Pipeline.ΦA spec1 c))

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out5 V c t
  Φ t := Φ1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out5 V c t := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the output's buffer as found where the point is idle for it and does not write it back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (match cfg1.idle 5 (cfg1.grid.coords t) with
        | true =>
          match (cfg1.win 5).flush t with
          | false => iprop(∃ d, owns (c : Thread nD τ) (st1_5 t) fullShare ((dat1 V c).before 5 t d))
          | true => owns (c : Thread nD τ) (st1_5 t) fullShare ((dat1 V c).after 5 t)
        | false => owns (c : Thread nD τ) (st1_5 t) fullShare ((dat1 V c).after 5 t)))

end Cert.Kernel.R1
end
-- ==== Proof.BKChain.lean ====
/-
  The buffer contents at each boundary of the program's run: a fold from the launch memory.

  A host stretch leaves what its operations compute; a kernel region leaves its windows' arrays at what the
  pipeline's write-backs fold to and every other buffer as it found it. Read back through the fold: no segment
  writes an argument, so each ends as launched; the second region is entered with the first region's outputs as its
  pipeline left them and with the second host stretch's slices of the launched weights and biases.
-/
import proofs.«118626_g5102421148071_cont_8to1_c_1098_12_alg».proof.Proof.BR0Dat
import proofs.«118626_g5102421148071_cont_8to1_c_1098_12_alg».proof.Proof.BR1Dat
import proofs.«118626_g5102421148071_cont_8to1_c_1098_12_alg».proof.Proof.Gen.Kernel.Launch
import proofs.«118626_g5102421148071_cont_8to1_c_1098_12_alg».proof.Proof.Gen.Kernel.Regions
import Idealize.ShloMosaic.Lib.Pipeline.FrameSuffix

set_option maxRecDepth 16384

noncomputable section

namespace Cert.Kernel.KRun

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit: its arrays at what the pipeline leaves (the inputs as entered, each output's
    write-backs folded), every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first region's exit contents). -/
abbrev V2 : (c : Dev nD) → (b : Ref sig .tc) → Buf (Elt F) ((c : Thread nD τ).loc b) := fun c b => W2 m ρ c b
/-- At the first region's exit each of its arrays holds what the pipeline leaves and every other buffer what it
    held at entry. -/
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
/-- The same read at the TensorCore's references (what the second region's proof data take). -/
abbrev V3 : (c : Dev nD) → (b : Ref sig .tc) → Buf (Elt F) ((c : Thread nD τ).loc b) := fun c b => W3 m ρ c b
/-- At the second region's exit: its arrays at what the pipeline leaves, every other buffer as entered. -/
def W4 (c : Dev nD) : Valuation τ sig (Elt F) :=
  Pipeline.withArrays spec1 c (W3 m ρ c) fun w => (R1.dat1 (V3 m ρ) c).arrAt w cfg1.N
theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the second region's exit contents). -/
abbrev V4 : (c : Dev nD) → (b : Ref sig .tc) → Buf (Elt F) ((c : Thread nD τ).loc b) := fun c b => W4 m ρ c b
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### What no segment writes: the arguments end as launched, and the second region is entered with the first
    region's outputs and the second host stretch's slices -/

/-- The first host stretch's results, by definition. -/
theorem V1_eq (c : Dev nD) (b : Ref sig .tc) : V1 m ρ c b = StableHlo.after hostOps0 (W0 m ρ c) (Proc.devRef .tc b) := rfl

/-- The first host stretch writes no buffer outside its results' list. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The second host stretch writes no buffer outside its results' list. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- The adjacency matrix is the first region's second input window: it is entered as launched. -/
theorem V1_main_arg1 (c : Dev nD) : V1 m ρ c main_arg1 = m ((c : Thread nD τ).loc main_arg1) :=
  W1_of m ρ c main_arg1 (by decide)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((R0.dat0 (V1 m ρ) c).arrAt_in 1 rfl _).trans (R0.A_eq0 (V1 m ρ) c 1))
    _ = W0 m ρ c (Proc.devRef .tc main_arg1) := W1_of m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- The result's buffer at the end: what the second pipeline's write-backs fold to. -/
theorem W4_main_v0 (c : Dev nD) : W4 m ρ c (Proc.devRef .tc main_v0) = (R1.dat1 (V3 m ρ) c).arrAt 5 cfg1.N :=
  W4_arr m ρ c 5

/-- The second region is entered with the first region's three outputs as its pipeline left them: the second host
    stretch writes none of them. -/
theorem V3_main_call0_v6_0 (c : Dev nD) : V3 m ρ c main_call0_v6_0 = (R0.dat0 (V1 m ρ) c).arrAt 4 cfg0.N :=
  (W3_of m ρ c main_call0_v6_0 (by decide)).trans (W2_arr m ρ c 4)
theorem V3_main_call0_v6_1 (c : Dev nD) : V3 m ρ c main_call0_v6_1 = (R0.dat0 (V1 m ρ) c).arrAt 5 cfg0.N :=
  (W3_of m ρ c main_call0_v6_1 (by decide)).trans (W2_arr m ρ c 5)
theorem V3_main_call0_v6_2 (c : Dev nD) : V3 m ρ c main_call0_v6_2 = (R0.dat0 (V1 m ρ) c).arrAt 6 cfg0.N :=
  (W3_of m ρ c main_call0_v6_2 (by decide)).trans (W2_arr m ρ c 6)
/-- and with the second host stretch's two slices, by definition. -/
theorem V3_main_call0_v7 (c : Dev nD) : V3 m ρ c main_call0_v7 = StableHlo.after hostOps1 (W2 m ρ c) (Proc.devRef .tc main_call0_v7) := rfl
theorem V3_main_call0_v8 (c : Dev nD) : V3 m ρ c main_call0_v8 = StableHlo.after hostOps1 (W2 m ρ c) (Proc.devRef .tc main_call0_v8) := rfl

/-- The other arguments are no result of the first host stretch either: the first region is entered with them as
    launched. -/
theorem V1_main_arg0 (c : Dev nD) : V1 m ρ c main_arg0 = m ((c : Thread nD τ).loc main_arg0) :=
  W1_of m ρ c main_arg0 (by decide)
theorem V1_main_arg2 (c : Dev nD) : V1 m ρ c main_arg2 = m ((c : Thread nD τ).loc main_arg2) :=
  W1_of m ρ c main_arg2 (by decide)
theorem V1_main_arg3 (c : Dev nD) : V1 m ρ c main_arg3 = m ((c : Thread nD τ).loc main_arg3) :=
  W1_of m ρ c main_arg3 (by decide)

/-- The weights and the biases are no window's array of the first region: it leaves them as launched, which is what
    the second host stretch slices. -/
theorem W2_main_arg2 (c : Dev nD) : W2 m ρ c (Proc.devRef .tc main_arg2) = m ((c : Thread nD τ).loc main_arg2) :=
  (W2_of_ne m ρ c main_arg2 (by decide)).trans (W1_of m ρ c main_arg2 (by decide))
theorem W2_main_arg3 (c : Dev nD) : W2 m ρ c (Proc.devRef .tc main_arg3) = m ((c : Thread nD τ).loc main_arg3) :=
  (W2_of_ne m ρ c main_arg3 (by decide)).trans (W1_of m ρ c main_arg3 (by decide))

end Run

end Cert.Kernel.KRun

end
-- ==== Proof.BR1Body.lean ====
/-
  The second kernel's body obligation: at every point the body, called with the windows' buffers holding their
  blocks and the scratch at contents that satisfy the point's invariant, runs to its return leaving the inputs as
  they were, the output's buffer at the strip's result in the last layer and as found elsewhere, and the scratch at
  contents that satisfy the next point's invariant.
-/
import proofs.«118626_g5102421148071_cont_8to1_c_1098_12_alg».proof.Proof.BR1Dat

set_option maxRecDepth 16384

noncomputable section

namespace Cert.Kernel.R1

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- Two listed writes are the newer one over the older one's result. -/
theorem writes_two {κ : Kind} {sp : Space} {s : Shape} {e : EltTy} {Val : EltTy → Type} (v : View sig κ sp s e)
    (f : v.ty.Contents Val) (p q : View.Piece Val s e) :
    v.writes Val f [p, q] = v.writes Val (v.writes Val f [q]) [p] := rfl

section Pieces

variable (M2 : Memref sig .tc .vmem S10000x768 .bf16) (M3 : Memref sig .tc .vmem S1000x9232 .bf16)
  (M5 : Memref sig .tc .vmem S13x128x128 .f32) (M6 : Memref sig .tc .vmem S13x128 .f32)
  (M7 : Memref sig .tc .vmem S1000x128 .f32)
  (h2 : M2.IsWhole) (h3 : M3.IsWhole) (h5 : M5.IsWhole) (h6 : M6.IsWhole)

/-- The strip's store, the staging memrefs holding the point's blocks and the slab read being the layer's input. -/
theorem stripPiece_eq (t : Fin cfg1.N) (slab : Vec F S1x10000x128 .bf16) (hslab : slab = Slab V c (t.val / 10)) :
    stripPiece c (grid1.coords t) M2 M3 M5 M6 (h2.unread (iblk1 V c 0 t)) (h3.unread (iblk1 V c 1 t)) (h5.unread (iblk1 V c 3 t))
        (h6.unread (iblk1 V c 4 t)) slab
      = ⟨Rect.unit (s := S2x10000x128) (k1_off5 (grid1.coords t)) S1x1000x128.size (k1_off5_inb (grid1.coords t)),
          k1_pay2 (stripAt V c t (Slab V c (t.val / 10))) (biasAt V c t)⟩ := by
  subst hslab
  unfold stripPiece
  rw [strip_unread V c M2 M3 M5 h2 h3 h5, biasRow_unread V c M6 h6]

/-- The output block after the last layer's store reads the strip's result with the bias. -/
theorem emitted_read (t : Fin cfg1.N) (f7 : Bf (F := F) c M7) (slab : Vec F S1x10000x128 .bf16) (hslab : slab = Slab V c (t.val / 10)) :
    M7.view.read (Elt F) (emitted c (grid1.coords t) M2 M3 M5 M6 M7 (h2.unread (iblk1 V c 0 t)) (h3.unread (iblk1 V c 1 t))
        (h5.unread (iblk1 V c 3 t)) (h6.unread (iblk1 V c 4 t)) f7 slab) = out5 V c t := by
  subst hslab
  unfold emitted out5
  rw [strip_unread V c M2 M3 M5 h2 h3 h5, biasRow_unread V c M6 h6]
  exact View.read_writes_eq_canon _ _ _ (cover5 _)

/-- After a point past the first: the next point's invariant. -/
theorem inv_after_mid (t : Fin cfg1.N) (g : Bf (F := F) c scr) (hI : Inv' V c t.val (scr.view.read (Elt F) g)) :
    Inv V c (t.val + 1) (scr.view.read (Elt F) (scr.view.writes (Elt F) g
      [stripPiece c (grid1.coords t) M2 M3 M5 M6 (h2.unread (iblk1 V c 0 t)) (h3.unread (iblk1 V c 1 t)) (h5.unread (iblk1 V c 3 t))
        (h6.unread (iblk1 V c 4 t)) (slabOf c (grid1.coords t) scr g)])) := by
  rw [stripPiece_eq V c M2 M3 M5 M6 h2 h3 h5 h6 t _ (slabOf_eq V c scr t g hI)]
  exact Inv.of_inv' V c (inv_step V c scr t g hI)

/-- After the first point, whatever the scratch held: the second point's invariant. -/
theorem inv_after_first (M4 : Memref sig .tc .vmem S10000x128 .bf16) (h4 : M4.IsWhole) (t : Fin cfg1.N) (h0 : t.val = 0)
    (g : Bf (F := F) c scr) :
    Inv V c (t.val + 1) (scr.view.read (Elt F) (scr.view.writes (Elt F) g
      [stripPiece c (grid1.coords t) M2 M3 M5 M6 (h2.unread (iblk1 V c 0 t)) (h3.unread (iblk1 V c 1 t)) (h5.unread (iblk1 V c 3 t))
        (h6.unread (iblk1 V c 4 t)) (seededSlab c (grid1.coords t) M4 scr (h4.unread (iblk1 V c 2 t))),
       seedPiece c M4 (h4.unread (iblk1 V c 2 t))])) := by
  rw [stripPiece_eq V c M2 M3 M5 M6 h2 h3 h5 h6 t _ ((seededSlab_eq V c scr M4 h4 t h0).trans (by rw [h0]; rfl)), writes_two]
  exact Inv.of_inv' V c (inv_step V c scr t (scr.view.writes (Elt F) g [seedPiece c M4 (h4.unread (iblk1 V c 2 t))])
    (inv_seeded V c scr M4 h4 t h0 g))

end Pieces

set_option maxHeartbeats 4000000 in
/-- The body at any point. -/
theorem sound_body1 (t : Fin cfg1.N) :
    bodyPre1 V c t ⊢ wp frame (wpE (defs₀ (F := F)) Variants.none c none) Set.univ (bodyAt1 t) (fun _ => bodyPost1 V c t) := by
  have hN : t.val < 130 := lt_of_lt_of_eq t.isLt N_1
  unfold bodyPre1 bodyPost1 bodyAt1
  simp only [before1_0, before1_1, before1_2, before1_3, before1_4]
  rewrite [after1_0, after1_1, after1_2, after1_3, after1_4,
    show (dat1 V c).Φ t.castSucc = Φ1 V c t.val from rfl, show (dat1 V c).Φ t.succ = Φ1 V c (t.val + 1) from rfl,
    show (dat1 V c).owesAt () t.succ = (dat1 V c).owesAt () t.castSucc from rfl]
  unfold Φ1
  by_cases h0 : t.val = 0
  · -- the first point
    have hc1 : cond1 (grid1.coords t) = 1#1 := (cond1_iff t).mpr h0
    have hc2 : ¬ k1_cond2 (grid1.coords t) = 1#1 := fun h => by have := (cond2_iff t).mp h; omega
    have hi : idle1 5 (grid1.coords t) = true := (idle5_iff t).mpr (by omega)
    have hf : (win1 5).flush t = false := by
      rw [← Bool.not_eq_true]; intro h; have := (flush5_iff t).mp h; omega
    have ho1 : k1_off1 (grid1.coords t) = ![0, 0, 0] := by rw [off1_eq, h0]
    have ho5 : k1_off5 (grid1.coords t) = ![1, 0, 0] := by rw [off5_eq, h0]
    rewrite [hi, hf]
    unfold owns
    iintro ⟨⟨⟨%g, %hI, Hs⟩, Hw⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
    obtain rfl := (hstage1_0 ((cfg1.slots t 0).cast nbuf1_0)).eq_unread hf0
    obtain rfl := (hstage1_1 ((cfg1.slots t 1).cast nbuf1_1)).eq_unread hf1
    obtain rfl := (hstage1_2 ((cfg1.slots t 2).cast nbuf1_2)).eq_unread hf2
    obtain rfl := (hstage1_3 ((cfg1.slots t 3).cast nbuf1_3)).eq_unread hf3
    obtain rfl := (hstage1_4 ((cfg1.slots t 4).cast nbuf1_4)).eq_unread hf4
    iapply (run_first (c := c) (i := grid1.coords t) (M8 := scr) (f8 := g) (hc1 := hc1) (hc2 := hc2) (ho1 := ho1) (ho5 := ho5) (f7 := f5) (E := Set.univ))
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hw]
    · isplitl [Hs]
      · iexists _
        isplitr
        swap; · iexact Hs
        ipureintro
        exact inv_after_first V c _ _ _ _ _ _ _ _ _ _ t h0 g
      · iexact Hw
    isplitl [Ho]; · iexact Ho
    isplitl [H0]; · iexists _; isplitr; swap; (· iexact H0); ipureintro; exact Memref.IsWhole.read_unread _ _
    isplitl [H1]; · iexists _; isplitr; swap; (· iexact H1); ipureintro; exact Memref.IsWhole.read_unread _ _
    isplitl [H2]; · iexists _; isplitr; swap; (· iexact H2); ipureintro; exact Memref.IsWhole.read_unread _ _
    isplitl [H3]; · iexists _; isplitr; swap; (· iexact H3); ipureintro; exact Memref.IsWhole.read_unread _ _
    isplitl [H4]; · iexists _; isplitr; swap; (· iexact H4); ipureintro; exact Memref.IsWhole.read_unread _ _
    iexists d5; iexists f5
    isplitr; · ipureintro; exact hf5
    iexact H5
  · by_cases hl : t.val < 120
    · -- a point past the first, before the last layer
      have hc1 : ¬ cond1 (grid1.coords t) = 1#1 := fun h => h0 ((cond1_iff t).mp h)
      have hc2 : ¬ k1_cond2 (grid1.coords t) = 1#1 := fun h => by have := (cond2_iff t).mp h; omega
      have hi : idle1 5 (grid1.coords t) = true := (idle5_iff t).mpr hl
      have hf : (win1 5).flush t = false := by
        rw [← Bool.not_eq_true]; intro h; have := (flush5_iff t).mp h; omega
      rewrite [hi, hf]
      unfold owns
      iintro ⟨⟨⟨%g, %hI, Hs⟩, Hw⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
      obtain rfl := (hstage1_0 ((cfg1.slots t 0).cast nbuf1_0)).eq_unread hf0
      obtain rfl := (hstage1_1 ((cfg1.slots t 1).cast nbuf1_1)).eq_unread hf1
      obtain rfl := (hstage1_2 ((cfg1.slots t 2).cast nbuf1_2)).eq_unread hf2
      obtain rfl := (hstage1_3 ((cfg1.slots t 3).cast nbuf1_3)).eq_unread hf3
      obtain rfl := (hstage1_4 ((cfg1.slots t 4).cast nbuf1_4)).eq_unread hf4
      iapply (run_mid (c := c) (i := grid1.coords t) (M8 := scr) (f8 := g) (hc1 := hc1) (hc2 := hc2) (f7 := f5) (E := Set.univ))
      isplitl [H0]; · iexact H0
      isplitl [H1]; · iexact H1
      isplitl [H2]; · iexact H2
      isplitl [H3]; · iexact H3
      isplitl [H4]; · iexact H4
      isplitl [H5]; · iexact H5
      isplitl [Hs]; · iexact Hs
      iintro ⟨H0, H1, H2, H3, H4, H5, Hs⟩
      isplitl [Hs Hw]
      · isplitl [Hs]
        · iexists _
          isplitr
          swap; · iexact Hs
          ipureintro
          exact inv_after_mid V c _ _ _ _ _ _ _ _ t g (hI.inv' V c h0)
        · iexact Hw
      isplitl [Ho]; · iexact Ho
      isplitl [H0]; · iexists _; isplitr; swap; (· iexact H0); ipureintro; exact Memref.IsWhole.read_unread _ _
      isplitl [H1]; · iexists _; isplitr; swap; (· iexact H1); ipureintro; exact Memref.IsWhole.read_unread _ _
      isplitl [H2]; · iexists _; isplitr; swap; (· iexact H2); ipureintro; exact Memref.IsWhole.read_unread _ _
      isplitl [H3]; · iexists _; isplitr; swap; (· iexact H3); ipureintro; exact Memref.IsWhole.read_unread _ _
      isplitl [H4]; · iexists _; isplitr; swap; (· iexact H4); ipureintro; exact Memref.IsWhole.read_unread _ _
      iexists d5; iexists f5
      isplitr; · ipureintro; exact hf5
      iexact H5
    · -- a point of the last layer
      have hc1 : ¬ cond1 (grid1.coords t) = 1#1 := fun h => h0 ((cond1_iff t).mp h)
      have hc2 : k1_cond2 (grid1.coords t) = 1#1 := (cond2_iff t).mpr (by omega)
      have hi : idle1 5 (grid1.coords t) = false := by
        rw [← Bool.not_eq_true]; intro h; have := (idle5_iff t).mp h; omega
      rewrite [hi, after1_5]
      unfold owns
      iintro ⟨⟨⟨%g, %hI, Hs⟩, Hw⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
      obtain rfl := (hstage1_0 ((cfg1.slots t 0).cast nbuf1_0)).eq_unread hf0
      obtain rfl := (hstage1_1 ((cfg1.slots t 1).cast nbuf1_1)).eq_unread hf1
      obtain rfl := (hstage1_2 ((cfg1.slots t 2).cast nbuf1_2)).eq_unread hf2
      obtain rfl := (hstage1_3 ((cfg1.slots t 3).cast nbuf1_3)).eq_unread hf3
      obtain rfl := (hstage1_4 ((cfg1.slots t 4).cast nbuf1_4)).eq_unread hf4
      iapply (run_last (c := c) (i := grid1.coords t) (M8 := scr) (f8 := g) (hc1 := hc1) (hc2 := hc2) (f7 := f5) (E := Set.univ))
      isplitl [H0]; · iexact H0
      isplitl [H1]; · iexact H1
      isplitl [H2]; · iexact H2
      isplitl [H3]; · iexact H3
      isplitl [H4]; · iexact H4
      isplitl [H5]; · iexact H5
      isplitl [Hs]; · iexact Hs
      iintro ⟨H0, H1, H2, H3, H4, H5, Hs⟩
      isplitl [Hs Hw]
      · isplitl [Hs]
        · iexists _
          isplitr
          swap; · iexact Hs
          ipureintro
          exact inv_after_mid V c _ _ _ _ _ _ _ _ t g (hI.inv' V c h0)
        · iexact Hw
      isplitl [Ho]; · iexact Ho
      isplitl [H0]; · iexists _; isplitr; swap; (· iexact H0); ipureintro; exact Memref.IsWhole.read_unread _ _
      isplitl [H1]; · iexists _; isplitr; swap; (· iexact H1); ipureintro; exact Memref.IsWhole.read_unread _ _
      isplitl [H2]; · iexists _; isplitr; swap; (· iexact H2); ipureintro; exact Memref.IsWhole.read_unread _ _
      isplitl [H3]; · iexists _; isplitr; swap; (· iexact H3); ipureintro; exact Memref.IsWhole.read_unread _ _
      isplitl [H4]; · iexists _; isplitr; swap; (· iexact H4); ipureintro; exact Memref.IsWhole.read_unread _ _
      iexists _
      isplitr
      swap; · iexact H5
      ipureintro
      exact emitted_read V c _ _ _ _ _ _ _ _ _ t f5 _ (slabOf_eq V c scr t g (hI.inv' V c h0))

/-- The library's body obligation, at every point. -/
theorem body_obligation1 : BodyObligation (dat1 (F := F) V c) (defs₀ (F := F)) Variants.none () Set.univ := fun t => by
  rw [bigSep_W1, bigSep_W1]
  exact sound_body1 V c t

end Cert.Kernel.R1
end
-- ==== Proof.BKRun.lean ====
/-
  The run of the whole program: two kernel regions among two stretches of host operations.

  The buffer contents at each boundary are a fold from the launch memory: a host stretch leaves what its operations
  compute, a kernel region leaves its windows' arrays at what the pipeline's write-backs fold to and every other
  buffer as it found it. Each region is entered from "every unscoped buffer at the boundary's contents, the
  generator register at some state, nothing owed" and left at the same over the next boundary's contents. The first
  region's invariant is the scoped rest beside the generator register; the second's keeps its scratch at contents
  satisfying the scratch invariant and promises the scoped rest back, so entering it takes the scratch out of the
  scoped rest and leaving it puts the scratch back.
-/
import proofs.«118626_g5102421148071_cont_8to1_c_1098_12_alg».proof.Proof.BKChain
import proofs.«118626_g5102421148071_cont_8to1_c_1098_12_alg».proof.Proof.BR0Dat
import proofs.«118626_g5102421148071_cont_8to1_c_1098_12_alg».proof.Proof.BR1Dat
import proofs.«118626_g5102421148071_cont_8to1_c_1098_12_alg».proof.Proof.BR1Inv
import proofs.«118626_g5102421148071_cont_8to1_c_1098_12_alg».proof.Proof.BR1Body
import proofs.«118626_g5102421148071_cont_8to1_c_1098_12_alg».proof.Proof.Gen.Kernel.Launch
import proofs.«118626_g5102421148071_cont_8to1_c_1098_12_alg».proof.Proof.Gen.Kernel.Points
import proofs.«118626_g5102421148071_cont_8to1_c_1098_12_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-! ## The proof data family and the thread state -/

/-- Every pipeline's proof data, each at its region's entry contents — a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owed counters, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    with those references at what the operations compute from `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed counters: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at `W1`, left at `W2`. Its arrays
    split out of the unscoped buffers and put back at the exit contents; the generator register into the region's
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Entering the second region: the scratch comes out of the scoped rest — any contents satisfy the scratch
    invariant before the first point — and the scoped rest is promised back for the scratch at any contents. -/
theorem hin1 (V : (c : Dev nD) → (b : Ref sig .tc) → Buf (Elt F) ((c : Thread nD τ).loc b)) (c : Dev nD) :
    iprop((∃ r, prngReg c r) ∗ Pipeline.scopedRest (Ix := Unit) (Name := ℕ) (U := UR sig nD τ) (Lvl := ℕ) (Val := Elt F) spec1 c)
      ⊢ (R1.Φ1 V c 0 : sProp 𝕄) := by
  unfold R1.Φ1 Pipeline.ΦA
  rw [scopedRest1_eq]
  iintro ⟨Hp, H0, H1, H2, H3, H4, H5, H6, H7, H8, H9, H10, ⟨%g, Hs⟩⟩
  isplitl [Hs]
  · iexists g; isplitr; · ipureintro; exact R1.Inv.zero V c _
    iexact Hs
  iintro ⟨%g', Hs⟩
  isplitr [Hp]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists g'; iexact Hs
  iexact Hp

/-- Leaving it: the scratch, at whatever it holds, redeems the promise. -/
theorem hout1 (V : (c : Dev nD) → (b : Ref sig .tc) → Buf (Elt F) ((c : Thread nD τ).loc b)) (c : Dev nD) (t : ℕ) :
    (R1.Φ1 V c t : sProp 𝕄) ⊢ Pipeline.ΦA spec1 c := by
  unfold R1.Φ1
  iintro ⟨⟨%g, -, Hs⟩, Hw⟩
  iapply Hw
  iexists g; iexact Hs

set_option backward.isDefEq.respectTransparency.types false in
/-- The second region over the thread state: entered from every unscoped buffer at `W3`, left at `W4` (what the
    launch reads at the end). Its arrays split out of the unscoped buffers and put back at the exit contents; the
    generator register and the scoped rest into the region's invariant — the scratch taken out of the scoped rest —
    and out of it; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = R1.Φ1 (V3 m ρ) c 0 from rfl]
    iintro ⟨Hp, -, Hr⟩
    iapply (hin1 (V3 m ρ) c)
    isplitl [Hp]; · iexact Hp
    iexact Hr
  hout c := by
    rw [Pipeline.ownSems0_none]
    refine (show (pdats m ρ 1 c).Φ (Fin.last _) ⊢ Pipeline.ΦA spec1 c from hout1 (V3 m ρ) c _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: a host segment per stretch from its boundary's contents, a region per
    kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments: it is the chain of its items, and the segments' run is that chain. -/
theorem main_run (c : Dev nD) : main (F := F) c = Pipeline.Seg.run (segs m ρ) := (main_chain c).trans (by chain_rfl)

end Run

set_option backward.isDefEq.respectTransparency.types false in
/-- The run: from any memory with zero counters every weakly fair
    execution of the program on the TensorCores terminates, nothing faulting, and in every final state each unscoped
    buffer holds the last boundary's contents. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.KRun

end
-- ==== Proof.R1Blocks.lean ====
import proofs.«118626_g5102421148071_cont_8to1_c_1098_12_alg».proof.Proof.R1Scratch
import Idealize.ShloMosaic.Lib.Pipeline.Value
import Idealize.ShloMosaic.Lib.ValueIdx

/-! # The second kernel region: its input blocks as entries of the arrays it finds

Four of the five input windows stage their whole array at every grid point; the high-column window stages
rows `[1000 r, 1000 r + 1000)` at the point of strip `r`. So an entry of a block is an entry of the array. -/

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem

variable {F : FTy → Type} [FloatOps F]

/-- The printed index maps, decided over the 130 grid points: the whole-array windows sit at block zero, the
    row-strip window at block `(t mod 10, 0)`. -/
theorem idx_facts1 : ∀ t : Fin cfg1.N,
    (win1_0.index t (0 : Fin 2) = 0 ∧ win1_0.index t (1 : Fin 2) = 0)
    ∧ (win1_1.index t (0 : Fin 2) = t.val % 10 ∧ win1_1.index t (1 : Fin 2) = 0)
    ∧ (win1_2.index t (0 : Fin 2) = 0 ∧ win1_2.index t (1 : Fin 2) = 0)
    ∧ (win1_3.index t (0 : Fin 3) = 0 ∧ win1_3.index t (1 : Fin 3) = 0 ∧ win1_3.index t (2 : Fin 3) = 0)
    ∧ (win1_4.index t (0 : Fin 2) = 0 ∧ win1_4.index t (1 : Fin 2) = 0) :=
  (by decide +kernel : ∀ t : Fin grid1.N, _)

/-- The point of layer `l` and strip `r` is the number `10 l + r`. -/
theorem tOf_val (l r : ℕ) (hl : l < 13) (hr : r < 10) : (tOf l r).val = 10 * l + r := by
  show (10 * l + r) % 130 = 10 * l + r
  omega

variable (V : (c : Dev nD) → (b : Ref sig .tc) → Buf (Elt F) ((c : Thread nD τ).loc b)) (c : Dev nD)

/-! ## An entry of a block is an entry of the array -/

/-- The low-column window's block is its whole array at every point. -/
theorem iblk1_0_apply (t : Fin cfg1.N) (x : S10000x768.Idx) (k : S10000x768.Idx)
    (hk0 : (k 0).val = (x 0).val) (hk1 : (k 1).val = (x 1).val) :
    (iblk1 V c 0 t : Vec F S10000x768 .bf16) x = (V c main_call0_v6_0 : S10000x768.Idx → Elt F .bf16) k := by
  obtain ⟨h0, h1, h2, -, h4⟩ := idx_facts1 t
  unfold iblk1
  rw [View.read_apply]
  show V c main_call0_v6_0 _ = V c main_call0_v6_0 _
  congr 1
  funext a
  apply Fin.ext
  match a with
  | ⟨0, _⟩ => show win1_0.index t 0 * 10000 + 1 * (x 0).val = (k 0).val; rw [h0.1, hk0]; omega
  | ⟨1, _⟩ => show win1_0.index t 1 * 768 + 1 * (x 1).val = (k 1).val; rw [h0.2, hk1]; omega

/-- The high-column strip at point `t` is rows `[1000 (t mod 10), 1000 (t mod 10) + 1000)` of its array. -/
theorem iblk1_1_apply (t : Fin cfg1.N) (x : S1000x9232.Idx) (k : S10000x9232.Idx)
    (hk0 : (k 0).val = 1000 * (t.val % 10) + (x 0).val) (hk1 : (k 1).val = (x 1).val) :
    (iblk1 V c 1 t : Vec F S1000x9232 .bf16) x = (V c main_call0_v6_1 : S10000x9232.Idx → Elt F .bf16) k := by
  obtain ⟨h0, h1, h2, -, h4⟩ := idx_facts1 t
  unfold iblk1
  rw [View.read_apply]
  show V c main_call0_v6_1 _ = V c main_call0_v6_1 _
  congr 1
  funext a
  apply Fin.ext
  match a with
  | ⟨0, _⟩ => show win1_1.index t 0 * 1000 + 1 * (x 0).val = (k 0).val; rw [h1.1, hk0]; omega
  | ⟨1, _⟩ => show win1_1.index t 1 * 9232 + 1 * (x 1).val = (k 1).val; rw [h1.2, hk1]; omega

/-- The first-layer window's block is its whole array at every point. -/
theorem iblk1_2_apply (t : Fin cfg1.N) (x : S10000x128.Idx) (k : S10000x128.Idx)
    (hk0 : (k 0).val = (x 0).val) (hk1 : (k 1).val = (x 1).val) :
    (iblk1 V c 2 t : Vec F S10000x128 .bf16) x = (V c main_call0_v6_2 : S10000x128.Idx → Elt F .bf16) k := by
  obtain ⟨h0, h1, h2, -, h4⟩ := idx_facts1 t
  unfold iblk1
  rw [View.read_apply]
  show V c main_call0_v6_2 _ = V c main_call0_v6_2 _
  congr 1
  funext a
  apply Fin.ext
  match a with
  | ⟨0, _⟩ => show win1_2.index t 0 * 10000 + 1 * (x 0).val = (k 0).val; rw [h2.1, hk0]; omega
  | ⟨1, _⟩ => show win1_2.index t 1 * 128 + 1 * (x 1).val = (k 1).val; rw [h2.2, hk1]; omega

/-- The weight window's block is the whole stack of weight matrices at every point. -/
theorem iblk1_3_apply (t : Fin cfg1.N) (x : S13x128x128.Idx) (k : S13x128x128.Idx)
    (hk0 : (k 0).val = (x 0).val) (hk1 : (k 1).val = (x 1).val) (hk2 : (k 2).val = (x 2).val) :
    (iblk1 V c 3 t : Vec F S13x128x128 .f32) x = (V c main_call0_v7 : S13x128x128.Idx → Elt F .f32) k := by
  obtain ⟨-, -, -, h3, -⟩ := idx_facts1 t
  unfold iblk1
  rw [View.read_apply]
  show V c main_call0_v7 _ = V c main_call0_v7 _
  congr 1
  funext a
  apply Fin.ext
  match a with
  | ⟨0, _⟩ => show win1_3.index t 0 * 13 + 1 * (x 0).val = (k 0).val; rw [h3.1, hk0]; omega
  | ⟨1, _⟩ => show win1_3.index t 1 * 128 + 1 * (x 1).val = (k 1).val; rw [h3.2.1, hk1]; omega
  | ⟨2, _⟩ => show win1_3.index t 2 * 128 + 1 * (x 2).val = (k 2).val; rw [h3.2.2, hk2]; omega

/-- The bias window's block is the whole stack of bias rows at every point. -/
theorem iblk1_4_apply (t : Fin cfg1.N) (x : S13x128.Idx) (k : S13x128.Idx)
    (hk0 : (k 0).val = (x 0).val) (hk1 : (k 1).val = (x 1).val) :
    (iblk1 V c 4 t : Vec F S13x128 .f32) x = (V c main_call0_v8 : S13x128.Idx → Elt F .f32) k := by
  obtain ⟨h0, h1, h2, -, h4⟩ := idx_facts1 t
  unfold iblk1
  rw [View.read_apply]
  show V c main_call0_v8 _ = V c main_call0_v8 _
  congr 1
  funext a
  apply Fin.ext
  match a with
  | ⟨0, _⟩ => show win1_4.index t 0 * 13 + 1 * (x 0).val = (k 0).val; rw [h4.1, hk0]; omega
  | ⟨1, _⟩ => show win1_4.index t 1 * 128 + 1 * (x 1).val = (k 1).val; rw [h4.2, hk1]; omega

/-! ## The same, at coordinates -/

theorem hb0 (t : Fin cfg1.N) (p : Fin 10000) (k : Fin 768) :
    (iblk1 V c 0 t : S10000x768.Idx → _) (ix2 p k) = V c main_call0_v6_0 (ix2 p k) :=
  iblk1_0_apply V c t _ _ rfl rfl

theorem hb1 (l r : ℕ) (hl : l < 13) (hr : r < 10) (y : Fin 1000) (k : Fin 9232) :
    (iblk1 V c 1 (tOf l r) : S1000x9232.Idx → _) (ix2 y k) = V c main_call0_v6_1 (ix2 ⟨1000 * r + y.val, by omega⟩ k) :=
  iblk1_1_apply V c (tOf l r) _ _ (by show 1000 * r + y.val = 1000 * ((tOf l r).val % 10) + y.val; rw [tOf_val l r hl hr]; omega) rfl

theorem hb2 (p : Fin 10000) (q : Fin 128) :
    (iblk1 V c 2 (tOf 0 0) : S10000x128.Idx → _) (ix2 p q) = V c main_call0_v6_2 (ix2 p q) :=
  iblk1_2_apply V c (tOf 0 0) _ _ rfl rfl

theorem hb3 (t : Fin cfg1.N) (l : Fin 13) (j q : Fin 128) :
    (iblk1 V c 3 t : S13x128x128.Idx → _) (ix3 l j q) = V c main_call0_v7 (ix3 l j q) :=
  iblk1_3_apply V c t _ _ rfl rfl rfl

theorem hb4 (t : Fin cfg1.N) (l : Fin 13) (q : Fin 128) :
    (iblk1 V c 4 t : S13x128.Idx → _) (ix2 l q) = V c main_call0_v8 (ix2 l q) :=
  iblk1_4_apply V c t _ _ rfl rfl

end Cert.KernelIdeal.R1
end
-- ==== Proof.R1Out.lean ====
import proofs.«118626_g5102421148071_cont_8to1_c_1098_12_alg».proof.Proof.R1Dat
import proofs.«118626_g5102421148071_cont_8to1_c_1098_12_alg».proof.Proof.R1Blocks
import Idealize.ShloMosaic.Lib.Pipeline.Value
import Idealize.ShloMosaic.Lib.ValueIdx

/-! # The second kernel region: its output array, entry by entry

The output window is written back at the ten points of the last layer only; the point of strip `r` writes rows
`[1000 r, 1000 r + 1000)`. So row `p` of the array after the region is local row `p mod 1000` of what the point of
layer 12 and strip `p / 1000` stored: that strip's result with the bias. -/

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

theorem hz2_out : (![0, 0] : Fin 2 → Nat) = fun _ => 0 := funext fun a => by fin_cases a <;> rfl

/-- The output's printed index map, decided over the 130 grid points: in the last layer the point `120 + r` sits at
    block `(r, 0)`. -/
theorem idx_facts5 : ∀ t : Fin cfg1.N, 120 ≤ t.val → win1_5.index t (0 : Fin 2) = t.val - 120 ∧ win1_5.index t (1 : Fin 2) = 0 :=
  (by decide +kernel : ∀ t : Fin grid1.N, 120 ≤ t.val → win1_5.index t (0 : Fin 2) = t.val - 120 ∧ win1_5.index t (1 : Fin 2) = 0)

/-- An index of the output array is in point `t`'s block iff each coordinate is in the block's range on its axis. -/
theorem mem_blk_out (t : Fin cfg1.N) (i : S10000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v0).slice (win1_5.rect t)).set ↔ _
  rw [View.set_slice_whole, Rect.mem_set_unit]
  exact Iff.rfl

variable (V : (c : Dev nD) → (b : Ref sig .tc) → Buf (Elt F) ((c : Thread nD τ).loc b))

/-- The output array as one function of what the region finds: row `p` is local row `p mod 1000` of the last
    layer's strip `p / 1000`, with the bias. -/
def Gout (c : Dev nD) : S10000x128.Idx → Elt F .f32 := fun i =>
  k1_pay1 (stripAt V c (tOf 12 ((i 0).val / 1000)) (Slab V c 12)) (biasAt V c (tOf 12 ((i 0).val / 1000)))
    (ix2 (⟨(i 0).val % 1000, Nat.mod_lt _ (by norm_num)⟩ : Fin 1000) (⟨(i 1).val, idx2_lt1 i⟩ : Fin 128))

/-- A point of the last layer writes back its block of `Gout`. -/
theorem flushed_out_eq (c : Dev nD) (t : Fin cfg1.N) (hf : (cfg1.win 5).flush t = true) :
    (dat1 V c).flushed 5 t = ((cfg1.win 5).blk t).view.read (Elt F) (Gout V c) := by
  have h120 : 120 ≤ t.val := (flush5_iff t).mp hf
  have h130 : t.val < 130 := lt_of_lt_of_eq t.isLt N_1
  obtain ⟨e0, e1⟩ := idx_facts5 t h120
  show (cfg1.win 5).cut (grid1.coords t) ((dat1 V c).after 5 t) = _
  rw [after1_5]
  unfold out5
  rw [View.canon_unit_zero hz2_out]
  funext j
  show k1_pay1 (stripAt V c t (Slab V c (t.val / 10))) (biasAt V c t) j = Gout V c (((cfg1.win 5).blk t).view.emb j)
  unfold Gout
  have hj0 := idx2_lt0 j
  have hj1 := idx2_lt1 j
  have hrow : ((((cfg1.win 5).blk t).view.emb j) 0).val = (t.val - 120) * 1000 + (j 0).val := by
    show win1_5.index t 0 * 1000 + 1 * (j 0).val = _
    rw [e0]; omega
  have hcol : ((((cfg1.win 5).blk t).view.emb j) 1).val = (j 1).val := by
    show win1_5.index t 1 * 128 + 1 * (j 1).val = _
    rw [e1]; omega
  have ht : tOf 12 (((((cfg1.win 5).blk t).view.emb j) 0).val / 1000) = t := by
    apply Fin.ext
    show (10 * 12 + ((((cfg1.win 5).blk t).view.emb j) 0).val / 1000) % 130 = t.val
    rw [hrow]; omega
  have hl : t.val / 10 = 12 := by omega
  rw [ht, hl]
  refine congrArg _ (Eq.symm ?_)
  funext a
  apply Fin.ext
  match a with
  | ⟨0, _⟩ => show ((((cfg1.win 5).blk t).view.emb j) 0).val % 1000 = (j 0).val; rw [hrow]; omega
  | ⟨1, _⟩ => exact hcol

/-- After the region the output array holds, at row `p`, local row `p mod 1000` of the last layer's strip `p / 1000`. -/
theorem arr_out (c : Dev nD) (p : Fin 10000) (q : Fin 128) :
    (dat1 (F := F) V c).arrAt 5 cfg1.N (ix2 p q)
      = k1_pay1 (stripAt V c (tOf 12 (p.val / 1000)) (Slab V c 12)) (biasAt V c (tOf 12 (p.val / 1000)))
          (ix2 (⟨p.val % 1000, Nat.mod_lt _ (by norm_num)⟩ : Fin 1000) q) := by
  have ht : 120 + p.val / 1000 < cfg1.N := by rw [show cfg1.N = 130 from N_1]; omega
  have h120 : 120 ≤ (⟨120 + p.val / 1000, ht⟩ : Fin cfg1.N).val := Nat.le_add_right _ _
  have hf : (cfg1.win 5).flush ⟨120 + p.val / 1000, ht⟩ = true := (flush5_iff _).mpr h120
  refine ((dat1 V c).arrAt_apply_of_mem 5 (Gout V c) (fun t hf => flushed_out_eq V c t hf) cfg1.N ⟨120 + p.val / 1000, ht⟩ (ix2 p q) ht hf ?_).trans rfl
  obtain ⟨e0, e1⟩ := idx_facts5 ⟨120 + p.val / 1000, ht⟩ h120
  rw [mem_blk_out]
  intro a
  match a with
  | ⟨0, _⟩ =>
    show win1_5.index ⟨120 + p.val / 1000, ht⟩ 0 * 1000 ≤ p.val ∧ p.val < win1_5.index ⟨120 + p.val / 1000, ht⟩ 0 * 1000 + 1000
    rw [e0]
    show (120 + p.val / 1000 - 120) * 1000 ≤ p.val ∧ p.val < (120 + p.val / 1000 - 120) * 1000 + 1000
    omega
  | ⟨1, _⟩ =>
    show win1_5.index ⟨120 + p.val / 1000, ht⟩ 1 * 128 ≤ q.val ∧ q.val < win1_5.index ⟨120 + p.val / 1000, ht⟩ 1 * 128 + 128
    rw [e1]; omega

end Cert.KernelIdeal.R1
end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.R0Value.lean ====
import proofs.«118626_g5102421148071_cont_8to1_c_1098_12_alg».proof.Proof.R0Dat
import proofs.«118626_g5102421148071_cont_8to1_c_1098_12_alg».proof.Proof.LibPlainDot
import Idealize.ShloMosaic.Lib.Pipeline.Value
import Idealize.ShloMosaic.Lib.ValueIdx

/-! # The first kernel region over the extended reals: the three output arrays, entry by entry

Every grid point `t` writes back rows `[400 t, 400 t + 400)` of each output. Over the extended reals the
format changes are the identity, so the two column outputs hold the adjacency's columns `[0, 768)` and
`[768, 10000)`, and the layer output holds `(adj · x) · W + b`. -/

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz2 : (![0, 0] : Fin 2 → Nat) = fun _ => 0 := funext fun a => by fin_cases a <;> rfl

/-- The printed index maps, decided over the 25 grid points: the whole-array windows sit at block `(0, 0)`, the
    row-strip windows at block `(t, 0)`. -/
theorem idx_facts0 : ∀ t : Fin cfg0.N,
    (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem lt25 (t : Fin cfg0.N) : t.val < 25 := lt_of_lt_of_eq t.isLt N_0

variable (V : (c : Dev nD) → (b : Ref sig .tc) → Buf (Elt Ideal) ((c : Thread nD τ).loc b))

/-! ## The input blocks as entries of the arrays -/

/-- The feature window's block is the whole feature array at every point. -/
theorem iblk0_apply (c : Dev nD) (t : Fin cfg0.N) (x : S10000x128.Idx) (k : S10000x128.Idx)
    (hk0 : (k 0).val = (x 0).val) (hk1 : (k 1).val = (x 1).val) :
    (iblk0 V c 0 t : Vec Ideal S10000x128 .bf16) x = (V c main_call0_v0 : S10000x128.Idx → EReal) k := by
  obtain ⟨h0, h1, h2, h3, -⟩ := idx_facts0 t
  unfold iblk0
  rw [View.read_apply]
  show V c main_call0_v0 _ = V c main_call0_v0 _
  congr 1
  funext a
  apply Fin.ext
  match a with
  | ⟨0, _⟩ => show win0_0.index t 0 * 10000 + 1 * (x 0).val = (k 0).val; rw [h0.1, hk0]; omega
  | ⟨1, _⟩ => show win0_0.index t 1 * 128 + 1 * (x 1).val = (k 1).val; rw [h0.2, hk1]; omega

/-- The adjacency strip at point `t` is rows `[400 t, 400 t + 400)` of the adjacency. -/
theorem iblk1_apply (c : Dev nD) (t : Fin cfg0.N) (x : S400x10000.Idx) (k : S10000x10000.Idx)
    (hk0 : (k 0).val = 400 * t.val + (x 0).val) (hk1 : (k 1).val = (x 1).val) :
    (iblk0 V c 1 t : Vec Ideal S400x10000 .f32) x = (V c main_arg1 : S10000x10000.Idx → EReal) k := by
  obtain ⟨h0, h1, h2, h3, -⟩ := idx_facts0 t
  unfold iblk0
  rw [View.read_apply]
  show V c main_arg1 _ = V c main_arg1 _
  congr 1
  funext a
  apply Fin.ext
  match a with
  | ⟨0, _⟩ => show win0_1.index t 0 * 400 + 1 * (x 0).val = (k 0).val; rw [h1.1, hk0]; omega
  | ⟨1, _⟩ => show win0_1.index t 1 * 10000 + 1 * (x 1).val = (k 1).val; rw [h1.2, hk1]; omega

/-- The weight window's block is the whole weight matrix at every point. -/
theorem iblk2_apply (c : Dev nD) (t : Fin cfg0.N) (x : S128x128.Idx) (k : S128x128.Idx)
    (hk0 : (k 0).val = (x 0).val) (hk1 : (k 1).val = (x 1).val) :
    (iblk0 V c 2 t : Vec Ideal S128x128 .f32) x = (V c main_call0_v2 : S128x128.Idx → EReal) k := by
  obtain ⟨h0, h1, h2, h3, -⟩ := idx_facts0 t
  unfold iblk0
  rw [View.read_apply]
  show V c main_call0_v2 _ = V c main_call0_v2 _
  congr 1
  funext a
  apply Fin.ext
  match a with
  | ⟨0, _⟩ => show win0_2.index t 0 * 128 + 1 * (x 0).val = (k 0).val; rw [h2.1, hk0]; omega
  | ⟨1, _⟩ => show win0_2.index t 1 * 128 + 1 * (x 1).val = (k 1).val; rw [h2.2, hk1]; omega

/-- The bias window's block is the whole bias row at every point. -/
theorem iblk3_apply (c : Dev nD) (t : Fin cfg0.N) (x : S1x128.Idx) (k : S1x128.Idx)
    (hk0 : (k 0).val = (x 0).val) (hk1 : (k 1).val = (x 1).val) :
    (iblk0 V c 3 t : Vec Ideal S1x128 .f32) x = (V c main_call0_v5 : S1x128.Idx → EReal) k := by
  obtain ⟨h0, h1, h2, h3, -⟩ := idx_facts0 t
  unfold iblk0
  rw [View.read_apply]
  show V c main_call0_v5 _ = V c main_call0_v5 _
  congr 1
  funext a
  apply Fin.ext
  match a with
  | ⟨0, _⟩ => show win0_3.index t 0 * 1 + 1 * (x 0).val = (k 0).val; rw [h3.1, hk0]; omega
  | ⟨1, _⟩ => show win0_3.index t 1 * 128 + 1 * (x 1).val = (k 1).val; rw [h3.2, hk1]; omega

/-! ## The two matrix products at an entry -/

/-- The strip-by-features product into a zero accumulator, at row `a` and column `b`. -/
theorem mm1_apply {φ₁ φ₂ : FTy} (x : FVec Ideal S400x10000 φ₁) (y : FVec Ideal S10000x128 φ₂) (a : Fin 400) (b : Fin 128) :
    matmul dot_S400x10000_S10000x128_S400x128_1_0_0_1_n_n none x y (constant S400x128 .f32 0x00000000#32) (ix2 a b)
      = ∑ l : Fin 10000, x (ix2 a l) * y (ix2 l b) :=
  LibPlainDot.matmul_zero_apply (M := 400) (K := 10000) (N := 128) none x y a b

/-- The product with the weights into a zero accumulator, at row `a` and column `b`. -/
theorem mm2_apply {φ₁ φ₂ : FTy} (x : FVec Ideal S400x128 φ₁) (y : FVec Ideal S128x128 φ₂) (a : Fin 400) (b : Fin 128) :
    matmul dot_S400x128_S128x128_S400x128_1_0_0_1_n_n none x y (constant S400x128 .f32 0x00000000#32) (ix2 a b)
      = ∑ l : Fin 128, x (ix2 a l) * y (ix2 l b) :=
  LibPlainDot.matmul_zero_apply (M := 400) (K := 128) (N := 128) none x y a b

/-! ## The outputs as functions of the arrays -/

/-- One entry of the layer: `(adj · x) · W + b` at row `p`, column `q`. -/
abbrev layer0 (A : S10000x10000.Idx → EReal) (X : S10000x128.Idx → EReal) (W : S128x128.Idx → EReal) (B : S1x128.Idx → EReal)
    (p : Fin 10000) (q : Fin 128) : EReal :=
  (∑ j : Fin 128, (∑ k : Fin 10000, A (ix2 p k) * X (ix2 k j)) * W (ix2 j q)) + B (ix2 (0 : Fin 1) q)

/-- The low-column output: the adjacency's columns `[0, 768)`. -/
def G4 (c : Dev nD) : S10000x768.Idx → EReal := fun i =>
  (V c main_arg1 : S10000x10000.Idx → EReal) (ix2 ⟨(i 0).val, idx2_lt0 i⟩ ⟨(i 1).val, by have := idx2_lt1 i; omega⟩)

/-- The high-column output: the adjacency's columns `[768, 10000)`. -/
def G5 (c : Dev nD) : S10000x9232.Idx → EReal := fun i =>
  (V c main_arg1 : S10000x10000.Idx → EReal) (ix2 ⟨(i 0).val, idx2_lt0 i⟩ ⟨768 + (i 1).val, by have := idx2_lt1 i; omega⟩)

/-- The layer output. -/
def G6 (c : Dev nD) : S10000x128.Idx → EReal := fun i =>
  layer0 (V c main_arg1) (V c main_call0_v0) (V c main_call0_v2) (V c main_call0_v5) ⟨(i 0).val, idx2_lt0 i⟩ ⟨(i 1).val, idx2_lt1 i⟩

/-! ## What each point writes back -/

/-- Point `t` writes back block `t` of `G4`. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz2]
  simp only [View.ld_unit_zero (S := S400x10000) hz2]
  obtain ⟨-, -, -, -, ⟨e0, e1⟩, -⟩ := idx_facts0 t
  have ht := lt25 t
  funext j
  show k0_pay2 (iblk0 V c 1 t) j = G4 V c (((cfg0.win 4).blk t).view.emb j)
  unfold k0_pay2 k0_pay1 G4
  have hj0 := idx2_lt0 j
  have hj1 := idx2_lt1 j
  refine (extractStridedSlice_apply _ _ _ j (ix2 ⟨(j 0).val, hj0⟩ ⟨(j 1).val, by omega⟩) (fun a => ?_)).trans ?_
  · match a with
    | ⟨0, _⟩ => show (j 0).val = 0 + (j 0).val; omega
    | ⟨1, _⟩ => show (j 1).val = 0 + (j 1).val; omega
  rw [truncf_apply]
  refine iblk1_apply V c t _ _ ?_ ?_
  · show win0_4.index t 0 * 400 + 1 * (j 0).val = 400 * t.val + (j 0).val; rw [e0]; omega
  · show win0_4.index t 1 * 768 + 1 * (j 1).val = (j 1).val; rw [e1]; omega

/-- Point `t` writes back block `t` of `G5`. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold out0_5
  rw [View.canon_unit_zero hz2]
  simp only [View.ld_unit_zero (S := S400x10000) hz2]
  obtain ⟨-, -, -, -, -, ⟨e0, e1⟩, -⟩ := idx_facts0 t
  have ht := lt25 t
  funext j
  show k0_pay3 (iblk0 V c 1 t) j = G5 V c (((cfg0.win 5).blk t).view.emb j)
  unfold k0_pay3 k0_pay1 G5
  have hj0 := idx2_lt0 j
  have hj1 := idx2_lt1 j
  refine (extractStridedSlice_apply _ _ _ j (ix2 ⟨(j 0).val, hj0⟩ ⟨768 + (j 1).val, by omega⟩) (fun a => ?_)).trans ?_
  · match a with
    | ⟨0, _⟩ => show (j 0).val = 0 + (j 0).val; omega
    | ⟨1, _⟩ => show 768 + (j 1).val = 768 + (j 1).val; rfl
  rw [truncf_apply]
  refine iblk1_apply V c t _ _ ?_ ?_
  · show win0_5.index t 0 * 400 + 1 * (j 0).val = 400 * t.val + (j 0).val; rw [e0]; omega
  · show 768 + (win0_5.index t 1 * 9232 + 1 * (j 1).val) = 768 + (j 1).val; rw [e1]; omega

/-- Point `t` writes back block `t` of `G6`. -/
theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  unfold out0_6
  rw [View.canon_unit_zero hz2]
  simp only [View.ld_unit_zero (S := S400x10000) hz2, View.ld_unit_zero (S := S10000x128) hz2,
    View.ld_unit_zero (S := S128x128) hz2, View.ld_unit_zero (S := S1x128) hz2]
  obtain ⟨-, -, -, -, -, -, ⟨e0, e1⟩⟩ := idx_facts0 t
  have ht := lt25 t
  funext j
  obtain ⟨a, b, rfl⟩ : ∃ (a : Fin 400) (b : Fin 128), j = ix2 a b := ⟨j 0, j 1, eq_ix2 j⟩
  show k0_pay4 (iblk0 V c 1 t) (iblk0 V c 0 t) (iblk0 V c 2 t) (iblk0 V c 3 t) (ix2 a b) = G6 V c (((cfg0.win 6).blk t).view.emb (ix2 a b))
  have hp : (⟨((((cfg0.win 6).blk t).view.emb (ix2 a b)) 0).val, idx2_lt0 _⟩ : Fin 10000) = ⟨400 * t.val + a.val, by omega⟩ := by
    apply Fin.ext
    show win0_6.index t 0 * 400 + 1 * a.val = 400 * t.val + a.val
    rw [e0]; omega
  have hq : (⟨((((cfg0.win 6).blk t).view.emb (ix2 a b)) 1).val, idx2_lt1 _⟩ : Fin 128) = b := by
    apply Fin.ext
    show win0_6.index t 1 * 128 + 1 * b.val = b.val
    rw [e1]; omega
  unfold G6
  rw [hp, hq]
  unfold k0_pay4 k0_pay1 layer0
  simp only [shapeCast_self]
  rw [truncf_apply, addf_apply, mm2_apply]
  congr 1
  · refine Finset.sum_congr rfl fun k _ => ?_
    rw [mm1_apply]
    congr 1
    · refine Finset.sum_congr rfl fun l _ => ?_
      rw [truncf_apply]
      congr 1
      · exact iblk1_apply V c t _ _ (by rfl) (by rfl)
      · exact iblk0_apply V c t _ _ (by rfl) (by rfl)
    · exact iblk2_apply V c t _ _ (by rfl) (by rfl)
  · refine (broadcastTo_apply _ _ (ix2 a b) (ix2 (0 : Fin 1) b) (fun d => ?_)).trans ?_
    · match d with
      | ⟨0, _⟩ => rfl
      | ⟨1, _⟩ => rfl
    · exact iblk3_apply V c t _ _ (by rfl) (by rfl)

/-! ## The final arrays, entry by entry -/

/-- An index of output 4's array is in point `t`'s block iff each coordinate is in the block's range on its axis. -/
theorem mem_blk4 (t : Fin cfg0.N) (i : S10000x768.Idx) :
    i ∈ ((cfg0.win 4).blk t).view.set ↔ ∀ a : Fin 2, win0_4.index t a * S400x768.size a ≤ (i a).val ∧ (i a).val < win0_4.index t a * S400x768.size a + S400x768.size a := by
  show i ∈ ((View.whole main_call0_v6_0).slice (win0_4.rect t)).set ↔ _
  rw [View.set_slice_whole, Rect.mem_set_unit]
  exact Iff.rfl

/-- An index of output 5's array is in point `t`'s block iff each coordinate is in the block's range on its axis. -/
theorem mem_blk5 (t : Fin cfg0.N) (i : S10000x9232.Idx) :
    i ∈ ((cfg0.win 5).blk t).view.set ↔ ∀ a : Fin 2, win0_5.index t a * S400x9232.size a ≤ (i a).val ∧ (i a).val < win0_5.index t a * S400x9232.size a + S400x9232.size a := by
  show i ∈ ((View.whole main_call0_v6_1).slice (win0_5.rect t)).set ↔ _
  rw [View.set_slice_whole, Rect.mem_set_unit]
  exact Iff.rfl

/-- An index of output 6's array is in point `t`'s block iff each coordinate is in the block's range on its axis. -/
theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_call0_v6_2).slice (win0_6.rect t)).set ↔ _
  rw [View.set_slice_whole, Rect.mem_set_unit]
  exact Iff.rfl

/-- After the region, the low-column output holds the adjacency's columns `[0, 768)`. -/
theorem arr4 (c : Dev nD) (p : Fin 10000) (k : Fin 768) :
    (dat0 (F := Ideal) V c).arrAt 4 cfg0.N (ix2 p k) = V c main_arg1 (ix2 p ⟨k.val, by omega⟩) := by
  have hp : p.val / 400 < cfg0.N := by rw [show cfg0.N = 25 from N_0]; omega
  refine ((dat0 V c).arrAt_apply_of_mem 4 (G4 V c) (fun t _ => flushed4_eq V c t) cfg0.N ⟨p.val / 400, hp⟩ (ix2 p k) hp (flush0_4 _) ?_).trans rfl
  obtain ⟨-, -, -, -, ⟨e0, e1⟩, -⟩ := idx_facts0 ⟨p.val / 400, hp⟩
  rw [mem_blk4]
  intro a
  match a with
  | ⟨0, _⟩ => show win0_4.index ⟨p.val / 400, hp⟩ 0 * 400 ≤ p.val ∧ p.val < win0_4.index ⟨p.val / 400, hp⟩ 0 * 400 + 400; rw [e0]; show p.val / 400 * 400 ≤ p.val ∧ p.val < p.val / 400 * 400 + 400; omega
  | ⟨1, _⟩ => show win0_4.index ⟨p.val / 400, hp⟩ 1 * 768 ≤ k.val ∧ k.val < win0_4.index ⟨p.val / 400, hp⟩ 1 * 768 + 768; rw [e1]; omega

/-- After the region, the high-column output holds the adjacency's columns `[768, 10000)`. -/
theorem arr5 (c : Dev nD) (p : Fin 10000) (k : Fin 9232) :
    (dat0 (F := Ideal) V c).arrAt 5 cfg0.N (ix2 p k) = V c main_arg1 (ix2 p ⟨768 + k.val, by omega⟩) := by
  have hp : p.val / 400 < cfg0.N := by rw [show cfg0.N = 25 from N_0]; omega
  refine ((dat0 V c).arrAt_apply_of_mem 5 (G5 V c) (fun t _ => flushed5_eq V c t) cfg0.N ⟨p.val / 400, hp⟩ (ix2 p k) hp (flush0_5 _) ?_).trans rfl
  obtain ⟨-, -, -, -, -, ⟨e0, e1⟩, -⟩ := idx_facts0 ⟨p.val / 400, hp⟩
  rw [mem_blk5]
  intro a
  match a with
  | ⟨0, _⟩ => show win0_5.index ⟨p.val / 400, hp⟩ 0 * 400 ≤ p.val ∧ p.val < win0_5.index ⟨p.val / 400, hp⟩ 0 * 400 + 400; rw [e0]; show p.val / 400 * 400 ≤ p.val ∧ p.val < p.val / 400 * 400 + 400; omega
  | ⟨1, _⟩ => show win0_5.index ⟨p.val / 400, hp⟩ 1 * 9232 ≤ k.val ∧ k.val < win0_5.index ⟨p.val / 400, hp⟩ 1 * 9232 + 9232; rw [e1]; omega

/-- After the region, the layer output holds `(adj · x) · W + b`. -/
theorem arr6 (c : Dev nD) (p : Fin 10000) (k : Fin 128) :
    (dat0 (F := Ideal) V c).arrAt 6 cfg0.N (ix2 p k) = layer0 (V c main_arg1) (V c main_call0_v0) (V c main_call0_v2) (V c main_call0_v5) p k := by
  have hp : p.val / 400 < cfg0.N := by rw [show cfg0.N = 25 from N_0]; omega
  refine ((dat0 V c).arrAt_apply_of_mem 6 (G6 V c) (fun t _ => flushed6_eq V c t) cfg0.N ⟨p.val / 400, hp⟩ (ix2 p k) hp (flush0_6 _) ?_).trans rfl
  obtain ⟨-, -, -, -, -, -, ⟨e0, e1⟩⟩ := idx_facts0 ⟨p.val / 400, hp⟩
  rw [mem_blk6]
  intro a
  match a with
  | ⟨0, _⟩ => show win0_6.index ⟨p.val / 400, hp⟩ 0 * 400 ≤ p.val ∧ p.val < win0_6.index ⟨p.val / 400, hp⟩ 0 * 400 + 400; rw [e0]; show p.val / 400 * 400 ≤ p.val ∧ p.val < p.val / 400 * 400 + 400; omega
  | ⟨1, _⟩ => show win0_6.index ⟨p.val / 400, hp⟩ 1 * 128 ≤ k.val ∧ k.val < win0_6.index ⟨p.val / 400, hp⟩ 1 * 128 + 128; rw [e1]; omega

end Cert.KernelIdeal.R0
end
-- ==== Proof.HostValues.lean ====
import proofs.«118626_g5102421148071_cont_8to1_c_1098_12_alg».proof.Proof.Gen.KernelIdeal.Launch
import Idealize.ShloMosaic.Lib.StableHlo.Run
import Idealize.ShloMosaic.Lib.Pipeline.Value
import Idealize.ShloMosaic.Lib.ValueIdx

/-! # What the host operations between the kernels leave, entry by entry, over the extended reals

Before the first kernel the host narrows the features (the identity on extended reals), and takes the first
weight matrix and the first bias row out of their stacks; before the second it takes the remaining thirteen
of each. Each result entry is one entry of an argument. -/

set_option maxRecDepth 16384

noncomputable section

namespace Cert.KernelIdeal.HostV

open Cert.KernelIdeal Cert.KernelIdeal.Gen
open Idealize.ShloMosaic Idealize.ShloMosaic.TcCoe Idealize.ShloMosaic.ValueIdx Idealize.SL.Sem Idealize.ShloMosaic.StableHlo

variable (W : Valuation τ sig (Elt Ideal))

/-! ## The first stretch, as terms of the arguments -/

theorem call0_v0_eq : @Eq (Vec Ideal S10000x128 .bf16) (StableHlo.after (hostOps0 (F := Ideal)) W (Proc.devRef .tc main_call0_v0))
    (truncf (F := Ideal) (s := S10000x128) (φ := .f32) .bf16 (W (Proc.devRef .tc main_arg0)) bitsLt_bf16_f32) := by
  dsimp only [hostOps0]; after_results; rfl

theorem call0_v2_eq : @Eq (Vec Ideal S128x128 .f32) (StableHlo.after (hostOps0 (F := Ideal)) W (Proc.devRef .tc main_call0_v2))
    (shapeCast S128x128 (extractStridedSlice (s := S14x128x128) (α := EReal) S1x128x128 ![0, 0, 0] (W (Proc.devRef .tc main_arg2)) slices_S14x128x128_S1x128x128_0_0_0) shapeCasts_S1x128x128_S128x128) := by
  dsimp only [hostOps0]; after_results; rfl

theorem call0_v5_eq : @Eq (Vec Ideal S1x128 .f32) (StableHlo.after (hostOps0 (F := Ideal)) W (Proc.devRef .tc main_call0_v5))
    (shapeCast S1x128 (shapeCast S128 (extractStridedSlice (s := S14x128) (α := EReal) S1x128 ![0, 0] (W (Proc.devRef .tc main_arg3)) slices_S14x128_S1x128_0_0) shapeCasts_S1x128_S128) shapeCasts_S128_S1x128) := by
  dsimp only [hostOps0]; after_results; rfl

/-! ## The second stretch -/

theorem call0_v7_eq : @Eq (Vec Ideal S13x128x128 .f32) (StableHlo.after (hostOps1 (F := Ideal)) W (Proc.devRef .tc main_call0_v7))
    (extractStridedSlice (s := S14x128x128) (α := EReal) S13x128x128 ![1, 0, 0] (W (Proc.devRef .tc main_arg2)) slices_S14x128x128_S13x128x128_1_0_0) := by
  dsimp only [hostOps1]; after_results; rfl

theorem call0_v8_eq : @Eq (Vec Ideal S13x128 .f32) (StableHlo.after (hostOps1 (F := Ideal)) W (Proc.devRef .tc main_call0_v8))
    (extractStridedSlice (s := S14x128) (α := EReal) S13x128 ![1, 0] (W (Proc.devRef .tc main_arg3)) slices_S14x128_S13x128_1_0) := by
  dsimp only [hostOps1]; after_results; rfl

/-! ## At an entry -/

/-- The narrowed features are the features. -/
theorem v0 (p : Fin 10000) (q : Fin 128) :
    StableHlo.after (hostOps0 (F := Ideal)) W (Proc.devRef .tc main_call0_v0) (ix2 p q) = W (Proc.devRef .tc main_arg0) (ix2 p q) :=
  congrFun (call0_v0_eq W) (ix2 p q)

/-- The first kernel's weights are the stack's matrix 0. -/
theorem v2 (j q : Fin 128) :
    StableHlo.after (hostOps0 (F := Ideal)) W (Proc.devRef .tc main_call0_v2) (ix2 j q) = W (Proc.devRef .tc main_arg2) (ix3 (0 : Fin 14) j q) := by
  refine (congrFun (call0_v2_eq W) (ix2 j q)).trans ?_
  refine (shapeCast_apply _ shapeCasts_S1x128x128_S128x128 (ix2 j q) (ix3 (0 : Fin 1) j q) ?_).trans ?_
  · rewrite [Shape.rowMajor_val_three, Shape.rowMajor_val_two]
    show (0 * 128 + j.val) * 128 + q.val = j.val * 128 + q.val
    omega
  · exact extractStridedSlice_apply ![0, 0, 0] _ slices_S14x128x128_S1x128x128_0_0_0 (ix3 (0 : Fin 1) j q) (ix3 (0 : Fin 14) j q) (fun a => match a with
      | ⟨0, _⟩ => by show 0 = 0 + 0; rfl
      | ⟨1, _⟩ => by show j.val = 0 + j.val; omega
      | ⟨2, _⟩ => by show q.val = 0 + q.val; omega)

/-- The first kernel's bias is the stack's row 0. -/
theorem v5 (q : Fin 128) :
    StableHlo.after (hostOps0 (F := Ideal)) W (Proc.devRef .tc main_call0_v5) (ix2 (0 : Fin 1) q) = W (Proc.devRef .tc main_arg3) (ix2 (0 : Fin 14) q) := by
  refine (congrFun (call0_v5_eq W) (ix2 (0 : Fin 1) q)).trans ?_
  refine (shapeCast_apply _ shapeCasts_S128_S1x128 (ix2 (0 : Fin 1) q) (ix1 q) ?_).trans ?_
  · rewrite [Shape.rowMajor_val_one, Shape.rowMajor_val_two]
    show q.val = 0 * 128 + q.val
    omega
  refine (shapeCast_apply _ shapeCasts_S1x128_S128 (ix1 q) (ix2 (0 : Fin 1) q) ?_).trans ?_
  · rewrite [Shape.rowMajor_val_one, Shape.rowMajor_val_two]
    show 0 * 128 + q.val = q.val
    omega
  · exact extractStridedSlice_apply ![0, 0] _ slices_S14x128_S1x128_0_0 (ix2 (0 : Fin 1) q) (ix2 (0 : Fin 14) q) (fun a => match a with
      | ⟨0, _⟩ => by show 0 = 0 + 0; rfl
      | ⟨1, _⟩ => by show q.val = 0 + q.val; omega)

/-- The second kernel's weights are the stack's matrices 1 to 13. -/
theorem v7 (l : Fin 13) (j q : Fin 128) :
    StableHlo.after (hostOps1 (F := Ideal)) W (Proc.devRef .tc main_call0_v7) (ix3 l j q) = W (Proc.devRef .tc main_arg2) (ix3 (⟨l.val + 1, by omega⟩ : Fin 14) j q) := by
  refine (congrFun (call0_v7_eq W) (ix3 l j q)).trans ?_
  exact extractStridedSlice_apply ![1, 0, 0] _ slices_S14x128x128_S13x128x128_1_0_0 (ix3 l j q) (ix3 (⟨l.val + 1, by omega⟩ : Fin 14) j q) (fun a => match a with
    | ⟨0, _⟩ => by show l.val + 1 = 1 + l.val; omega
    | ⟨1, _⟩ => by show j.val = 0 + j.val; omega
    | ⟨2, _⟩ => by show q.val = 0 + q.val; omega)

/-- The second kernel's biases are the stack's rows 1 to 13. -/
theorem v8 (l : Fin 13) (q : Fin 128) :
    StableHlo.after (hostOps1 (F := Ideal)) W (Proc.devRef .tc main_call0_v8) (ix2 l q) = W (Proc.devRef .tc main_arg3) (ix2 (⟨l.val + 1, by omega⟩ : Fin 14) q) := by
  refine (congrFun (call0_v8_eq W) (ix2 l q)).trans ?_
  exact extractStridedSlice_apply ![1, 0] _ slices_S14x128_S13x128_1_0 (ix2 l q) (ix2 (⟨l.val + 1, by omega⟩ : Fin 14) q) (fun a => match a with
    | ⟨0, _⟩ => by show l.val + 1 = 1 + l.val; omega
    | ⟨1, _⟩ => by show q.val = 0 + q.val; omega)

end Cert.KernelIdeal.HostV
end
-- ==== Proof.LibFinite.lean ====
/-
  "Every entry is a real number" is kept by the operations of a dense network, on the extended reals.

  An array over the extended reals is ALL REAL when none of its entries is an infinity.  The property passes
  through: every operation that only re-reads its operand at some index (a broadcast, a reshape, a slice, a
  row gather), the pointwise sum, difference, product and maximum, a matrix product (host or vector unit, zero
  accumulator: a finite sum of products), a host sum along axes, the accumulating scatter (each entry plus a
  finite sum of updates), and a quotient by an all-real array with no zero entry.  Nothing here depends on the
  shapes or on which index an operation reads.
-/
import Idealize.ShloMosaic.PureOps.Ideal.Laws

noncomputable section

namespace Cert.LibFinite

open Idealize.ShloMosaic

/-- Every entry of the array is a real number. -/
def AllReal {ι : Type*} (x : ι → EReal) : Prop := ∀ i, ∃ r : ℝ, x i = (r : EReal)

/-! ## Scalars -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem coe_max (r s : ℝ) : max (r : EReal) (s : EReal) = ((max r s : ℝ) : EReal) := by
  rcases le_total r s with h | h
  · rw [max_eq_right h, max_eq_right (EReal.coe_le_coe_iff.2 h)]
  · rw [max_eq_left h, max_eq_left (EReal.coe_le_coe_iff.2 h)]

theorem real_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- The maximum of a real and a positive real is a nonzero real. -/
theorem real_max_pos {a : EReal} (ha : ∃ r : ℝ, a = (r : EReal)) {s : ℝ} (hs : 0 < s) :
    ∃ r : ℝ, max a (s : EReal) = (r : EReal) ∧ r ≠ 0 := by
  obtain ⟨r, rfl⟩ := ha
  exact ⟨max r s, coe_max r s, ne_of_gt (lt_of_lt_of_le hs (le_max_right r s))⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem real_div {a b : EReal} (ha : ∃ r : ℝ, a = (r : EReal)) (hb : ∃ r : ℝ, b = (r : EReal) ∧ r ≠ 0) :
    ∃ r : ℝ, Ideal.div a b = (r : EReal) := by
  obtain ⟨r, rfl⟩ := ha; obtain ⟨s, rfl, hs⟩ := hb
  exact ⟨r * (1 / s), by rw [Ideal.div_coe hs, ← EReal.coe_mul]⟩

/-! ## Arrays -/

variable {ι κ : Type*}

/-- Reading an all-real array at any indices gives an all-real array: broadcasts, reshapes, slices and gathers. -/
theorem AllReal.read {x : ι → EReal} (hx : AllReal x) (f : κ → ι) : AllReal fun j => x (f j) := fun j => hx (f j)

theorem AllReal.const {c : EReal} (hc : ∃ r : ℝ, c = (r : EReal)) : AllReal fun _ : ι => c := fun _ => hc

theorem AllReal.broadcastInDim {s t : Shape} {dims : Fin s.rank → Fin t.rank} (h : s.BroadcastsInDim t dims)
    {x : s.Idx → EReal} (hx : AllReal x) : AllReal (broadcastInDim t dims h x) := fun _ => hx _

theorem AllReal.gather {s si t : Shape} {w : Nat} (d : GatherDims s si t) {x : s.Idx → EReal} (hx : AllReal x)
    (idx : IVec si w) : AllReal (Host.gather d x idx) := fun _ => hx _

theorem AllReal.addf {s : Shape} {φ : FTy} {x y : FVec Ideal s φ} (hx : AllReal x) (hy : AllReal y) :
    AllReal (addf x y) := fun i => real_add (hx i) (hy i)

theorem AllReal.subf {s : Shape} {φ : FTy} {x y : FVec Ideal s φ} (hx : AllReal x) (hy : AllReal y) :
    AllReal (subf x y) := fun i => real_sub (hx i) (hy i)

theorem AllReal.mulf {s : Shape} {φ : FTy} {x y : FVec Ideal s φ} (hx : AllReal x) (hy : AllReal y) :
    AllReal (mulf x y) := fun i => real_mul (hx i) (hy i)

theorem AllReal.maximumf {s : Shape} {φ : FTy} {x y : FVec Ideal s φ} (hx : AllReal x) (hy : AllReal y) :
    AllReal (maximumf x y) := fun i => real_max (hx i) (hy i)

/-- A quotient by an all-real array without zero entries. -/
theorem AllReal.hostDivf {s : Shape} {φ : FTy} {x y : FVec Ideal s φ} (hx : AllReal x)
    (hy : ∀ i, ∃ r : ℝ, y i = (r : EReal) ∧ r ≠ 0) : AllReal (Host.divf x y) := fun i => real_div (hx i) (hy i)

/-- A host matrix product of all-real arrays, whatever its dimension numbers. -/
theorem AllReal.dotGeneral {sl sr so : Shape} {φ₁ φ₂ : FTy} (d : DotDims sl sr so) (prec : Option ContractPrecision)
    (sched : HostSchedule) {l : FVec Ideal sl φ₁} {r : FVec Ideal sr φ₂} (hl : AllReal l) (hr : AllReal r) :
    AllReal (FloatOps.dotGeneral d prec sched l r) := fun j => by
  rw [Ideal.dotGeneral_apply]
  exact real_sum _ _ fun k _ => real_mul (hl _) (hr _)

/-- The vector unit's matrix product into the zero accumulator. -/
theorem AllReal.matmul_zero {sl sr so : Shape} {φ₁ φ₂ : FTy} (d : DotDims sl sr so) (prec : Option ContractPrecision)
    {l : FVec Ideal sl φ₁} {r : FVec Ideal sr φ₂} (hl : AllReal l) (hr : AllReal r) :
    AllReal (FloatOps.matmul d prec l r (constant so .f32 0x00000000#32)) := fun j => by
  rw [Ideal.matmul_constant_zero_apply]
  exact real_sum _ _ fun k _ => real_mul (hl _) (hr _)

/-- The accumulating scatter: each entry plus a finite sum of updates. -/
theorem AllReal.scatterAdd {s si su : Shape} {φ : FTy} {w : Nat} (d : ScatterDims s si su) {x : FVec Ideal s φ}
    (hx : AllReal x) (idx : IVec si w) {upd : FVec Ideal su φ} (hu : AllReal upd) :
    AllReal (Host.scatterAdd (F := Ideal) d x idx upd) := fun i =>
  real_add (hx i) (real_sum _ _ fun j _ => hu j)

end Cert.LibFinite

end
-- ==== Proof.Spec.lean ====
/-
  The two orders of a fourteen-layer graph convolution, as functions on matrices of extended reals.

  One layer maps a feature matrix h (10000 × 128) to adj · h · W + b.  The product of three matrices can be
  bracketed as (adj · h) · W or as adj · (h · W); on the extended reals the two agree when every entry is a real
  number, because then both are the double sum ∑ k, ∑ j, adj(p,k) · h(k,j) · W(j,q) (distributivity, which fails
  at the infinities, holds on the reals).  The property "every entry is real" is kept by a layer, so the
  fourteen-fold iterates agree as well.
-/
import Mathlib
import Idealize.ShloMosaic.PureOps.Ideal.Laws
import Idealize.ShloMosaic.Lib.ValueIdx
import proofs.«118626_g5102421148071_cont_8to1_c_1098_12_alg».proof.Proof.LibFinite

noncomputable section

open scoped BigOperators

namespace Cert.GCN

open Idealize.ShloMosaic Idealize.ShloMosaic.ValueIdx Cert.LibFinite

/-- A matrix of extended reals. -/
abbrev Mat (a b : ℕ) : Type := Fin a → Fin b → EReal

/-- One layer, the adjacency product first: (adj · h) · W + b. -/
def layerK (adj : Mat 10000 10000) (W : Mat 128 128) (b : Fin 128 → EReal) (h : Mat 10000 128) : Mat 10000 128 :=
  fun p q => (∑ j : Fin 128, (∑ k : Fin 10000, adj p k * h k j) * W j q) + b q

/-- One layer, the weight product first: adj · (h · W) + b. -/
def layerR (adj : Mat 10000 10000) (W : Mat 128 128) (b : Fin 128 → EReal) (h : Mat 10000 128) : Mat 10000 128 :=
  fun p q => (∑ k : Fin 10000, adj p k * (∑ j : Fin 128, h k j * W j q)) + b q

/-- The first n layers, adjacency product first. -/
def gcnK (adj : Mat 10000 10000) (Ws : ℕ → Mat 128 128) (bs : ℕ → Fin 128 → EReal) (x : Mat 10000 128) :
    ℕ → Mat 10000 128
  | 0 => x
  | n + 1 => layerK adj (Ws n) (bs n) (gcnK adj Ws bs x n)

/-- The first n layers, weight product first. -/
def gcnR (adj : Mat 10000 10000) (Ws : ℕ → Mat 128 128) (bs : ℕ → Fin 128 → EReal) (x : Mat 10000 128) :
    ℕ → Mat 10000 128
  | 0 => x
  | n + 1 => layerR adj (Ws n) (bs n) (gcnR adj Ws bs x n)

/-- Every entry of the matrix is a real number. -/
def RealMat {a b : ℕ} (m : Mat a b) : Prop := ∀ p q, ∃ r : ℝ, m p q = (r : EReal)

/-! ## The triple product on the reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On the reals the two bracketings of a row times a matrix times a column are one double sum. -/
theorem assoc_real {n m : ℕ} (a : Fin n → ℝ) (h : Fin n → Fin m → ℝ) (w : Fin m → ℝ) :
    ∑ j : Fin m, (∑ k : Fin n, a k * h k j) * w j = ∑ k : Fin n, a k * ∑ j : Fin m, h k j * w j := by
  simp only [Finset.sum_mul, Finset.mul_sum]
  rw [Finset.sum_comm]
  refine Finset.sum_congr rfl fun k _ => Finset.sum_congr rfl fun j _ => ?_
  ring

/-- The same on extended reals whose entries are coercions of reals. -/
theorem assoc_coe {n m : ℕ} (a : Fin n → ℝ) (h : Fin n → Fin m → ℝ) (w : Fin m → ℝ) :
    ∑ j : Fin m, (∑ k : Fin n, (a k : EReal) * (h k j : EReal)) * (w j : EReal)
      = ∑ k : Fin n, (a k : EReal) * ∑ j : Fin m, (h k j : EReal) * (w j : EReal) := by
  simp only [← EReal.coe_mul, ← coe_sum]
  exact congrArg _ (assoc_real a h w)

/-- For real matrices the two bracketings of a layer agree. -/
theorem layerK_eq_layerR {adj : Mat 10000 10000} {W : Mat 128 128} {b : Fin 128 → EReal} {h : Mat 10000 128}
    (hadj : RealMat adj) (hW : RealMat W) (hh : RealMat h) : layerK adj W b h = layerR adj W b h := by
  choose a ha using hadj
  choose w hw using hW
  choose g hg using hh
  funext p q
  unfold layerK layerR
  refine congrArg (· + b q) ?_
  simp only [ha, hw, hg]
  exact assoc_coe (fun k => a p k) g (fun j => w j q)

/-- A layer of real matrices with a real bias is a real matrix. -/
theorem layerK_real {adj : Mat 10000 10000} {W : Mat 128 128} {b : Fin 128 → EReal} {h : Mat 10000 128}
    (hadj : RealMat adj) (hW : RealMat W) (hb : ∀ q, ∃ r : ℝ, b q = (r : EReal)) (hh : RealMat h) :
    RealMat (layerK adj W b h) := fun p q =>
  real_add (real_sum _ _ fun j _ => real_mul (real_sum _ _ fun k _ => real_mul (hadj p k) (hh k j)) (hW j q)) (hb q)

/-- Every stage of the iteration is a real matrix. -/
theorem gcnK_real {adj : Mat 10000 10000} {Ws : ℕ → Mat 128 128} {bs : ℕ → Fin 128 → EReal} {x : Mat 10000 128}
    (hadj : RealMat adj) (hW : ∀ l, RealMat (Ws l)) (hb : ∀ l q, ∃ r : ℝ, bs l q = (r : EReal)) (hx : RealMat x) :
    ∀ n : ℕ, RealMat (gcnK adj Ws bs x n)
  | 0 => hx
  | n + 1 => layerK_real hadj (hW n) (hb n) (gcnK_real hadj hW hb hx n)

/-- For real inputs the two iterations agree at every depth. -/
theorem gcnK_eq_gcnR {adj : Mat 10000 10000} {Ws : ℕ → Mat 128 128} {bs : ℕ → Fin 128 → EReal} {x : Mat 10000 128}
    (hadj : RealMat adj) (hW : ∀ l, RealMat (Ws l)) (hb : ∀ l q, ∃ r : ℝ, bs l q = (r : EReal)) (hx : RealMat x)
    (n : ℕ) : gcnK adj Ws bs x n = gcnR adj Ws bs x n := by
  induction n with
  | zero => rfl
  | succ n ih =>
    show layerK adj (Ws n) (bs n) (gcnK adj Ws bs x n) = layerR adj (Ws n) (bs n) (gcnR adj Ws bs x n)
    rw [← ih]
    exact layerK_eq_layerR hadj (hW n) (gcnK_real hadj hW hb hx n)

/-! ## A sum over 10000 split at 768 -/

theorem sum_split_768 (f : Fin 10000 → EReal) :
    ∑ k : Fin 10000, f k = ∑ k : Fin 768, f ⟨k.val, by omega⟩ + ∑ k : Fin 9232, f ⟨768 + k.val, by omega⟩ :=
  Fin.sum_univ_add (a := 768) (b := 9232) f

/-! ## The arrays as matrices -/

/-- A 10000 × 128 array as a matrix. -/
def matOf (v : (⟨2, ![10000, 128]⟩ : Shape).Idx → EReal) : Mat 10000 128 := fun p q => v (ix2 p q)

/-- A 10000 × 10000 array as a matrix. -/
def adjOf (v : (⟨2, ![10000, 10000]⟩ : Shape).Idx → EReal) : Mat 10000 10000 := fun p k => v (ix2 p k)

/-- The stacked weights, layer by layer (zero past the fourteenth). -/
def wOf (v : (⟨3, ![14, 128, 128]⟩ : Shape).Idx → EReal) : ℕ → Mat 128 128 :=
  fun l j q => if h : l < 14 then v (ix3 ⟨l, h⟩ j q) else 0

/-- The stacked biases, layer by layer (zero past the fourteenth). -/
def bOf (v : (⟨2, ![14, 128]⟩ : Shape).Idx → EReal) : ℕ → Fin 128 → EReal :=
  fun l q => if h : l < 14 then v (ix2 ⟨l, h⟩ q) else 0

/-! ## All-real arrays are real matrices -/

theorem realMat_matOf {v : (⟨2, ![10000, 128]⟩ : Shape).Idx → EReal} (h : AllReal v) : RealMat (matOf v) :=
  fun p q => h (ix2 p q)

theorem realMat_adjOf {v : (⟨2, ![10000, 10000]⟩ : Shape).Idx → EReal} (h : AllReal v) : RealMat (adjOf v) :=
  fun p k => h (ix2 p k)

theorem realMat_wOf {v : (⟨3, ![14, 128, 128]⟩ : Shape).Idx → EReal} (h : AllReal v) (l : ℕ) : RealMat (wOf v l) := by
  intro j q
  unfold wOf
  split
  · exact h _
  · exact ⟨0, by simp⟩

theorem real_bOf {v : (⟨2, ![14, 128]⟩ : Shape).Idx → EReal} (h : AllReal v) (l : ℕ) (q : Fin 128) :
    ∃ r : ℝ, bOf v l q = (r : EReal) := by
  unfold bOf
  split
  · exact h _
  · exact ⟨0, by simp⟩

end Cert.GCN

end
-- ==== Proof.R1Value.lean ====
/-
  The second kernel's slabs as iterates of one layer.

  At a grid point of layer l and strip r the body multiplies the strip's 1000 rows of the adjacency matrix — held
  as its first 768 columns and its remaining 9232 columns — with the layer's input slab h, the two partial products
  added; multiplies the result with the l-th weight matrix; and adds the l-th bias row.  Entry (y, q) of the strip
  is therefore (∑ j, (∑ k, adj(p,k) · h(k,j)) · W_l(j,q)) + b_l(q) at the row p = 1000 r + y, the sum over k being the
  sum over the first 768 indices plus the sum over the last 9232.  Storing a strip only re-indexes it (the format
  changes are the identity on extended reals), so the slab after l layers is the l-fold iterate of the layer map on
  the staged input.
-/
import proofs.«118626_g5102421148071_cont_8to1_c_1098_12_alg».proof.Proof.R1Scratch
import proofs.«118626_g5102421148071_cont_8to1_c_1098_12_alg».proof.Proof.Spec
import proofs.«118626_g5102421148071_cont_8to1_c_1098_12_alg».proof.Proof.LibPlainDot
import Idealize.ShloMosaic.Lib.ValueLayout
import Idealize.ShloMosaic.Lib.Pipeline.Value

noncomputable section

open scoped BigOperators

namespace Cert.GCN

/-- The iteration with one more layer is the iteration of the later layers on the first layer's result. -/
theorem gcnK_shift (adj : Mat 10000 10000) (Ws : ℕ → Mat 128 128) (bs : ℕ → Fin 128 → EReal) (x : Mat 10000 128)
    (n : ℕ) :
    gcnK adj Ws bs x (n + 1)
      = gcnK adj (fun l => Ws (l + 1)) (fun l => bs (l + 1)) (layerK adj (Ws 0) (bs 0) x) n := by
  induction n with
  | zero => rfl
  | succ n ih =>
    show layerK adj (Ws (n + 1)) (bs (n + 1)) (gcnK adj Ws bs x (n + 1)) = layerK adj (Ws (n + 1)) (bs (n + 1)) _
    rw [ih]

end Cert.GCN

namespace Cert.KernelIdeal.R1V

open Cert.KernelIdeal Cert.KernelIdeal.Gen Cert.KernelIdeal.R1
open Idealize.ShloMosaic Idealize.ShloMosaic.ValueIdx
open Idealize.ShloMosaic.TcCoe
open Idealize.SL.Sem
open Cert.GCN

/-! ## The matrices the blocks hold -/

/-- The adjacency matrix from its first 768 columns and its remaining 9232. -/
def adjLR (AL : S10000x768.Idx → EReal) (AR : S10000x9232.Idx → EReal) : Mat 10000 10000 :=
  fun p k => if h : k.val < 768 then AL (ix2 p ⟨k.val, h⟩) else AR (ix2 p ⟨k.val - 768, by have := k.isLt; omega⟩)

/-- The thirteen stacked weight matrices, layer by layer (zero past the thirteenth). -/
def w13 (W : S13x128x128.Idx → EReal) : ℕ → Mat 128 128 :=
  fun l j q => if h : l < 13 then W (ix3 ⟨l, h⟩ j q) else 0

/-- The thirteen stacked bias rows, layer by layer (zero past the thirteenth). -/
def b13 (B : S13x128.Idx → EReal) : ℕ → Fin 128 → EReal :=
  fun l q => if h : l < 13 then B (ix2 ⟨l, h⟩ q) else 0

/-- The staged first-layer result as a matrix. -/
def h1Of (H1 : S10000x128.Idx → EReal) : Mat 10000 128 := fun p q => H1 (ix2 p q)

/-! ## The offsets at each point, in closed form -/

theorem off2_eq : ∀ t : Fin cfg1.N, k1_off2 (grid1.coords t) = ![1000 * (t.val % 10), 0] :=
  (by decide +kernel : ∀ t : Fin grid1.N, k1_off2 (grid1.coords t) = ![1000 * (t.val % 10), 0])
theorem off3_eq : ∀ t : Fin cfg1.N, k1_off3 (grid1.coords t) = ![t.val / 10, 0, 0] :=
  (by decide +kernel : ∀ t : Fin grid1.N, k1_off3 (grid1.coords t) = ![t.val / 10, 0, 0])
theorem off4_eq : ∀ t : Fin cfg1.N, k1_off4 (grid1.coords t) = ![t.val / 10, 0] :=
  (by decide +kernel : ∀ t : Fin grid1.N, k1_off4 (grid1.coords t) = ![t.val / 10, 0])

/-- The point of layer l and strip r is the number 10 l + r. -/
theorem tOf_val (l r : ℕ) (hl : l < 13) (hr : r < 10) : (tOf l r).val = 10 * l + r := by
  show (10 * l + r) % 130 = 10 * l + r
  exact Nat.mod_eq_of_lt (by omega)
theorem tOf_div (l r : ℕ) (hl : l < 13) (hr : r < 10) : (tOf l r).val / 10 = l := by
  rw [tOf_val l r hl hr]; omega
theorem tOf_mod (l r : ℕ) (hl : l < 13) (hr : r < 10) : (tOf l r).val % 10 = r := by
  rw [tOf_val l r hl hr]; omega

variable (V : (c : Dev nD) → (b : Ref sig .tc) → Buf (Elt Ideal) ((c : Thread nD τ).loc b)) (c : Dev nD)

/-! ## The body's payloads at an entry, over any operands -/

/-- The product payload at (y, q): the two partial adjacency products added, times the weights. -/
theorem pay4_value (slab : S1x10000x128.Idx → EReal) (a0 : S1000x768.Idx → EReal) (a1 : S1000x9232.Idx → EReal)
    (w3 : S1x128x128.Idx → EReal) (y : Fin 1000) (q : Fin 128) :
    k1_pay4 (F := Ideal) slab a0 a1 w3 (ix2 y q)
      = ∑ j : Fin 128,
          ((∑ k : Fin 768, a0 (ix2 y k) * slab (ix3 (0 : Fin 1) (⟨k.val, by omega⟩ : Fin 10000) j))
            + ∑ k : Fin 9232, a1 (ix2 y k) * slab (ix3 (0 : Fin 1) (⟨768 + k.val, by omega⟩ : Fin 10000) j))
          * w3 (ix3 (0 : Fin 1) j q) := by
  unfold k1_pay4
  refine (LibPlainDot.matmul_zero_apply none _ _ y q).trans ?_
  refine Finset.sum_congr rfl fun j _ => ?_
  refine congrArg₂ (· * ·) ?_ (shapeCast_1ab_ab_apply _ _ j q)
  refine (addf_apply _ _ _).trans ?_
  refine congrArg₂ (· + ·) ?_ ?_
  · refine (LibPlainDot.matmul_zero_apply none _ _ y j).trans (Finset.sum_congr rfl fun k _ => ?_)
    refine congrArg₂ (· * ·) (congrFun (shapeCast_self _ _) _) ?_
    refine (slice2_axis0_apply 0 _ _ k j (⟨k.val, by omega⟩ : Fin 10000) (by simp)).trans ?_
    exact shapeCast_1ab_ab_apply _ _ _ _
  · refine (LibPlainDot.matmul_zero_apply none _ _ y j).trans (Finset.sum_congr rfl fun k _ => ?_)
    refine congrArg₂ (· * ·) (congrFun (shapeCast_self _ _) _) ?_
    refine (slice2_axis0_apply 768 _ _ k j (⟨768 + k.val, by omega⟩ : Fin 10000) rfl).trans ?_
    exact shapeCast_1ab_ab_apply _ _ _ _

/-- The sum payload at (y, q): the product payload plus the bias at q. -/
theorem pay1_value (v32 : S1000x128.Idx → EReal) (v35 : S128.Idx → EReal) (y : Fin 1000) (q : Fin 128) :
    k1_pay1 (F := Ideal) v32 v35 (ix2 y q) = v32 (ix2 y q) + v35 (ix1 q) := by
  unfold k1_pay1
  refine (addf_apply _ _ _).trans (congrArg (v32 (ix2 y q) + ·) ?_)
  refine (broadcastTo_1b_ab_apply _ _ y q).trans ?_
  exact shapeCast_a_1a_apply _ _ _ _

/-- The stored payload at (0, y, q) is the sum payload at (y, q). -/
theorem pay2_value (v32 : S1000x128.Idx → EReal) (v35 : S128.Idx → EReal) (y : Fin 1000) (q : Fin 128) :
    k1_pay2 (F := Ideal) v32 v35 (ix3 (0 : Fin 1) y q) = k1_pay1 (F := Ideal) v32 v35 (ix2 y q) := by
  unfold k1_pay2
  exact shapeCast_ab_1ab_apply _ _ _ _ _

/-! ## The bias row and the seed at an entry -/

section Bias
variable (B : S13x128.Idx → EReal)
  (hb4 : ∀ (t : Fin cfg1.N) (l : Fin 13) (q : Fin 128),
    (iblk1 (F := Ideal) V c 4 t : S13x128.Idx → EReal) (ix2 l q) = B (ix2 l q))

include hb4 in
/-- The bias the point of layer l reads, at q, is the l-th bias at q. -/
theorem bias_value (l r : ℕ) (hl : l < 13) (hr : r < 10) (q : Fin 128) :
    biasAt (F := Ideal) V c (tOf l r) (ix1 q) = b13 B l q := by
  unfold biasAt k1_pay5
  refine (shapeCast_1a_a_apply _ _ q).trans ?_
  have hidx : (Rect.unit (s := S13x128) (k1_off4 (grid1.coords (tOf l r))) S1x128.size
      (k1_off4_inb (grid1.coords (tOf l r)))).toLoadRect.idx (ix2 (0 : Fin 1) q) = ix2 (⟨l, hl⟩ : Fin 13) q := by
    funext a; refine Fin.ext ?_
    match a with
    | ⟨0, _⟩ =>
      show k1_off4 (grid1.coords (tOf l r)) 0 + 1 * 0 = l
      rw [off4_eq]
      show (tOf l r).val / 10 + 1 * 0 = l
      rw [tOf_div l r hl hr]
      omega
    | ⟨1, _⟩ =>
      show k1_off4 (grid1.coords (tOf l r)) 1 + 1 * q.val = q.val
      rw [off4_eq]
      show 0 + 1 * q.val = q.val
      omega
  show (iblk1 (F := Ideal) V c 4 (tOf l r) : S13x128.Idx → EReal) _ = _
  rw [hidx, hb4]
  unfold b13
  rw [dif_pos hl]
end Bias

section Seed
variable (H1 : S10000x128.Idx → EReal)
  (hb2 : ∀ (p : Fin 10000) (q : Fin 128),
    (iblk1 (F := Ideal) V c 2 (tOf 0 0) : S10000x128.Idx → EReal) (ix2 p q) = H1 (ix2 p q))

include hb2 in
/-- The seed slab at (0, j, q) is the staged first-layer result at (j, q). -/
theorem seed_value (j : Fin 10000) (q : Fin 128) :
    seedSlab (F := Ideal) V c (ix3 (0 : Fin 1) j q) = h1Of H1 j q := by
  unfold seedSlab k1_pay3
  refine (shapeCast_ab_1ab_apply _ _ (0 : Fin 1) j q).trans ?_
  refine (shapeCast_apply _ _ (ix2 j q) (ix2 j q) rfl).trans ?_
  have hidx : (Rect.unit (s := S10000x128) ![0, 0] S10000x128.size inb_S10000x128_S10000x128_0_0).toLoadRect.idx
      (ix2 j q) = ix2 j q := by
    funext a; refine Fin.ext ?_
    match a with
    | ⟨0, _⟩ => show 0 + 1 * j.val = j.val; omega
    | ⟨1, _⟩ => show 0 + 1 * q.val = q.val; omega
  show (iblk1 (F := Ideal) V c 2 (tOf 0 0) : S10000x128.Idx → EReal) _ = _
  rw [hidx, hb2]
  rfl
end Seed

/-! ## A strip at an entry -/

section Strip
variable (AL : S10000x768.Idx → EReal) (AR : S10000x9232.Idx → EReal) (W : S13x128x128.Idx → EReal)
  (hb0 : ∀ (t : Fin cfg1.N) (p : Fin 10000) (k : Fin 768),
    (iblk1 (F := Ideal) V c 0 t : S10000x768.Idx → EReal) (ix2 p k) = AL (ix2 p k))
  (hb1 : ∀ (l r : ℕ) (hl : l < 13) (hr : r < 10) (y : Fin 1000) (k : Fin 9232),
    (iblk1 (F := Ideal) V c 1 (tOf l r) : S1000x9232.Idx → EReal) (ix2 y k)
      = AR (ix2 (⟨1000 * r + y.val, by omega⟩ : Fin 10000) k))
  (hb3 : ∀ (t : Fin cfg1.N) (l : Fin 13) (j q : Fin 128),
    (iblk1 (F := Ideal) V c 3 t : S13x128x128.Idx → EReal) (ix3 l j q) = W (ix3 l j q))

/-- The sum over all 10000 columns of the adjacency row is the sum over its first 768 plus the sum over the rest. -/
theorem adj_split (p : Fin 10000) (g : Fin 10000 → EReal) :
    ∑ k : Fin 10000, adjLR AL AR p k * g k
      = (∑ k : Fin 768, AL (ix2 p k) * g ⟨k.val, by omega⟩) + ∑ k : Fin 9232, AR (ix2 p k) * g ⟨768 + k.val, by omega⟩ := by
  rw [sum_split_768]
  refine congrArg₂ (· + ·) (Finset.sum_congr rfl fun k _ => ?_) (Finset.sum_congr rfl fun k _ => ?_)
  · unfold adjLR
    rw [dif_pos (show (⟨k.val, by omega⟩ : Fin 10000).val < 768 from k.isLt)]
  · unfold adjLR
    rw [dif_neg (show ¬ (⟨768 + k.val, by omega⟩ : Fin 10000).val < 768 from by show ¬ 768 + k.val < 768; omega)]
    refine congrArg (fun z => AR (ix2 p z) * _) (Fin.ext ?_)
    show 768 + k.val - 768 = k.val
    omega

include hb0 hb1 hb3 in
/-- The strip of layer l and strip r before the bias, at (y, q): row 1000 r + y of (adj · h) · W_l. -/
theorem strip_value (l r : ℕ) (hl : l < 13) (hr : r < 10) (slab : S1x10000x128.Idx → EReal) (y : Fin 1000)
    (q : Fin 128) :
    stripAt (F := Ideal) V c (tOf l r) slab (ix2 y q)
      = ∑ j : Fin 128, (∑ k : Fin 10000, adjLR AL AR ⟨1000 * r + y.val, by omega⟩ k * slab (ix3 (0 : Fin 1) k j))
          * w13 W l j q := by
  unfold stripAt
  refine (pay4_value slab _ _ _ y q).trans ?_
  refine Finset.sum_congr rfl fun j _ => ?_
  refine congrArg₂ (· * ·) ?_ ?_
  · rw [adj_split AL AR ⟨1000 * r + y.val, by omega⟩ (fun k => slab (ix3 (0 : Fin 1) k j))]
    refine congrArg₂ (· + ·) (Finset.sum_congr rfl fun k _ => congrArg (· * _) ?_)
      (Finset.sum_congr rfl fun k _ => congrArg (· * _) ?_)
    · have hidx : (Rect.unit (s := S10000x768) (k1_off2 (grid1.coords (tOf l r))) S1000x768.size
          (k1_off2_inb (grid1.coords (tOf l r)))).toLoadRect.idx (ix2 y k)
          = ix2 (⟨1000 * r + y.val, by omega⟩ : Fin 10000) k := by
        funext a; refine Fin.ext ?_
        match a with
        | ⟨0, _⟩ =>
          show k1_off2 (grid1.coords (tOf l r)) 0 + 1 * y.val = 1000 * r + y.val
          rw [off2_eq]
          show 1000 * ((tOf l r).val % 10) + 1 * y.val = 1000 * r + y.val
          rw [tOf_mod l r hl hr]
          omega
        | ⟨1, _⟩ =>
          show k1_off2 (grid1.coords (tOf l r)) 1 + 1 * k.val = k.val
          rw [off2_eq]
          show 0 + 1 * k.val = k.val
          omega
      show (iblk1 (F := Ideal) V c 0 (tOf l r) : S10000x768.Idx → EReal) _ = _
      rw [hidx, hb0]
    · have hidx : (Rect.unit (s := S1000x9232) ![0, 0] S1000x9232.size inb_S1000x9232_S1000x9232_0_0).toLoadRect.idx
          (ix2 y k) = ix2 y k := by
        funext a; refine Fin.ext ?_
        match a with
        | ⟨0, _⟩ => show 0 + 1 * y.val = y.val; omega
        | ⟨1, _⟩ => show 0 + 1 * k.val = k.val; omega
      show (iblk1 (F := Ideal) V c 1 (tOf l r) : S1000x9232.Idx → EReal) _ = _
      rw [hidx, hb1 l r hl hr]
  · have hidx : (Rect.unit (s := S13x128x128) (k1_off3 (grid1.coords (tOf l r))) S1x128x128.size
        (k1_off3_inb (grid1.coords (tOf l r)))).toLoadRect.idx (ix3 (0 : Fin 1) j q) = ix3 (⟨l, hl⟩ : Fin 13) j q := by
      funext a; refine Fin.ext ?_
      match a with
      | ⟨0, _⟩ =>
        show k1_off3 (grid1.coords (tOf l r)) 0 + 1 * 0 = l
        rw [off3_eq]
        show (tOf l r).val / 10 + 1 * 0 = l
        rw [tOf_div l r hl hr]
        omega
      | ⟨1, _⟩ =>
        show k1_off3 (grid1.coords (tOf l r)) 1 + 1 * j.val = j.val
        rw [off3_eq]
        show 0 + 1 * j.val = j.val
        omega
      | ⟨2, _⟩ =>
        show k1_off3 (grid1.coords (tOf l r)) 2 + 1 * q.val = q.val
        rw [off3_eq]
        show 0 + 1 * q.val = q.val
        omega
    show (iblk1 (F := Ideal) V c 3 (tOf l r) : S13x128x128.Idx → EReal) _ = _
    rw [hidx, hb3]
    unfold w13
    rw [dif_pos hl]
end Strip

/-! ## The slabs are the iterates -/

section Slabs
variable (AL : S10000x768.Idx → EReal) (AR : S10000x9232.Idx → EReal) (H1 : S10000x128.Idx → EReal)
  (W : S13x128x128.Idx → EReal) (B : S13x128.Idx → EReal)
  (hb0 : ∀ (t : Fin cfg1.N) (p : Fin 10000) (k : Fin 768),
    (iblk1 (F := Ideal) V c 0 t : S10000x768.Idx → EReal) (ix2 p k) = AL (ix2 p k))
  (hb1 : ∀ (l r : ℕ) (hl : l < 13) (hr : r < 10) (y : Fin 1000) (k : Fin 9232),
    (iblk1 (F := Ideal) V c 1 (tOf l r) : S1000x9232.Idx → EReal) (ix2 y k)
      = AR (ix2 (⟨1000 * r + y.val, by omega⟩ : Fin 10000) k))
  (hb2 : ∀ (p : Fin 10000) (q : Fin 128),
    (iblk1 (F := Ideal) V c 2 (tOf 0 0) : S10000x128.Idx → EReal) (ix2 p q) = H1 (ix2 p q))
  (hb3 : ∀ (t : Fin cfg1.N) (l : Fin 13) (j q : Fin 128),
    (iblk1 (F := Ideal) V c 3 t : S13x128x128.Idx → EReal) (ix3 l j q) = W (ix3 l j q))
  (hb4 : ∀ (t : Fin cfg1.N) (l : Fin 13) (q : Fin 128),
    (iblk1 (F := Ideal) V c 4 t : S13x128.Idx → EReal) (ix2 l q) = B (ix2 l q))

include hb0 hb1 hb3 hb4 in
/-- The strip of layer l and strip r with its bias, at (y, q), is one layer of the slab's matrix at row 1000 r + y. -/
theorem point_value (l r : ℕ) (hl : l < 13) (hr : r < 10) (slab : S1x10000x128.Idx → EReal) (y : Fin 1000)
    (q : Fin 128) :
    k1_pay1 (F := Ideal) (stripAt (F := Ideal) V c (tOf l r) slab) (biasAt (F := Ideal) V c (tOf l r)) (ix2 y q)
      = layerK (adjLR AL AR) (w13 W l) (b13 B l) (fun k j => slab (ix3 (0 : Fin 1) k j))
          ⟨1000 * r + y.val, by omega⟩ q := by
  rw [pay1_value, strip_value V c AL AR W hb0 hb1 hb3 l r hl hr, bias_value V c B hb4 l r hl hr]
  rfl

include hb0 hb1 hb2 hb3 hb4 in
/-- The input slab of layer l, at (0, j, q), is the l-fold iterate of the layer map on the staged input. -/
theorem slab_value (l : ℕ) (hl : l ≤ 13) (j : Fin 10000) (q : Fin 128) :
    Slab (F := Ideal) V c l (ix3 (0 : Fin 1) j q) = gcnK (adjLR AL AR) (w13 W) (b13 B) (h1Of H1) l j q := by
  induction l generalizing j q with
  | zero => exact seed_value V c H1 hb2 j q
  | succ l ih =>
    have hl' : l < 13 := hl
    have hj : j.val < 10000 := j.isLt
    have hr : j.val / 1000 < 10 := by omega
    show k1_pay2 (F := Ideal) (stripAt (F := Ideal) V c (tOf l (j.val / 1000)) (Slab (F := Ideal) V c l))
        (biasAt (F := Ideal) V c (tOf l (j.val / 1000)))
        (ix3 (0 : Fin 1) (⟨j.val % 1000, Nat.mod_lt _ (by norm_num)⟩ : Fin 1000) q)
      = layerK (adjLR AL AR) (w13 W l) (b13 B l) (gcnK (adjLR AL AR) (w13 W) (b13 B) (h1Of H1) l) j q
    rw [pay2_value, point_value V c AL AR W B hb0 hb1 hb3 hb4 l (j.val / 1000) hl' hr]
    have hslab : (fun k j' => Slab (F := Ideal) V c l (ix3 (0 : Fin 1) k j'))
        = gcnK (adjLR AL AR) (w13 W) (b13 B) (h1Of H1) l :=
      funext fun k => funext fun j' => ih (by omega) k j'
    rw [hslab]
    refine congrArg (fun p => layerK (adjLR AL AR) (w13 W l) (b13 B l)
      (gcnK (adjLR AL AR) (w13 W) (b13 B) (h1Of H1) l) p q) (Fin.ext ?_)
    show 1000 * (j.val / 1000) + j.val % 1000 = j.val
    omega

include hb0 hb1 hb2 hb3 hb4 in
/-- What the last layer's point of strip r stores to the output block, at (y, q): the thirteen-fold iterate at row
    1000 r + y. -/
theorem out_value (r : ℕ) (hr : r < 10) (y : Fin 1000) (q : Fin 128) :
    k1_pay1 (F := Ideal) (stripAt (F := Ideal) V c (tOf 12 r) (Slab (F := Ideal) V c 12))
        (biasAt (F := Ideal) V c (tOf 12 r)) (ix2 y q)
      = gcnK (adjLR AL AR) (w13 W) (b13 B) (h1Of H1) 13 ⟨1000 * r + y.val, by omega⟩ q := by
  rw [point_value V c AL AR W B hb0 hb1 hb3 hb4 12 r (by norm_num) hr]
  have hslab : (fun k j' => Slab (F := Ideal) V c 12 (ix3 (0 : Fin 1) k j'))
      = gcnK (adjLR AL AR) (w13 W) (b13 B) (h1Of H1) 12 :=
    funext fun k => funext fun j' => slab_value V c AL AR H1 W B hb0 hb1 hb2 hb3 hb4 12 (by norm_num) k j'
  rw [hslab]
  rfl
end Slabs

end Cert.KernelIdeal.R1V
end
-- ==== Proof.Join.lean ====
/-
  The second kernel's iteration joined to the whole network's.

  The second kernel iterates thirteen layers on the first layer's result, with the adjacency matrix held as two
  column blocks and the weights and biases of layers 2 to 14 held as stacks of thirteen.  When those arrays are
  the corresponding parts of the network's inputs, and the staged first-layer result is the first layer of the
  input features, l layers of the second kernel's iteration are l + 1 layers of the network: the iteration with one
  more layer is the iteration of the later layers on the first layer's result, and an iterate to depth n reads only
  the first n weight matrices and bias rows.
-/
import proofs.«118626_g5102421148071_cont_8to1_c_1098_12_alg».proof.Proof.Spec
import proofs.«118626_g5102421148071_cont_8to1_c_1098_12_alg».proof.Proof.R1Value

noncomputable section

open scoped BigOperators

namespace Cert.GCN

open Idealize.ShloMosaic Idealize.ShloMosaic.ValueIdx Cert.KernelIdeal Cert.KernelIdeal.R1V

/-- The iterate to depth n reads only the first n weight matrices and bias rows. -/
theorem gcnK_congr {adj : Mat 10000 10000} {Ws Ws' : ℕ → Mat 128 128} {bs bs' : ℕ → Fin 128 → EReal}
    {x : Mat 10000 128} (n : ℕ) (hW : ∀ l, l < n → Ws l = Ws' l) (hb : ∀ l, l < n → bs l = bs' l) :
    gcnK adj Ws bs x n = gcnK adj Ws' bs' x n := by
  induction n with
  | zero => rfl
  | succ n ih =>
    show layerK adj (Ws n) (bs n) (gcnK adj Ws bs x n) = layerK adj (Ws' n) (bs' n) (gcnK adj Ws' bs' x n)
    rw [hW n (Nat.lt_succ_self n), hb n (Nat.lt_succ_self n),
      ih (fun l h => hW l (Nat.lt_succ_of_lt h)) (fun l h => hb l (Nat.lt_succ_of_lt h))]

variable (ADJ : (⟨2, ![10000, 10000]⟩ : Shape).Idx → EReal) (X : (⟨2, ![10000, 128]⟩ : Shape).Idx → EReal)
  (WS : (⟨3, ![14, 128, 128]⟩ : Shape).Idx → EReal) (BS : (⟨2, ![14, 128]⟩ : Shape).Idx → EReal)
  (AL : S10000x768.Idx → EReal) (AR : S10000x9232.Idx → EReal) (H1 : S10000x128.Idx → EReal)
  (W : S13x128x128.Idx → EReal) (B : S13x128.Idx → EReal)
  (hAL : ∀ (p : Fin 10000) (k : Fin 768), AL (ix2 p k) = ADJ (ix2 p ⟨k.val, by omega⟩))
  (hAR : ∀ (p : Fin 10000) (k : Fin 9232), AR (ix2 p k) = ADJ (ix2 p ⟨768 + k.val, by omega⟩))
  (hW : ∀ (l : Fin 13) (j q : Fin 128), W (ix3 l j q) = WS (ix3 (⟨l.val + 1, by omega⟩ : Fin 14) j q))
  (hB : ∀ (l : Fin 13) (q : Fin 128), B (ix2 l q) = BS (ix2 (⟨l.val + 1, by omega⟩ : Fin 14) q))
  (hH1 : ∀ (p : Fin 10000) (q : Fin 128), H1 (ix2 p q)
    = (∑ j : Fin 128, (∑ k : Fin 10000, ADJ (ix2 p k) * X (ix2 k j)) * WS (ix3 (0 : Fin 14) j q))
      + BS (ix2 (0 : Fin 14) q))

include hAL hAR in
/-- The two column blocks put side by side are the adjacency matrix. -/
theorem adjLR_eq : adjLR AL AR = adjOf ADJ := by
  funext p k
  unfold adjLR adjOf
  split
  · exact hAL p _
  · refine (hAR p _).trans (congrArg (fun z => ADJ (ix2 p z)) (Fin.ext ?_))
    show 768 + (k.val - 768) = k.val
    omega

include hW in
/-- The l-th of the thirteen weight matrices is the network's weight matrix of layer l + 2. -/
theorem w13_eq (l : ℕ) (hl : l < 13) : w13 W l = wOf WS (l + 1) := by
  funext j q
  unfold w13 wOf
  rw [dif_pos hl, dif_pos (show l + 1 < 14 by omega)]
  exact hW ⟨l, hl⟩ j q

include hB in
/-- The l-th of the thirteen bias rows is the network's bias of layer l + 2. -/
theorem b13_eq (l : ℕ) (hl : l < 13) : b13 B l = bOf BS (l + 1) := by
  funext q
  unfold b13 bOf
  rw [dif_pos hl, dif_pos (show l + 1 < 14 by omega)]
  exact hB ⟨l, hl⟩ q

include hH1 in
/-- The staged first-layer result is the first layer of the input features. -/
theorem h1Of_eq : h1Of H1 = layerK (adjOf ADJ) (wOf WS 0) (bOf BS 0) (matOf X) := by
  funext p q
  have hw : ∀ j : Fin 128, wOf WS 0 j q = WS (ix3 (0 : Fin 14) j q) := fun j =>
    (dif_pos (show (0 : ℕ) < 14 by norm_num)).trans rfl
  have hb : bOf BS 0 q = BS (ix2 (0 : Fin 14) q) := (dif_pos (show (0 : ℕ) < 14 by norm_num)).trans rfl
  show H1 (ix2 p q)
    = (∑ j : Fin 128, (∑ k : Fin 10000, ADJ (ix2 p k) * X (ix2 k j)) * wOf WS 0 j q) + bOf BS 0 q
  rw [hH1, hb]
  refine congrArg (· + _) (Finset.sum_congr rfl fun j _ => ?_)
  rw [hw]

include hAL hAR hW hB hH1 in
/-- l layers of the second kernel's iteration are l + 1 layers of the network, as matrices. -/
theorem join_mat (l : ℕ) (hl : l ≤ 13) :
    gcnK (adjLR AL AR) (w13 W) (b13 B) (h1Of H1) l = gcnK (adjOf ADJ) (wOf WS) (bOf BS) (matOf X) (l + 1) := by
  rw [gcnK_shift, adjLR_eq ADJ AL AR hAL hAR, h1Of_eq ADJ X WS BS H1 hH1]
  exact gcnK_congr l (fun i hi => w13_eq WS W hW i (by omega)) (fun i hi => b13_eq BS B hB i (by omega))

include hAL hAR hW hB hH1 in
/-- The same at an entry. -/
theorem join (l : ℕ) (hl : l ≤ 13) (p : Fin 10000) (q : Fin 128) :
    gcnK (adjLR AL AR) (w13 W) (b13 B) (h1Of H1) l p q
      = gcnK (adjOf ADJ) (wOf WS) (bOf BS) (matOf X) (l + 1) p q :=
  congrFun (congrFun (join_mat ADJ X WS BS AL AR H1 W B hAL hAR hW hB hH1 l hl) p) q

end Cert.GCN

end
-- ==== Proof.BridgeCore.lean ====
/-
  The result buffer read back through the four segments, over any boundary contents.

  The program runs a host stretch, the first kernel, a second host stretch and the second kernel.  The first host
  stretch takes the first weight matrix and bias row out of their stacks; the first kernel leaves the adjacency
  matrix as two column blocks and the first layer of the features; the second host stretch takes the remaining
  thirteen weight matrices and bias rows; the second kernel iterates thirteen layers on the first layer's result
  and leaves the last iterate in the result buffer.  Here the contents at the boundaries are any valuations related
  as the segments relate them; the result buffer at (p, q) is then the fourteen-fold iterate of the layer map
  (adjacency product first) on the four arguments.
-/
import proofs.«118626_g5102421148071_cont_8to1_c_1098_12_alg».proof.Proof.R1Out
import proofs.«118626_g5102421148071_cont_8to1_c_1098_12_alg».proof.Proof.R1Blocks
import proofs.«118626_g5102421148071_cont_8to1_c_1098_12_alg».proof.Proof.R0Value
import proofs.«118626_g5102421148071_cont_8to1_c_1098_12_alg».proof.Proof.HostValues
import proofs.«118626_g5102421148071_cont_8to1_c_1098_12_alg».proof.Proof.R1Value
import proofs.«118626_g5102421148071_cont_8to1_c_1098_12_alg».proof.Proof.Join

set_option maxRecDepth 16384

noncomputable section

open scoped BigOperators

namespace Cert.KernelIdeal.BridgeCore

open Cert.KernelIdeal Cert.KernelIdeal.Gen
open Idealize.ShloMosaic Idealize.ShloMosaic.TcCoe Idealize.ShloMosaic.ValueIdx Idealize.SL.Sem
open Cert.GCN Cert.KernelIdeal.R1V

variable (c : Dev nD)
  (V1 V3 : (c : Dev nD) → (b : Ref sig .tc) → Buf (Elt Ideal) ((c : Thread nD τ).loc b))
  (W0 W2 Wfin : Valuation τ sig (Elt Ideal))
  (A0 : S10000x128.Idx → EReal) (A1 : S10000x10000.Idx → EReal) (A2 : S14x128x128.Idx → EReal)
  (A3 : S14x128.Idx → EReal)
  (e60 : V3 c main_call0_v6_0 = (R0.dat0 V1 c).arrAt 4 cfg0.N)
  (e61 : V3 c main_call0_v6_1 = (R0.dat0 V1 c).arrAt 5 cfg0.N)
  (e62 : V3 c main_call0_v6_2 = (R0.dat0 V1 c).arrAt 6 cfg0.N)
  (e7 : V3 c main_call0_v7 = StableHlo.after (hostOps1 (F := Ideal)) W2 (Proc.devRef .tc main_call0_v7))
  (e8 : V3 c main_call0_v8 = StableHlo.after (hostOps1 (F := Ideal)) W2 (Proc.devRef .tc main_call0_v8))
  (e10 : V1 c main_call0_v0 = StableHlo.after (hostOps0 (F := Ideal)) W0 (Proc.devRef .tc main_call0_v0))
  (e12 : V1 c main_call0_v2 = StableHlo.after (hostOps0 (F := Ideal)) W0 (Proc.devRef .tc main_call0_v2))
  (e15 : V1 c main_call0_v5 = StableHlo.after (hostOps0 (F := Ideal)) W0 (Proc.devRef .tc main_call0_v5))
  (e11 : (V1 c main_arg1 : S10000x10000.Idx → EReal) = A1)
  (e00 : (W0 (Proc.devRef .tc main_arg0) : S10000x128.Idx → EReal) = A0)
  (e02 : (W0 (Proc.devRef .tc main_arg2) : S14x128x128.Idx → EReal) = A2)
  (e03 : (W0 (Proc.devRef .tc main_arg3) : S14x128.Idx → EReal) = A3)
  (e22 : (W2 (Proc.devRef .tc main_arg2) : S14x128x128.Idx → EReal) = A2)
  (e23 : (W2 (Proc.devRef .tc main_arg3) : S14x128.Idx → EReal) = A3)
  (efin : Wfin (Proc.devRef .tc main_v0) = (R1.dat1 V3 c).arrAt 5 cfg1.N)

/-! ## The second kernel's five input arrays, as typed arrays -/

/-- The adjacency's first 768 columns as the second kernel finds them. -/
abbrev AL : S10000x768.Idx → EReal := V3 c main_call0_v6_0
/-- The adjacency's remaining columns as the second kernel finds them. -/
abbrev AR : S10000x9232.Idx → EReal := V3 c main_call0_v6_1
/-- The first layer's result as the second kernel finds it. -/
abbrev H1 : S10000x128.Idx → EReal := V3 c main_call0_v6_2
/-- The thirteen later weight matrices as the second kernel finds them. -/
abbrev W13 : S13x128x128.Idx → EReal := V3 c main_call0_v7
/-- The thirteen later bias rows as the second kernel finds them. -/
abbrev B13 : S13x128.Idx → EReal := V3 c main_call0_v8

/-! ## The five reads -/

include e60 e11 in
theorem hAL (p : Fin 10000) (k : Fin 768) : AL c V3 (ix2 p k) = A1 (ix2 p ⟨k.val, by omega⟩) :=
  (congrFun e60 (ix2 p k)).trans ((R0.arr4 V1 c p k).trans (congrFun e11 _))

include e61 e11 in
theorem hAR (p : Fin 10000) (k : Fin 9232) : AR c V3 (ix2 p k) = A1 (ix2 p ⟨768 + k.val, by omega⟩) :=
  (congrFun e61 (ix2 p k)).trans ((R0.arr5 V1 c p k).trans (congrFun e11 _))

include e7 e22 in
theorem hW (l : Fin 13) (j q : Fin 128) : W13 c V3 (ix3 l j q) = A2 (ix3 (⟨l.val + 1, by omega⟩ : Fin 14) j q) :=
  (congrFun e7 (ix3 l j q)).trans ((HostV.v7 W2 l j q).trans (congrFun e22 _))

include e8 e23 in
theorem hB (l : Fin 13) (q : Fin 128) : B13 c V3 (ix2 l q) = A3 (ix2 (⟨l.val + 1, by omega⟩ : Fin 14) q) :=
  (congrFun e8 (ix2 l q)).trans ((HostV.v8 W2 l q).trans (congrFun e23 _))

include e62 e10 e12 e15 e11 e00 e02 e03 in
theorem hH1 (p : Fin 10000) (q : Fin 128) :
    H1 c V3 (ix2 p q)
      = (∑ j : Fin 128, (∑ k : Fin 10000, A1 (ix2 p k) * A0 (ix2 k j)) * A2 (ix3 (0 : Fin 14) j q))
        + A3 (ix2 (0 : Fin 14) q) := by
  refine (congrFun e62 (ix2 p q)).trans ?_
  refine (R0.arr6 V1 c p q).trans ?_
  unfold R0.layer0
  refine congrArg₂ (· + ·) (Finset.sum_congr rfl fun j _ => congrArg₂ (· * ·)
    (Finset.sum_congr rfl fun k _ => congrArg₂ (· * ·) (congrFun e11 _) ?_) ?_) ?_
  · exact (congrFun e10 (ix2 k j)).trans ((HostV.v0 W0 k j).trans (congrFun e00 _))
  · exact (congrFun e12 (ix2 j q)).trans ((HostV.v2 W0 j q).trans (congrFun e02 _))
  · exact (congrFun e15 (ix2 (0 : Fin 1) q)).trans ((HostV.v5 W0 q).trans (congrFun e03 _))

/-! ## The result buffer -/

include e60 e61 e62 e7 e8 e10 e12 e15 e11 e00 e02 e03 e22 e23 efin in
/-- The result buffer after the second kernel, at (p, q): fourteen layers of the four arguments. -/
theorem result_value (p : Fin 10000) (q : Fin 128) :
    (Wfin (Proc.devRef .tc main_v0) : S10000x128.Idx → EReal) (ix2 p q)
      = gcnK (adjOf A1) (wOf A2) (bOf A3) (matOf A0) 14 p q := by
  have hp : p.val < 10000 := p.isLt
  have hr : p.val / 1000 < 10 := by omega
  refine (congrFun efin (ix2 p q)).trans ?_
  refine (R1.arr_out V3 c p q).trans ?_
  refine (out_value V3 c (AL c V3) (AR c V3) (H1 c V3) (W13 c V3) (B13 c V3)
    (R1.hb0 V3 c) (R1.hb1 V3 c) (R1.hb2 V3 c) (R1.hb3 V3 c) (R1.hb4 V3 c) (p.val / 1000) hr
    (⟨p.val % 1000, Nat.mod_lt _ (by norm_num)⟩ : Fin 1000) q).trans ?_
  have hrow : (⟨1000 * (p.val / 1000) + p.val % 1000, by omega⟩ : Fin 10000) = p :=
    Fin.ext (by show 1000 * (p.val / 1000) + p.val % 1000 = p.val; omega)
  rw [hrow]
  exact join A1 A0 A2 A3 (AL c V3) (AR c V3) (H1 c V3) (W13 c V3) (B13 c V3)
    (hAL c V1 V3 A1 e60 e11) (hAR c V1 V3 A1 e61 e11) (hW c V3 W2 A2 e7 e22) (hB c V3 W2 A3 e8 e23)
    (hH1 c V1 V3 W0 A0 A1 A2 A3 e62 e10 e12 e15 e11 e00 e02 e03) 13 le_rfl p q

end Cert.KernelIdeal.BridgeCore

end
-- ==== Proof.Bridge.lean ====
/-
  The kernel's result, entry by entry, as fourteen layers of its inputs.

  The contents of the buffers at the four boundaries of the program's run are related as the segments relate them:
  the second kernel is entered with the first kernel's three outputs and the second host stretch's two slices, the
  first kernel with the first host stretch's results and the adjacency matrix as launched, and no segment before
  the second kernel writes the stacked weights or biases.  So the result buffer after the second kernel, at (p, q),
  is the fourteen-fold iterate of the layer map (adjacency product first) on the launch contents of the four
  arguments.
-/
import proofs.«118626_g5102421148071_cont_8to1_c_1098_12_alg».proof.Proof.KChain
import proofs.«118626_g5102421148071_cont_8to1_c_1098_12_alg».proof.Proof.BridgeCore

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem
open Cert.GCN

variable (m : (ℓ : Loc nD τ sig) → Buf (Elt Ideal) ℓ) (ρ : Dev nD → PrngReg) (c : Dev nD)

/-- The result buffer after the second kernel, at (p, q): fourteen layers of the launch contents of the arguments. -/
theorem kernel_value (p : Fin 10000) (q : Fin 128) :
    (KRun.W4 (F := Ideal) m ρ c (Proc.devRef .tc main_v0) : S10000x128.Idx → EReal) (ix2 p q)
      = gcnK (adjOf (m ((c : Thread nD τ).loc main_arg1))) (wOf (m ((c : Thread nD τ).loc main_arg2)))
          (bOf (m ((c : Thread nD τ).loc main_arg3))) (matOf (m ((c : Thread nD τ).loc main_arg0))) 14 p q :=
  BridgeCore.result_value c (KRun.V1 (F := Ideal) m ρ) (KRun.V3 (F := Ideal) m ρ) (KRun.W0 (F := Ideal) m ρ c)
    (KRun.W2 (F := Ideal) m ρ c) (KRun.W4 (F := Ideal) m ρ c)
    (m ((c : Thread nD τ).loc main_arg0)) (m ((c : Thread nD τ).loc main_arg1))
    (m ((c : Thread nD τ).loc main_arg2)) (m ((c : Thread nD τ).loc main_arg3))
    (KRun.V3_main_call0_v6_0 m ρ c) (KRun.V3_main_call0_v6_1 m ρ c) (KRun.V3_main_call0_v6_2 m ρ c)
    rfl rfl rfl rfl rfl (KRun.V1_main_arg1 m ρ c) rfl rfl rfl (KRun.W2_main_arg2 m ρ c) (KRun.W2_main_arg3 m ρ c)
    (KRun.W4_main_v0 m ρ c) p q

end Cert.KernelIdeal.Bridge

end
-- ==== Proof.RefSpec.lean ====
/-
  The reference's fourteen layers read at an entry.

  The reference computes, fourteen times, h ← adj · (h · W_l) + b_l, each layer as nine array operations: the
  l-th weight matrix sliced out of the stack and reshaped, the product h · W_l, the product adj · (h · W_l), the
  l-th bias row sliced out, reshaped and broadcast twice, and the sum.  Read at the entry (p, q), the stage after
  layer l + 1 is (∑ k, adj(p,k) · ∑ j, h(k,j) · W_l(j,q)) + b_l(q) of the stage h after layer l; chaining the
  fourteen gives the fourteen-fold iterate of that map on the input.
-/
import proofs.«118626_g5102421148071_cont_8to1_c_1098_12_alg».proof.Proof.Gen.ReferenceIdeal.Read
import proofs.«118626_g5102421148071_cont_8to1_c_1098_12_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.GCN

/-! ## The index maps of one layer's operations, named once -/

/-- The entry of the 1 × 128 × 128 slice that the reshape to 128 × 128 reads. -/
abbrev iW (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩

/-- The entry of the 1 × 128 bias slice that the reshape to 128 reads. -/
abbrev iB5 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩

/-- The entry of the bias vector that its broadcast to 1 × 128 reads. -/
abbrev iB6 (i : S1x128.Idx) : S128.Idx := fun a => match a with
  | ⟨0, _⟩ => ⟨(i 1).val, (i 1).isLt⟩

/-- The entry of the 1 × 128 bias row that its broadcast to 10000 × 128 reads. -/
abbrev iB7 (i : S10000x128.Idx) : S1x128.Idx := fun a => match a with
  | ⟨0, _⟩ => ⟨0, Nat.one_pos⟩
  | ⟨1, _⟩ => ⟨(i 1).val, (i 1).isLt⟩

/-- Row p of the features against index k: the left operand's entry in h · W. -/
abbrev lA (i : S10000x128.Idx) (k : Fin 128) : S10000x128.Idx := fun a => match a with
  | ⟨0, _⟩ => ⟨(i 0).val, (i 0).isLt⟩
  | ⟨1, _⟩ => ⟨k.val, k.isLt⟩

/-- The right operand's entry in h · W. -/
abbrev rA (i : S10000x128.Idx) (k : Fin 128) : S128x128.Idx := fun a => match a with
  | ⟨0, _⟩ => ⟨k.val, k.isLt⟩
  | ⟨1, _⟩ => ⟨(i 1).val, (i 1).isLt⟩

/-- The left operand's entry in adj · (h · W). -/
abbrev lB (i : S10000x128.Idx) (k : Fin 10000) : S10000x10000.Idx := fun a => match a with
  | ⟨0, _⟩ => ⟨(i 0).val, (i 0).isLt⟩
  | ⟨1, _⟩ => ⟨k.val, k.isLt⟩

/-- The right operand's entry in adj · (h · W). -/
abbrev rB (i : S10000x128.Idx) (k : Fin 10000) : S10000x128.Idx := fun a => match a with
  | ⟨0, _⟩ => ⟨k.val, k.isLt⟩
  | ⟨1, _⟩ => ⟨(i 1).val, (i 1).isLt⟩

theorem lA_ix2 (p : Fin 10000) (q j : Fin 128) : lA (ix2 p q) j = ix2 p j := by
  funext a; match a with | ⟨0, _⟩ => rfl | ⟨1, _⟩ => rfl
theorem rA_ix2 (p : Fin 10000) (q j : Fin 128) : rA (ix2 p q) j = ix2 j q := by
  funext a; match a with | ⟨0, _⟩ => rfl | ⟨1, _⟩ => rfl
theorem lB_ix2 (p : Fin 10000) (q : Fin 128) (k : Fin 10000) : lB (ix2 p q) k = ix2 p k := by
  funext a; match a with | ⟨0, _⟩ => rfl | ⟨1, _⟩ => rfl
theorem rB_ix2 (p : Fin 10000) (q : Fin 128) (k : Fin 10000) : rB (ix2 p q) k = ix2 k q := by
  funext a; match a with | ⟨0, _⟩ => rfl | ⟨1, _⟩ => rfl

/-- Row-major position j · 128 + q splits back into (j, q). -/
theorem split_128 (j q : Fin 128) :
    (j.val * 128 + q.val) / 128 % 128 = j.val ∧ (j.val * 128 + q.val) % 128 = q.val := by
  have hj : j.val < 128 := j.isLt
  have hq : q.val < 128 := q.isLt
  omega

/-! ## One layer's three reads, for any slice position -/

/-- The sliced and reshaped weights at (j, q) are the l-th weight matrix at (j, q). -/
theorem wread (x2 : S14x128x128.Idx → EReal) (l : ℕ) (hl : l < 14) (sl : S1x128x128.Idx → S14x128x128.Idx)
    (hs0 : ∀ i, (sl i ⟨0, by decide⟩).val = l + (i ⟨0, by decide⟩).val)
    (hs1 : ∀ i, (sl i ⟨1, by decide⟩).val = (i ⟨1, by decide⟩).val)
    (hs2 : ∀ i, (sl i ⟨2, by decide⟩).val = (i ⟨2, by decide⟩).val) (j q : Fin 128) :
    x2 (sl (iW (ix2 j q))) = wOf x2 l j q := by
  unfold wOf
  rw [dif_pos hl]
  refine congrArg x2 (funext fun a => Fin.ext ?_)
  match a with
  | ⟨0, _⟩ => exact (hs0 _).trans (Nat.add_zero l)
  | ⟨1, _⟩ => exact (hs1 _).trans (split_128 j q).1
  | ⟨2, _⟩ => exact (hs2 _).trans (split_128 j q).2

/-- The sliced, reshaped and twice broadcast bias at (p, q) is the l-th bias at q. -/
theorem bread (x3 : S14x128.Idx → EReal) (l : ℕ) (hl : l < 14) (sl : S1x128.Idx → S14x128.Idx)
    (hs0 : ∀ i, (sl i ⟨0, by decide⟩).val = l + (i ⟨0, by decide⟩).val)
    (hs1 : ∀ i, (sl i ⟨1, by decide⟩).val = (i ⟨1, by decide⟩).val) (p : Fin 10000) (q : Fin 128) :
    x3 (sl (iB5 (iB6 (iB7 (ix2 p q))))) = bOf x3 l q := by
  unfold bOf
  rw [dif_pos hl]
  refine congrArg x3 (funext fun a => Fin.ext ?_)
  match a with
  | ⟨0, _⟩ => exact (hs0 _).trans (Nat.add_zero l)
  | ⟨1, _⟩ => exact (hs1 _).trans (Nat.mod_eq_of_lt q.isLt)

/-- One layer at an entry: from the reads of its two products, its sum, its weights and its bias. -/
theorem layer_read (adj : S10000x10000.Idx → EReal) (hprev v2 v3 bv v8 : S10000x128.Idx → EReal)
    (Wm : S128x128.Idx → EReal) (W : Mat 128 128) (b : Fin 128 → EReal)
    (h2 : ∀ i, v2 i = ∑ k : Fin 128, hprev (lA i k) * Wm (rA i k))
    (h3 : ∀ i, v3 i = ∑ k : Fin 10000, adj (lB i k) * v2 (rB i k))
    (h8 : ∀ i, v8 i = v3 i + bv i)
    (hW : ∀ j q, Wm (ix2 j q) = W j q) (hb : ∀ p q, bv (ix2 p q) = b q) :
    matOf v8 = layerR (adjOf adj) W b (matOf hprev) := by
  funext p q
  show v8 (ix2 p q) = (∑ k : Fin 10000, adj (ix2 p k) * (∑ j : Fin 128, hprev (ix2 k j) * W j q)) + b q
  rw [h8, hb, h3]
  refine congrArg (· + b q) (Finset.sum_congr rfl fun k _ => ?_)
  rw [lB_ix2, rB_ix2, h2]
  refine congrArg (adj (ix2 p k) * ·) (Finset.sum_congr rfl fun j _ => ?_)
  rw [lA_ix2, rA_ix2, hW]

/-! ## The fourteen layers -/

/-- Layer 1 at an entry. -/
theorem layer_0 (x0 : FVec Ideal S10000x128 .f32) (x1 : FVec Ideal S10000x10000 .f32) (x2 : FVec Ideal S14x128x128 .f32)
    (x3 : FVec Ideal S14x128 .f32) :
    matOf (val_main_v8 (F := Ideal) x0 x1 x2 x3) = layerR (adjOf x1) (wOf x2 0) (bOf x3 0) (matOf x0) :=
  layer_read x1 x0 (val_main_v2 (F := Ideal) x0 x2) (val_main_v3 (F := Ideal) x0 x1 x2) (val_main_v7 (F := Ideal) x3) (val_main_v8 (F := Ideal) x0 x1 x2 x3)
    (val_main_v1 (F := Ideal) x2) (wOf x2 0) (bOf x3 0)
    (val_main_v2_apply x0 x2) (val_main_v3_apply x0 x1 x2) (fun _ => rfl)
    (fun j q => (val_main_v1_apply (F := Ideal) x2 _).trans ((val_main_v0_apply (F := Ideal) x2 _).trans
      (wread x2 0 (by decide) idx_main_v0 (fun _ => (Nat.zero_add _).symm) (fun _ => rfl) (fun _ => rfl) j q)))
    (fun p q => (val_main_v7_apply (F := Ideal) x3 (ix2 p q)).trans ((val_main_v6_apply (F := Ideal) x3 _).trans
      ((val_main_v5_apply (F := Ideal) x3 _).trans ((val_main_v4_apply (F := Ideal) x3 _).trans
        (bread x3 0 (by decide) idx_main_v4 (fun _ => (Nat.zero_add _).symm) (fun _ => rfl) p q)))))

/-- Layer 2 at an entry. -/
theorem layer_1 (x0 : FVec Ideal S10000x128 .f32) (x1 : FVec Ideal S10000x10000 .f32) (x2 : FVec Ideal S14x128x128 .f32)
    (x3 : FVec Ideal S14x128 .f32) :
    matOf (val_main_v17 (F := Ideal) x0 x1 x2 x3) = layerR (adjOf x1) (wOf x2 1) (bOf x3 1) (matOf (val_main_v8 (F := Ideal) x0 x1 x2 x3)) :=
  layer_read x1 (val_main_v8 (F := Ideal) x0 x1 x2 x3) (val_main_v11 (F := Ideal) x0 x1 x2 x3) (val_main_v12 (F := Ideal) x0 x1 x2 x3) (val_main_v16 (F := Ideal) x3) (val_main_v17 (F := Ideal) x0 x1 x2 x3)
    (val_main_v10 (F := Ideal) x2) (wOf x2 1) (bOf x3 1)
    (val_main_v11_apply x0 x1 x2 x3) (val_main_v12_apply x0 x1 x2 x3) (fun _ => rfl)
    (fun j q => (val_main_v10_apply (F := Ideal) x2 _).trans ((val_main_v9_apply (F := Ideal) x2 _).trans
      (wread x2 1 (by decide) idx_main_v9 (fun _ => rfl) (fun _ => rfl) (fun _ => rfl) j q)))
    (fun p q => (val_main_v16_apply (F := Ideal) x3 (ix2 p q)).trans ((val_main_v15_apply (F := Ideal) x3 _).trans
      ((val_main_v14_apply (F := Ideal) x3 _).trans ((val_main_v13_apply (F := Ideal) x3 _).trans
        (bread x3 1 (by decide) idx_main_v13 (fun _ => rfl) (fun _ => rfl) p q)))))

/-- Layer 3 at an entry. -/
theorem layer_2 (x0 : FVec Ideal S10000x128 .f32) (x1 : FVec Ideal S10000x10000 .f32) (x2 : FVec Ideal S14x128x128 .f32)
    (x3 : FVec Ideal S14x128 .f32) :
    matOf (val_main_v26 (F := Ideal) x0 x1 x2 x3) = layerR (adjOf x1) (wOf x2 2) (bOf x3 2) (matOf (val_main_v17 (F := Ideal) x0 x1 x2 x3)) :=
  layer_read x1 (val_main_v17 (F := Ideal) x0 x1 x2 x3) (val_main_v20 (F := Ideal) x0 x1 x2 x3) (val_main_v21 (F := Ideal) x0 x1 x2 x3) (val_main_v25 (F := Ideal) x3) (val_main_v26 (F := Ideal) x0 x1 x2 x3)
    (val_main_v19 (F := Ideal) x2) (wOf x2 2) (bOf x3 2)
    (val_main_v20_apply x0 x1 x2 x3) (val_main_v21_apply x0 x1 x2 x3) (fun _ => rfl)
    (fun j q => (val_main_v19_apply (F := Ideal) x2 _).trans ((val_main_v18_apply (F := Ideal) x2 _).trans
      (wread x2 2 (by decide) idx_main_v18 (fun _ => rfl) (fun _ => rfl) (fun _ => rfl) j q)))
    (fun p q => (val_main_v25_apply (F := Ideal) x3 (ix2 p q)).trans ((val_main_v24_apply (F := Ideal) x3 _).trans
      ((val_main_v23_apply (F := Ideal) x3 _).trans ((val_main_v22_apply (F := Ideal) x3 _).trans
        (bread x3 2 (by decide) idx_main_v22 (fun _ => rfl) (fun _ => rfl) p q)))))

/-- Layer 4 at an entry. -/
theorem layer_3 (x0 : FVec Ideal S10000x128 .f32) (x1 : FVec Ideal S10000x10000 .f32) (x2 : FVec Ideal S14x128x128 .f32)
    (x3 : FVec Ideal S14x128 .f32) :
    matOf (val_main_v35 (F := Ideal) x0 x1 x2 x3) = layerR (adjOf x1) (wOf x2 3) (bOf x3 3) (matOf (val_main_v26 (F := Ideal) x0 x1 x2 x3)) :=
  layer_read x1 (val_main_v26 (F := Ideal) x0 x1 x2 x3) (val_main_v29 (F := Ideal) x0 x1 x2 x3) (val_main_v30 (F := Ideal) x0 x1 x2 x3) (val_main_v34 (F := Ideal) x3) (val_main_v35 (F := Ideal) x0 x1 x2 x3)
    (val_main_v28 (F := Ideal) x2) (wOf x2 3) (bOf x3 3)
    (val_main_v29_apply x0 x1 x2 x3) (val_main_v30_apply x0 x1 x2 x3) (fun _ => rfl)
    (fun j q => (val_main_v28_apply (F := Ideal) x2 _).trans ((val_main_v27_apply (F := Ideal) x2 _).trans
      (wread x2 3 (by decide) idx_main_v27 (fun _ => rfl) (fun _ => rfl) (fun _ => rfl) j q)))
    (fun p q => (val_main_v34_apply (F := Ideal) x3 (ix2 p q)).trans ((val_main_v33_apply (F := Ideal) x3 _).trans
      ((val_main_v32_apply (F := Ideal) x3 _).trans ((val_main_v31_apply (F := Ideal) x3 _).trans
        (bread x3 3 (by decide) idx_main_v31 (fun _ => rfl) (fun _ => rfl) p q)))))

/-- Layer 5 at an entry. -/
theorem layer_4 (x0 : FVec Ideal S10000x128 .f32) (x1 : FVec Ideal S10000x10000 .f32) (x2 : FVec Ideal S14x128x128 .f32)
    (x3 : FVec Ideal S14x128 .f32) :
    matOf (val_main_v44 (F := Ideal) x0 x1 x2 x3) = layerR (adjOf x1) (wOf x2 4) (bOf x3 4) (matOf (val_main_v35 (F := Ideal) x0 x1 x2 x3)) :=
  layer_read x1 (val_main_v35 (F := Ideal) x0 x1 x2 x3) (val_main_v38 (F := Ideal) x0 x1 x2 x3) (val_main_v39 (F := Ideal) x0 x1 x2 x3) (val_main_v43 (F := Ideal) x3) (val_main_v44 (F := Ideal) x0 x1 x2 x3)
    (val_main_v37 (F := Ideal) x2) (wOf x2 4) (bOf x3 4)
    (val_main_v38_apply x0 x1 x2 x3) (val_main_v39_apply x0 x1 x2 x3) (fun _ => rfl)
    (fun j q => (val_main_v37_apply (F := Ideal) x2 _).trans ((val_main_v36_apply (F := Ideal) x2 _).trans
      (wread x2 4 (by decide) idx_main_v36 (fun _ => rfl) (fun _ => rfl) (fun _ => rfl) j q)))
    (fun p q => (val_main_v43_apply (F := Ideal) x3 (ix2 p q)).trans ((val_main_v42_apply (F := Ideal) x3 _).trans
      ((val_main_v41_apply (F := Ideal) x3 _).trans ((val_main_v40_apply (F := Ideal) x3 _).trans
        (bread x3 4 (by decide) idx_main_v40 (fun _ => rfl) (fun _ => rfl) p q)))))

/-- Layer 6 at an entry. -/
theorem layer_5 (x0 : FVec Ideal S10000x128 .f32) (x1 : FVec Ideal S10000x10000 .f32) (x2 : FVec Ideal S14x128x128 .f32)
    (x3 : FVec Ideal S14x128 .f32) :
    matOf (val_main_v53 (F := Ideal) x0 x1 x2 x3) = layerR (adjOf x1) (wOf x2 5) (bOf x3 5) (matOf (val_main_v44 (F := Ideal) x0 x1 x2 x3)) :=
  layer_read x1 (val_main_v44 (F := Ideal) x0 x1 x2 x3) (val_main_v47 (F := Ideal) x0 x1 x2 x3) (val_main_v48 (F := Ideal) x0 x1 x2 x3) (val_main_v52 (F := Ideal) x3) (val_main_v53 (F := Ideal) x0 x1 x2 x3)
    (val_main_v46 (F := Ideal) x2) (wOf x2 5) (bOf x3 5)
    (val_main_v47_apply x0 x1 x2 x3) (val_main_v48_apply x0 x1 x2 x3) (fun _ => rfl)
    (fun j q => (val_main_v46_apply (F := Ideal) x2 _).trans ((val_main_v45_apply (F := Ideal) x2 _).trans
      (wread x2 5 (by decide) idx_main_v45 (fun _ => rfl) (fun _ => rfl) (fun _ => rfl) j q)))
    (fun p q => (val_main_v52_apply (F := Ideal) x3 (ix2 p q)).trans ((val_main_v51_apply (F := Ideal) x3 _).trans
      ((val_main_v50_apply (F := Ideal) x3 _).trans ((val_main_v49_apply (F := Ideal) x3 _).trans
        (bread x3 5 (by decide) idx_main_v49 (fun _ => rfl) (fun _ => rfl) p q)))))

/-- Layer 7 at an entry. -/
theorem layer_6 (x0 : FVec Ideal S10000x128 .f32) (x1 : FVec Ideal S10000x10000 .f32) (x2 : FVec Ideal S14x128x128 .f32)
    (x3 : FVec Ideal S14x128 .f32) :
    matOf (val_main_v62 (F := Ideal) x0 x1 x2 x3) = layerR (adjOf x1) (wOf x2 6) (bOf x3 6) (matOf (val_main_v53 (F := Ideal) x0 x1 x2 x3)) :=
  layer_read x1 (val_main_v53 (F := Ideal) x0 x1 x2 x3) (val_main_v56 (F := Ideal) x0 x1 x2 x3) (val_main_v57 (F := Ideal) x0 x1 x2 x3) (val_main_v61 (F := Ideal) x3) (val_main_v62 (F := Ideal) x0 x1 x2 x3)
    (val_main_v55 (F := Ideal) x2) (wOf x2 6) (bOf x3 6)
    (val_main_v56_apply x0 x1 x2 x3) (val_main_v57_apply x0 x1 x2 x3) (fun _ => rfl)
    (fun j q => (val_main_v55_apply (F := Ideal) x2 _).trans ((val_main_v54_apply (F := Ideal) x2 _).trans
      (wread x2 6 (by decide) idx_main_v54 (fun _ => rfl) (fun _ => rfl) (fun _ => rfl) j q)))
    (fun p q => (val_main_v61_apply (F := Ideal) x3 (ix2 p q)).trans ((val_main_v60_apply (F := Ideal) x3 _).trans
      ((val_main_v59_apply (F := Ideal) x3 _).trans ((val_main_v58_apply (F := Ideal) x3 _).trans
        (bread x3 6 (by decide) idx_main_v58 (fun _ => rfl) (fun _ => rfl) p q)))))

/-- Layer 8 at an entry. -/
theorem layer_7 (x0 : FVec Ideal S10000x128 .f32) (x1 : FVec Ideal S10000x10000 .f32) (x2 : FVec Ideal S14x128x128 .f32)
    (x3 : FVec Ideal S14x128 .f32) :
    matOf (val_main_v71 (F := Ideal) x0 x1 x2 x3) = layerR (adjOf x1) (wOf x2 7) (bOf x3 7) (matOf (val_main_v62 (F := Ideal) x0 x1 x2 x3)) :=
  layer_read x1 (val_main_v62 (F := Ideal) x0 x1 x2 x3) (val_main_v65 (F := Ideal) x0 x1 x2 x3) (val_main_v66 (F := Ideal) x0 x1 x2 x3) (val_main_v70 (F := Ideal) x3) (val_main_v71 (F := Ideal) x0 x1 x2 x3)
    (val_main_v64 (F := Ideal) x2) (wOf x2 7) (bOf x3 7)
    (val_main_v65_apply x0 x1 x2 x3) (val_main_v66_apply x0 x1 x2 x3) (fun _ => rfl)
    (fun j q => (val_main_v64_apply (F := Ideal) x2 _).trans ((val_main_v63_apply (F := Ideal) x2 _).trans
      (wread x2 7 (by decide) idx_main_v63 (fun _ => rfl) (fun _ => rfl) (fun _ => rfl) j q)))
    (fun p q => (val_main_v70_apply (F := Ideal) x3 (ix2 p q)).trans ((val_main_v69_apply (F := Ideal) x3 _).trans
      ((val_main_v68_apply (F := Ideal) x3 _).trans ((val_main_v67_apply (F := Ideal) x3 _).trans
        (bread x3 7 (by decide) idx_main_v67 (fun _ => rfl) (fun _ => rfl) p q)))))

/-- Layer 9 at an entry. -/
theorem layer_8 (x0 : FVec Ideal S10000x128 .f32) (x1 : FVec Ideal S10000x10000 .f32) (x2 : FVec Ideal S14x128x128 .f32)
    (x3 : FVec Ideal S14x128 .f32) :
    matOf (val_main_v80 (F := Ideal) x0 x1 x2 x3) = layerR (adjOf x1) (wOf x2 8) (bOf x3 8) (matOf (val_main_v71 (F := Ideal) x0 x1 x2 x3)) :=
  layer_read x1 (val_main_v71 (F := Ideal) x0 x1 x2 x3) (val_main_v74 (F := Ideal) x0 x1 x2 x3) (val_main_v75 (F := Ideal) x0 x1 x2 x3) (val_main_v79 (F := Ideal) x3) (val_main_v80 (F := Ideal) x0 x1 x2 x3)
    (val_main_v73 (F := Ideal) x2) (wOf x2 8) (bOf x3 8)
    (val_main_v74_apply x0 x1 x2 x3) (val_main_v75_apply x0 x1 x2 x3) (fun _ => rfl)
    (fun j q => (val_main_v73_apply (F := Ideal) x2 _).trans ((val_main_v72_apply (F := Ideal) x2 _).trans
      (wread x2 8 (by decide) idx_main_v72 (fun _ => rfl) (fun _ => rfl) (fun _ => rfl) j q)))
    (fun p q => (val_main_v79_apply (F := Ideal) x3 (ix2 p q)).trans ((val_main_v78_apply (F := Ideal) x3 _).trans
      ((val_main_v77_apply (F := Ideal) x3 _).trans ((val_main_v76_apply (F := Ideal) x3 _).trans
        (bread x3 8 (by decide) idx_main_v76 (fun _ => rfl) (fun _ => rfl) p q)))))

/-- Layer 10 at an entry. -/
theorem layer_9 (x0 : FVec Ideal S10000x128 .f32) (x1 : FVec Ideal S10000x10000 .f32) (x2 : FVec Ideal S14x128x128 .f32)
    (x3 : FVec Ideal S14x128 .f32) :
    matOf (val_main_v89 (F := Ideal) x0 x1 x2 x3) = layerR (adjOf x1) (wOf x2 9) (bOf x3 9) (matOf (val_main_v80 (F := Ideal) x0 x1 x2 x3)) :=
  layer_read x1 (val_main_v80 (F := Ideal) x0 x1 x2 x3) (val_main_v83 (F := Ideal) x0 x1 x2 x3) (val_main_v84 (F := Ideal) x0 x1 x2 x3) (val_main_v88 (F := Ideal) x3) (val_main_v89 (F := Ideal) x0 x1 x2 x3)
    (val_main_v82 (F := Ideal) x2) (wOf x2 9) (bOf x3 9)
    (val_main_v83_apply x0 x1 x2 x3) (val_main_v84_apply x0 x1 x2 x3) (fun _ => rfl)
    (fun j q => (val_main_v82_apply (F := Ideal) x2 _).trans ((val_main_v81_apply (F := Ideal) x2 _).trans
      (wread x2 9 (by decide) idx_main_v81 (fun _ => rfl) (fun _ => rfl) (fun _ => rfl) j q)))
    (fun p q => (val_main_v88_apply (F := Ideal) x3 (ix2 p q)).trans ((val_main_v87_apply (F := Ideal) x3 _).trans
      ((val_main_v86_apply (F := Ideal) x3 _).trans ((val_main_v85_apply (F := Ideal) x3 _).trans
        (bread x3 9 (by decide) idx_main_v85 (fun _ => rfl) (fun _ => rfl) p q)))))

/-- Layer 11 at an entry. -/
theorem layer_10 (x0 : FVec Ideal S10000x128 .f32) (x1 : FVec Ideal S10000x10000 .f32) (x2 : FVec Ideal S14x128x128 .f32)
    (x3 : FVec Ideal S14x128 .f32) :
    matOf (val_main_v98 (F := Ideal) x0 x1 x2 x3) = layerR (adjOf x1) (wOf x2 10) (bOf x3 10) (matOf (val_main_v89 (F := Ideal) x0 x1 x2 x3)) :=
  layer_read x1 (val_main_v89 (F := Ideal) x0 x1 x2 x3) (val_main_v92 (F := Ideal) x0 x1 x2 x3) (val_main_v93 (F := Ideal) x0 x1 x2 x3) (val_main_v97 (F := Ideal) x3) (val_main_v98 (F := Ideal) x0 x1 x2 x3)
    (val_main_v91 (F := Ideal) x2) (wOf x2 10) (bOf x3 10)
    (val_main_v92_apply x0 x1 x2 x3) (val_main_v93_apply x0 x1 x2 x3) (fun _ => rfl)
    (fun j q => (val_main_v91_apply (F := Ideal) x2 _).trans ((val_main_v90_apply (F := Ideal) x2 _).trans
      (wread x2 10 (by decide) idx_main_v90 (fun _ => rfl) (fun _ => rfl) (fun _ => rfl) j q)))
    (fun p q => (val_main_v97_apply (F := Ideal) x3 (ix2 p q)).trans ((val_main_v96_apply (F := Ideal) x3 _).trans
      ((val_main_v95_apply (F := Ideal) x3 _).trans ((val_main_v94_apply (F := Ideal) x3 _).trans
        (bread x3 10 (by decide) idx_main_v94 (fun _ => rfl) (fun _ => rfl) p q)))))

/-- Layer 12 at an entry. -/
theorem layer_11 (x0 : FVec Ideal S10000x128 .f32) (x1 : FVec Ideal S10000x10000 .f32) (x2 : FVec Ideal S14x128x128 .f32)
    (x3 : FVec Ideal S14x128 .f32) :
    matOf (val_main_v107 (F := Ideal) x0 x1 x2 x3) = layerR (adjOf x1) (wOf x2 11) (bOf x3 11) (matOf (val_main_v98 (F := Ideal) x0 x1 x2 x3)) :=
  layer_read x1 (val_main_v98 (F := Ideal) x0 x1 x2 x3) (val_main_v101 (F := Ideal) x0 x1 x2 x3) (val_main_v102 (F := Ideal) x0 x1 x2 x3) (val_main_v106 (F := Ideal) x3) (val_main_v107 (F := Ideal) x0 x1 x2 x3)
    (val_main_v100 (F := Ideal) x2) (wOf x2 11) (bOf x3 11)
    (val_main_v101_apply x0 x1 x2 x3) (val_main_v102_apply x0 x1 x2 x3) (fun _ => rfl)
    (fun j q => (val_main_v100_apply (F := Ideal) x2 _).trans ((val_main_v99_apply (F := Ideal) x2 _).trans
      (wread x2 11 (by decide) idx_main_v99 (fun _ => rfl) (fun _ => rfl) (fun _ => rfl) j q)))
    (fun p q => (val_main_v106_apply (F := Ideal) x3 (ix2 p q)).trans ((val_main_v105_apply (F := Ideal) x3 _).trans
      ((val_main_v104_apply (F := Ideal) x3 _).trans ((val_main_v103_apply (F := Ideal) x3 _).trans
        (bread x3 11 (by decide) idx_main_v103 (fun _ => rfl) (fun _ => rfl) p q)))))

/-- Layer 13 at an entry. -/
theorem layer_12 (x0 : FVec Ideal S10000x128 .f32) (x1 : FVec Ideal S10000x10000 .f32) (x2 : FVec Ideal S14x128x128 .f32)
    (x3 : FVec Ideal S14x128 .f32) :
    matOf (val_main_v116 (F := Ideal) x0 x1 x2 x3) = layerR (adjOf x1) (wOf x2 12) (bOf x3 12) (matOf (val_main_v107 (F := Ideal) x0 x1 x2 x3)) :=
  layer_read x1 (val_main_v107 (F := Ideal) x0 x1 x2 x3) (val_main_v110 (F := Ideal) x0 x1 x2 x3) (val_main_v111 (F := Ideal) x0 x1 x2 x3) (val_main_v115 (F := Ideal) x3) (val_main_v116 (F := Ideal) x0 x1 x2 x3)
    (val_main_v109 (F := Ideal) x2) (wOf x2 12) (bOf x3 12)
    (val_main_v110_apply x0 x1 x2 x3) (val_main_v111_apply x0 x1 x2 x3) (fun _ => rfl)
    (fun j q => (val_main_v109_apply (F := Ideal) x2 _).trans ((val_main_v108_apply (F := Ideal) x2 _).trans
      (wread x2 12 (by decide) idx_main_v108 (fun _ => rfl) (fun _ => rfl) (fun _ => rfl) j q)))
    (fun p q => (val_main_v115_apply (F := Ideal) x3 (ix2 p q)).trans ((val_main_v114_apply (F := Ideal) x3 _).trans
      ((val_main_v113_apply (F := Ideal) x3 _).trans ((val_main_v112_apply (F := Ideal) x3 _).trans
        (bread x3 12 (by decide) idx_main_v112 (fun _ => rfl) (fun _ => rfl) p q)))))

/-- Layer 14 at an entry. -/
theorem layer_13 (x0 : FVec Ideal S10000x128 .f32) (x1 : FVec Ideal S10000x10000 .f32) (x2 : FVec Ideal S14x128x128 .f32)
    (x3 : FVec Ideal S14x128 .f32) :
    matOf (val_main_v125 (F := Ideal) x0 x1 x2 x3) = layerR (adjOf x1) (wOf x2 13) (bOf x3 13) (matOf (val_main_v116 (F := Ideal) x0 x1 x2 x3)) :=
  layer_read x1 (val_main_v116 (F := Ideal) x0 x1 x2 x3) (val_main_v119 (F := Ideal) x0 x1 x2 x3) (val_main_v120 (F := Ideal) x0 x1 x2 x3) (val_main_v124 (F := Ideal) x3) (val_main_v125 (F := Ideal) x0 x1 x2 x3)
    (val_main_v118 (F := Ideal) x2) (wOf x2 13) (bOf x3 13)
    (val_main_v119_apply x0 x1 x2 x3) (val_main_v120_apply x0 x1 x2 x3) (fun _ => rfl)
    (fun j q => (val_main_v118_apply (F := Ideal) x2 _).trans ((val_main_v117_apply (F := Ideal) x2 _).trans
      (wread x2 13 (by decide) idx_main_v117 (fun _ => rfl) (fun _ => rfl) (fun _ => rfl) j q)))
    (fun p q => (val_main_v124_apply (F := Ideal) x3 (ix2 p q)).trans ((val_main_v123_apply (F := Ideal) x3 _).trans
      ((val_main_v122_apply (F := Ideal) x3 _).trans ((val_main_v121_apply (F := Ideal) x3 _).trans
        (bread x3 13 (by decide) idx_main_v121 (fun _ => rfl) (fun _ => rfl) p q)))))

/-! ## The chain -/

/-- The stage after layer 1 is the 1-fold iterate. -/
theorem stage_1 (x0 : FVec Ideal S10000x128 .f32) (x1 : FVec Ideal S10000x10000 .f32) (x2 : FVec Ideal S14x128x128 .f32)
    (x3 : FVec Ideal S14x128 .f32) :
    matOf (val_main_v8 (F := Ideal) x0 x1 x2 x3) = gcnR (adjOf x1) (wOf x2) (bOf x3) (matOf x0) 1 :=
  layer_0 x0 x1 x2 x3

/-- The stage after layer 2 is the 2-fold iterate. -/
theorem stage_2 (x0 : FVec Ideal S10000x128 .f32) (x1 : FVec Ideal S10000x10000 .f32) (x2 : FVec Ideal S14x128x128 .f32)
    (x3 : FVec Ideal S14x128 .f32) :
    matOf (val_main_v17 (F := Ideal) x0 x1 x2 x3) = gcnR (adjOf x1) (wOf x2) (bOf x3) (matOf x0) 2 :=
  (layer_1 x0 x1 x2 x3).trans (congrArg (layerR (adjOf x1) (wOf x2 1) (bOf x3 1)) (stage_1 x0 x1 x2 x3))

/-- The stage after layer 3 is the 3-fold iterate. -/
theorem stage_3 (x0 : FVec Ideal S10000x128 .f32) (x1 : FVec Ideal S10000x10000 .f32) (x2 : FVec Ideal S14x128x128 .f32)
    (x3 : FVec Ideal S14x128 .f32) :
    matOf (val_main_v26 (F := Ideal) x0 x1 x2 x3) = gcnR (adjOf x1) (wOf x2) (bOf x3) (matOf x0) 3 :=
  (layer_2 x0 x1 x2 x3).trans (congrArg (layerR (adjOf x1) (wOf x2 2) (bOf x3 2)) (stage_2 x0 x1 x2 x3))

/-- The stage after layer 4 is the 4-fold iterate. -/
theorem stage_4 (x0 : FVec Ideal S10000x128 .f32) (x1 : FVec Ideal S10000x10000 .f32) (x2 : FVec Ideal S14x128x128 .f32)
    (x3 : FVec Ideal S14x128 .f32) :
    matOf (val_main_v35 (F := Ideal) x0 x1 x2 x3) = gcnR (adjOf x1) (wOf x2) (bOf x3) (matOf x0) 4 :=
  (layer_3 x0 x1 x2 x3).trans (congrArg (layerR (adjOf x1) (wOf x2 3) (bOf x3 3)) (stage_3 x0 x1 x2 x3))

/-- The stage after layer 5 is the 5-fold iterate. -/
theorem stage_5 (x0 : FVec Ideal S10000x128 .f32) (x1 : FVec Ideal S10000x10000 .f32) (x2 : FVec Ideal S14x128x128 .f32)
    (x3 : FVec Ideal S14x128 .f32) :
    matOf (val_main_v44 (F := Ideal) x0 x1 x2 x3) = gcnR (adjOf x1) (wOf x2) (bOf x3) (matOf x0) 5 :=
  (layer_4 x0 x1 x2 x3).trans (congrArg (layerR (adjOf x1) (wOf x2 4) (bOf x3 4)) (stage_4 x0 x1 x2 x3))

/-- The stage after layer 6 is the 6-fold iterate. -/
theorem stage_6 (x0 : FVec Ideal S10000x128 .f32) (x1 : FVec Ideal S10000x10000 .f32) (x2 : FVec Ideal S14x128x128 .f32)
    (x3 : FVec Ideal S14x128 .f32) :
    matOf (val_main_v53 (F := Ideal) x0 x1 x2 x3) = gcnR (adjOf x1) (wOf x2) (bOf x3) (matOf x0) 6 :=
  (layer_5 x0 x1 x2 x3).trans (congrArg (layerR (adjOf x1) (wOf x2 5) (bOf x3 5)) (stage_5 x0 x1 x2 x3))

/-- The stage after layer 7 is the 7-fold iterate. -/
theorem stage_7 (x0 : FVec Ideal S10000x128 .f32) (x1 : FVec Ideal S10000x10000 .f32) (x2 : FVec Ideal S14x128x128 .f32)
    (x3 : FVec Ideal S14x128 .f32) :
    matOf (val_main_v62 (F := Ideal) x0 x1 x2 x3) = gcnR (adjOf x1) (wOf x2) (bOf x3) (matOf x0) 7 :=
  (layer_6 x0 x1 x2 x3).trans (congrArg (layerR (adjOf x1) (wOf x2 6) (bOf x3 6)) (stage_6 x0 x1 x2 x3))

/-- The stage after layer 8 is the 8-fold iterate. -/
theorem stage_8 (x0 : FVec Ideal S10000x128 .f32) (x1 : FVec Ideal S10000x10000 .f32) (x2 : FVec Ideal S14x128x128 .f32)
    (x3 : FVec Ideal S14x128 .f32) :
    matOf (val_main_v71 (F := Ideal) x0 x1 x2 x3) = gcnR (adjOf x1) (wOf x2) (bOf x3) (matOf x0) 8 :=
  (layer_7 x0 x1 x2 x3).trans (congrArg (layerR (adjOf x1) (wOf x2 7) (bOf x3 7)) (stage_7 x0 x1 x2 x3))

/-- The stage after layer 9 is the 9-fold iterate. -/
theorem stage_9 (x0 : FVec Ideal S10000x128 .f32) (x1 : FVec Ideal S10000x10000 .f32) (x2 : FVec Ideal S14x128x128 .f32)
    (x3 : FVec Ideal S14x128 .f32) :
    matOf (val_main_v80 (F := Ideal) x0 x1 x2 x3) = gcnR (adjOf x1) (wOf x2) (bOf x3) (matOf x0) 9 :=
  (layer_8 x0 x1 x2 x3).trans (congrArg (layerR (adjOf x1) (wOf x2 8) (bOf x3 8)) (stage_8 x0 x1 x2 x3))

/-- The stage after layer 10 is the 10-fold iterate. -/
theorem stage_10 (x0 : FVec Ideal S10000x128 .f32) (x1 : FVec Ideal S10000x10000 .f32) (x2 : FVec Ideal S14x128x128 .f32)
    (x3 : FVec Ideal S14x128 .f32) :
    matOf (val_main_v89 (F := Ideal) x0 x1 x2 x3) = gcnR (adjOf x1) (wOf x2) (bOf x3) (matOf x0) 10 :=
  (layer_9 x0 x1 x2 x3).trans (congrArg (layerR (adjOf x1) (wOf x2 9) (bOf x3 9)) (stage_9 x0 x1 x2 x3))

/-- The stage after layer 11 is the 11-fold iterate. -/
theorem stage_11 (x0 : FVec Ideal S10000x128 .f32) (x1 : FVec Ideal S10000x10000 .f32) (x2 : FVec Ideal S14x128x128 .f32)
    (x3 : FVec Ideal S14x128 .f32) :
    matOf (val_main_v98 (F := Ideal) x0 x1 x2 x3) = gcnR (adjOf x1) (wOf x2) (bOf x3) (matOf x0) 11 :=
  (layer_10 x0 x1 x2 x3).trans (congrArg (layerR (adjOf x1) (wOf x2 10) (bOf x3 10)) (stage_10 x0 x1 x2 x3))

/-- The stage after layer 12 is the 12-fold iterate. -/
theorem stage_12 (x0 : FVec Ideal S10000x128 .f32) (x1 : FVec Ideal S10000x10000 .f32) (x2 : FVec Ideal S14x128x128 .f32)
    (x3 : FVec Ideal S14x128 .f32) :
    matOf (val_main_v107 (F := Ideal) x0 x1 x2 x3) = gcnR (adjOf x1) (wOf x2) (bOf x3) (matOf x0) 12 :=
  (layer_11 x0 x1 x2 x3).trans (congrArg (layerR (adjOf x1) (wOf x2 11) (bOf x3 11)) (stage_11 x0 x1 x2 x3))

/-- The stage after layer 13 is the 13-fold iterate. -/
theorem stage_13 (x0 : FVec Ideal S10000x128 .f32) (x1 : FVec Ideal S10000x10000 .f32) (x2 : FVec Ideal S14x128x128 .f32)
    (x3 : FVec Ideal S14x128 .f32) :
    matOf (val_main_v116 (F := Ideal) x0 x1 x2 x3) = gcnR (adjOf x1) (wOf x2) (bOf x3) (matOf x0) 13 :=
  (layer_12 x0 x1 x2 x3).trans (congrArg (layerR (adjOf x1) (wOf x2 12) (bOf x3 12)) (stage_12 x0 x1 x2 x3))

/-- The stage after layer 14 is the 14-fold iterate. -/
theorem stage_14 (x0 : FVec Ideal S10000x128 .f32) (x1 : FVec Ideal S10000x10000 .f32) (x2 : FVec Ideal S14x128x128 .f32)
    (x3 : FVec Ideal S14x128 .f32) :
    matOf (val_main_v125 (F := Ideal) x0 x1 x2 x3) = gcnR (adjOf x1) (wOf x2) (bOf x3) (matOf x0) 14 :=
  (layer_13 x0 x1 x2 x3).trans (congrArg (layerR (adjOf x1) (wOf x2 13) (bOf x3 13)) (stage_13 x0 x1 x2 x3))

/-- The reference's result at the entry (p, q) is the fourteen-fold iterate of the layer map on the input. -/
theorem ref_value (x : FVec Ideal S10000x128 .f32) (adj : FVec Ideal S10000x10000 .f32) (Ws : FVec Ideal S14x128x128 .f32)
    (bs : FVec Ideal S14x128 .f32) (p : Fin 10000) (q : Fin 128) :
    val_main_v125 (F := Ideal) x adj Ws bs (ix2 p q) = gcnR (adjOf adj) (wOf Ws) (bOf bs) (matOf x) 14 p q :=
  congrFun (congrFun (stage_14 x adj Ws bs) p) q

/-- The same for the result term of the reference's run, on a device, from the launch memory. -/
theorem ref_value_run (m : (ℓ : Loc nD τ sig) → Buf (Elt Ideal) ℓ) (c : Dev nD) (p : Fin 10000) (q : Fin 128) :
    Cert.ReferenceIdeal.Value.res_main_v125 m c (ix2 p q)
      = gcnR (adjOf (m ((c.tc : Thread nD τ).loc main_arg1))) (wOf (m ((c.tc : Thread nD τ).loc main_arg2)))
          (bOf (m ((c.tc : Thread nD τ).loc main_arg3))) (matOf (m ((c.tc : Thread nD τ).loc main_arg0))) 14 p q :=
  (congrFun (val_main_v125_eq (F := Ideal) m c) (ix2 p q)).trans (ref_value _ _ _ _ p q)

end Cert.ReferenceIdeal.RefValue

end
-- ==== Proof.LibFiniteInput.lean ====
/-
  A float array that passes the "all finite" test is all real.

  The finiteness test of an input, as a precondition states it, is the conjunction over all entries of
  |x| < +∞ (the and-reduction of the comparisons into one bit, from the initial bit 1).  On the extended reals
  |x| = max x (-x) is +∞ at both infinities, so the comparison holds exactly at the real entries: if the reduced
  bit is 1, no entry of the array is an infinity.
-/
import Idealize.ShloMosaic.Lib.ReduceAll
import proofs.«118626_g5102421148071_cont_8to1_c_1098_12_alg».proof.Proof.LibFinite

noncomputable section

namespace Cert.LibFiniteInput

open Idealize.ShloMosaic Cert.LibFinite

/-- The f32 word of +∞ denotes the top of the extended reals. -/
theorem ofBits_inf : Ideal.ofBits .f32 0x7F800000#32 = (⊤ : EReal) := by
  simp [Ideal.ofBits, Ideal.ieee]

/-- An extended real whose absolute value compares below +∞ is real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (⊤ : EReal) = 1#1 := by
    have := h
    rwa [Ideal.cmpf_def, Ideal.ofBits_def, ofBits_inf] at this
  induction x using EReal.rec with
  | bot => exact absurd h' (by simp [Ideal.cmp])
  | coe r => exact ⟨r, rfl⟩
  | top => exact absurd h' (by simp [Ideal.cmp])

instance : Subsingleton (⟨0, ![]⟩ : Shape).Idx := ⟨fun a b => funext fun d => d.elim0⟩

/-- If the and-reduction of the tests |x i| < +∞ over the whole array is the bit 1, every entry of x is real. -/
theorem allReal_of_test {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (j : (⟨0, ![]⟩ : Shape).Idx)
    (h : Host.reduce IntOp.andi
        (cmpf .olt (Host.absf x) (broadcastInDim s ![] hb (constant ⟨0, ![]⟩ .f32 0x7F800000#32)))
        (constantI ⟨0, ![]⟩ 1 1#1) hr hu j = 1#1) : AllReal x := fun i =>
  real_of_abs_lt_inf (x i) (Host.reduce_andi_all _ _ hr hu j h i)

end Cert.LibFiniteInput

end
-- ==== Proof.InputsReal.lean ====
/-
  Inputs that pass the finiteness precondition are real matrices.

  The precondition is the conjunction of four tests, one per input array: the and-reduction over all entries
  of |v| < +∞.  If the conjunction is the bit 1 then each test is, and a test that is 1 says that no entry of
  its array is an infinity.
-/
import proofs.«118626_g5102421148071_cont_8to1_c_1098_12_alg».proof.Pre_finite_inputs
import proofs.«118626_g5102421148071_cont_8to1_c_1098_12_alg».proof.Proof.LibFiniteInput
import proofs.«118626_g5102421148071_cont_8to1_c_1098_12_alg».proof.Proof.Spec

noncomputable section

namespace Cert.GCN

open Idealize.ShloMosaic Idealize.ShloMosaic.ValueIdx Cert.LibFinite Cert.Pre_finite_inputs

variable [Cert.Pre_finite_inputs.Facts]

/-- If the precondition's bit is 1, every entry of every input is a real number. -/
theorem inputs_real (x : FVec Ideal S10000x128 .f32) (adj : FVec Ideal S10000x10000 .f32)
    (Ws : FVec Ideal S14x128x128 .f32) (bs : FVec Ideal S14x128 .f32)
    (h : Cert.Pre_finite_inputs.fn (F := Ideal) x adj Ws bs = fun _ => 1#1) :
    AllReal x ∧ AllReal adj ∧ AllReal Ws ∧ AllReal bs := by
  have h0 := congrFun h ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨hx, ha⟩ := IntOp.andi_eq_one.1 h01
  exact ⟨Cert.LibFiniteInput.allReal_of_test x _ _ _ ix0 hx, Cert.LibFiniteInput.allReal_of_test adj _ _ _ ix0 ha,
    Cert.LibFiniteInput.allReal_of_test Ws _ _ _ ix0 h2, Cert.LibFiniteInput.allReal_of_test bs _ _ _ ix0 h3⟩

/-- The same, as the hypotheses the layer law asks for. -/
theorem inputs_realMat (x : FVec Ideal S10000x128 .f32) (adj : FVec Ideal S10000x10000 .f32)
    (Ws : FVec Ideal S14x128x128 .f32) (bs : FVec Ideal S14x128 .f32)
    (h : Cert.Pre_finite_inputs.fn (F := Ideal) x adj Ws bs = fun _ => 1#1) :
    RealMat (adjOf adj) ∧ (∀ l, RealMat (wOf Ws l)) ∧ (∀ l q, ∃ r : ℝ, bOf bs l q = (r : EReal)) ∧ RealMat (matOf x) := by
  obtain ⟨hx, ha, hw, hb⟩ := inputs_real x adj Ws bs h
  exact ⟨realMat_adjOf ha, realMat_wOf hw, real_bOf hb, realMat_matOf hx⟩

/-- Under the precondition the two orders of the fourteen layers agree. -/
theorem gcnK_eq_gcnR_of_pre (x : FVec Ideal S10000x128 .f32) (adj : FVec Ideal S10000x10000 .f32)
    (Ws : FVec Ideal S14x128x128 .f32) (bs : FVec Ideal S14x128 .f32)
    (h : Cert.Pre_finite_inputs.fn (F := Ideal) x adj Ws bs = fun _ => 1#1) (n : ℕ) :
    gcnK (adjOf adj) (wOf Ws) (bOf bs) (matOf x) n = gcnR (adjOf adj) (wOf Ws) (bOf bs) (matOf x) n := by
  obtain ⟨ha, hw, hb, hx⟩ := inputs_realMat x adj Ws bs h
  exact gcnK_eq_gcnR ha hw hb hx n

end Cert.GCN

end
-- ==== Proof.Claims.lean ====
/-
  The five claims.

  The two kernel programs (the printed one at the word level, its idealization over the extended reals) run to the
  end, fault nowhere and leave their four argument arrays as launched: the launch over the two regions and the two
  host stretches ends with every unscoped buffer at the boundary contents computed through the run, and no stretch
  or region writes an argument. The reference's frame is its run with the result dropped. Nothing was rewritten by
  the idealization, so there is nothing to preserve. For the values: the kernel's result buffer ends, entry by
  entry, at fourteen layers (A·h)·W + b from the inputs; the reference's at fourteen layers A·(h·W) + b; with every
  input entry real, as the precondition says, the two arrangements agree by distributivity in the reals.
-/
import proofs.«118626_g5102421148071_cont_8to1_c_1098_12_alg».proof.Defs
import proofs.«118626_g5102421148071_cont_8to1_c_1098_12_alg».proof.Proof.KRun
import proofs.«118626_g5102421148071_cont_8to1_c_1098_12_alg».proof.Proof.BKRun
import proofs.«118626_g5102421148071_cont_8to1_c_1098_12_alg».proof.Proof.Bridge
import proofs.«118626_g5102421148071_cont_8to1_c_1098_12_alg».proof.Proof.RefSpec
import proofs.«118626_g5102421148071_cont_8to1_c_1098_12_alg».proof.Proof.InputsReal
import proofs.«118626_g5102421148071_cont_8to1_c_1098_12_alg».proof.Proof.Gen.ReferenceIdeal.Run
import proofs.«118626_g5102421148071_cont_8to1_c_1098_12_alg».proof.Proof.Gen.Pre_finite_inputs

noncomputable section

namespace Cert.Proof.Claims

open Idealize.ShloMosaic Idealize.ShloMosaic.TcCoe Idealize.SL.Sem Idealize.ShloMosaic.ValueIdx

theorem frame_k : Cert.frame_Kernel := fun m ρ _ =>
  (θ_run Cert.Kernel.defs _ _).mono (fun r h c =>
    ⟨(h c _ (Cert.Kernel.KRun.mem_uc Cert.Kernel.main_arg0 (by decide))).trans (Cert.Kernel.KRun.W4_main_arg0 m ρ c),
     (h c _ (Cert.Kernel.KRun.mem_uc Cert.Kernel.main_arg1 (by decide))).trans (Cert.Kernel.KRun.W4_main_arg1 m ρ c),
     (h c _ (Cert.Kernel.KRun.mem_uc Cert.Kernel.main_arg2 (by decide))).trans (Cert.Kernel.KRun.W4_main_arg2 m ρ c),
     (h c _ (Cert.Kernel.KRun.mem_uc Cert.Kernel.main_arg3 (by decide))).trans (Cert.Kernel.KRun.W4_main_arg3 m ρ c)⟩)
    (Cert.Kernel.KRun.run (F := Bits) m ρ)

theorem frame_ki : Cert.frame_KernelIdeal := fun m ρ _ =>
  (θ_run Cert.KernelIdeal.defs _ _).mono (fun r h c =>
    ⟨(h c _ (Cert.KernelIdeal.KRun.mem_uc Cert.KernelIdeal.main_arg0 (by decide))).trans (Cert.KernelIdeal.KRun.W4_main_arg0 m ρ c),
     (h c _ (Cert.KernelIdeal.KRun.mem_uc Cert.KernelIdeal.main_arg1 (by decide))).trans (Cert.KernelIdeal.KRun.W4_main_arg1 m ρ c),
     (h c _ (Cert.KernelIdeal.KRun.mem_uc Cert.KernelIdeal.main_arg2 (by decide))).trans (Cert.KernelIdeal.KRun.W4_main_arg2 m ρ c),
     (h c _ (Cert.KernelIdeal.KRun.mem_uc Cert.KernelIdeal.main_arg3 (by decide))).trans (Cert.KernelIdeal.KRun.W4_main_arg3 m ρ c)⟩)
    (Cert.KernelIdeal.KRun.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.KRun.W4 m ρ c (Proc.devRef .tc Cert.KernelIdeal.main_v0), ?_, ?_⟩
  · exact (θ_run Cert.KernelIdeal.defs _ _).mono (fun r h c =>
      ⟨h c _ (Cert.KernelIdeal.KRun.mem_uc Cert.KernelIdeal.main_v0 (by decide)),
       (h c _ (Cert.KernelIdeal.KRun.mem_uc Cert.KernelIdeal.main_arg0 (by decide))).trans (Cert.KernelIdeal.KRun.W4_main_arg0 m ρ c),
       (h c _ (Cert.KernelIdeal.KRun.mem_uc Cert.KernelIdeal.main_arg1 (by decide))).trans (Cert.KernelIdeal.KRun.W4_main_arg1 m ρ c),
       (h c _ (Cert.KernelIdeal.KRun.mem_uc Cert.KernelIdeal.main_arg2 (by decide))).trans (Cert.KernelIdeal.KRun.W4_main_arg2 m ρ c),
       (h c _ (Cert.KernelIdeal.KRun.mem_uc Cert.KernelIdeal.main_arg3 (by decide))).trans (Cert.KernelIdeal.KRun.W4_main_arg3 m ρ c)⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    funext i
    obtain ⟨p, q, rfl⟩ : ∃ (p : Fin 10000) (q : Fin 128), i = ix2 p q := ⟨i 0, i 1, eq_ix2 i⟩
    rw [Cert.ReferenceIdeal.RefValue.ref_value_run m' c p q, (hagree c).1, (hagree c).2.1, (hagree c).2.2.1, (hagree c).2.2.2]
    refine Eq.trans ?_ (Cert.KernelIdeal.Bridge.kernel_value m ρ c p q).symm
    exact (congrFun (congrFun (Cert.GCN.gcnK_eq_gcnR_of_pre _ _ _ _ (hpre c) 14) p) q).symm

end Cert.Proof.Claims

end
-- ==== Proof.lean ====
/-
  The proof of the certificate's claim.

  A fourteen-layer graph convolution h ← adj · h · W_l + b_l on 10000 nodes with 128 features. The kernel programs
  bracket each layer as (adj · h) · W_l and run it in two kernel regions — the first streams the adjacency matrix
  once, keeps it as two column blocks and computes the first layer; the second iterates the remaining thirteen
  layers over a 13 × 10 grid, the features held in a two-slab scratch — and the reference brackets it as
  adj · (h · W_l). The frames of the three programs, the (empty) list of idealization rewrites and the equality of
  the two results over the extended reals, under the precondition that every input entry is a real number, are
  proved in Proof/Claims.lean from the modules it imports; here they are assembled behind the witnesses of the
  programs' stated facts.
-/
import proofs.«118626_g5102421148071_cont_8to1_c_1098_12_alg».proof.Defs
import proofs.«118626_g5102421148071_cont_8to1_c_1098_12_alg».proof.Proof.Claims
import proofs.«118626_g5102421148071_cont_8to1_c_1098_12_alg».proof.Proof.Gen.Kernel
import proofs.«118626_g5102421148071_cont_8to1_c_1098_12_alg».proof.Proof.Gen.KernelIdeal
import proofs.«118626_g5102421148071_cont_8to1_c_1098_12_alg».proof.Proof.Gen.ReferenceIdeal
import proofs.«118626_g5102421148071_cont_8to1_c_1098_12_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
